-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x400000 : Shape := ⟨2, ![2, 400000]⟩
abbrev S50000 : Shape := ⟨1, ![50000]⟩
abbrev S256x256 : Shape := ⟨2, ![256, 256]⟩
abbrev S256 : Shape := ⟨1, ![256]⟩
abbrev S256x16 : Shape := ⟨2, ![256, 16]⟩
abbrev S16 : Shape := ⟨1, ![16]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S256x16 .f32) (main_arg10 : FVec F S16 .f32) (main_v33 : IVec S_ 1) : IVec S_ 1 :=
  let main_v34 : FVec F S256x16 .f32 := Host.absf main_arg9
  let main_cst_12 : FVec F S_ .f32 := constant S_ .f32 0x7F800000#32
  let main_v35 : FVec F S256x16 .f32 := broadcastInDim S256x16 ![] bcast_S_S256x16 main_cst_12
  let main_v36 : IVec S256x16 1 := cmpf .olt main_v34 main_v35
  let main_c_13 : IVec S_ 1 := constantI S_ 1 1#1
  let main_v37 : IVec S_ 1 := (fun x v => Host.reduce IntOp.andi x v reducesTo_S256x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg6 : FVec F S256 .f32) (main_arg7 : FVec F S256x256 .f32) (main_arg8 : FVec F S256 .f32) (main_arg9 : FVec F S256x16 .f32) (main_arg10 : FVec F S16 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S50000x256 .f32) (main_arg1 : IVec S2x400000 32) (main_arg2 : IVec S50000 32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x16 .f32) (main_arg10 : FVec F S16 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_v13 main_v16
-- ==== Kernel.lean ====
abbrev S50000x256 : Shape := ⟨2, ![50000, 256]⟩
abbrev S2x400000 : Shape := ⟨2, ![2, 400000]⟩
abbrev S50000 : Shape := ⟨1, ![50000]⟩
abbrev S256x256 : Shape := ⟨2, ![256, 256]⟩
abbrev S256 : Shape := ⟨1, ![256]⟩
abbrev S256x16 : Shape := ⟨2, ![256, 16]⟩
abbrev S16 : Shape := ⟨1, ![16]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S50000x1 : Shape := ⟨2, ![50000, 1]⟩
abbrev S2000x256 : Shape := ⟨2, ![2000, 256]⟩
abbrev S2000x1 : Shape := ⟨2, ![2000, 1]⟩
abbrev S450000x256 : Shape := ⟨2, ![450000, 256]⟩
abbrev S1x256 : Shape := ⟨2, ![1, 256]⟩
abbrev S64x256 : Shape := ⟨2, ![64, 256]⟩
abbrev S64 : Shape := ⟨1, ![64]⟩
abbrev S64x1 : Shape := ⟨2, ![64, 1]⟩
abbrev S64x16 : Shape := ⟨2, ![64, 16]⟩
abbrev S1x16 : Shape := ⟨2, ![1, 16]⟩

abbrev nBuf : Space → Nat
  | .hbm => 100
  | .vmem => 42
  | .smem => 0
  | _ => 0

abbrev bufTy : (tb : Table) → Fin (tcTables nBuf tb) → BufTy
  | .hbm, ⟨0, _⟩ => ⟨S50000x256, .f32⟩
  | .hbm, ⟨1, _⟩ => ⟨S2x400000, .i32⟩
  | .hbm, ⟨2, _⟩ => ⟨S50000, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x16, .f32⟩
  | .hbm, ⟨10, _⟩ => ⟨S16, .f32⟩
  | .hbm, ⟨11, _⟩ => ⟨S50000, .i32⟩
  | .hbm, ⟨12, _⟩ => ⟨S1x400000, .i32⟩
  | .hbm, ⟨13, _⟩ => ⟨S400000, .i32⟩
  | .hbm, ⟨14, _⟩ => ⟨S450000, .i32⟩
  | .hbm, ⟨15, _⟩ => ⟨S1x400000, .i32⟩
  | .hbm, ⟨16, _⟩ => ⟨S400000, .i32⟩
  | .hbm, ⟨17, _⟩ => ⟨S450000, .i32⟩
  | .hbm, ⟨18, _⟩ => ⟨S_, .f32⟩
  | .hbm, ⟨19, _⟩ => ⟨S450000, .f32⟩
  | .hbm, ⟨20, _⟩ => ⟨S_, .f32⟩
  | .hbm, ⟨21, _⟩ => ⟨S50000, .f32⟩
  | .hbm, ⟨22, _⟩ => ⟨S450000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S256x256, .bf16⟩
  | .hbm, ⟨33, _⟩ => ⟨S50000x256, .f32⟩
  | .hbm, ⟨34, _⟩ => ⟨S_, .i32⟩
  | .hbm, ⟨35, _⟩ => ⟨S450000, .i32⟩
  | .hbm, ⟨36, _⟩ => ⟨S450000, .i1⟩
  | .hbm, ⟨37, _⟩ => ⟨S_, .i32⟩
  | .hbm, ⟨38, _⟩ => ⟨S450000, .i32⟩
  | .hbm, ⟨39, _⟩ => ⟨S450000, .i32⟩
  | .hbm, ⟨40, _⟩ => ⟨S450000, .i32⟩
  | .hbm, ⟨41, _⟩ => ⟨S450000x1, .i32⟩
  | .hbm, ⟨42, _⟩ => ⟨S450000x256, .f32⟩
  | .hbm, ⟨43, _⟩ => ⟨S_, .f32⟩
  | .hbm, ⟨44, _⟩ => ⟨S50000x256, .f32⟩
  | .hbm, ⟨45, _⟩ => ⟨S450000x1, .i32⟩
  | .hbm, ⟨46, _⟩ => ⟨S50000x256, .f32⟩
  | .hbm, ⟨47, _⟩ => ⟨S50000x256, .bf16⟩
  | .hbm, ⟨48, _⟩ => ⟨S256x256, .bf16⟩
  | .hbm, ⟨49, _⟩ => ⟨S50000x256, .f32⟩
  | .hbm, ⟨50, _⟩ => ⟨S_, .i32⟩
  | .hbm, ⟨51, _⟩ => ⟨S450000, .i32⟩
  | .hbm, ⟨52, _⟩ => ⟨S450000, .i1⟩
  | .hbm, ⟨53, _⟩ => ⟨S_, .i32⟩
  | .hbm, ⟨54, _⟩ => ⟨S450000, .i32⟩
  | .hbm, ⟨55, _⟩ => ⟨S450000, .i32⟩
  | .hbm, ⟨56, _⟩ => ⟨S450000, .i32⟩
  | .hbm, ⟨57, _⟩ => ⟨S450000x1, .i32⟩
  | .hbm, ⟨58, _⟩ => ⟨S450000x256, .f32⟩
  | .hbm, ⟨59, _⟩ => ⟨S_, .f32⟩
  | .hbm, ⟨60, _⟩ => ⟨S50000x256, .f32⟩
  | .hbm, ⟨61, _⟩ => ⟨S450000x1, .i32⟩
  | .hbm, ⟨62, _⟩ => ⟨S50000x256, .f32⟩
  | .hbm, ⟨63, _⟩ => ⟨S50000x256, .bf16⟩
  | .hbm, ⟨64, _⟩ => ⟨S256x256, .bf16⟩
  | .hbm, ⟨65, _⟩ => ⟨S50000x256, .f32⟩
  | .hbm, ⟨66, _⟩ => ⟨S_, .i32⟩
  | .hbm, ⟨67, _⟩ => ⟨S450000, .i32⟩
  | .hbm, ⟨68, _⟩ => ⟨S450000, .i1⟩
  | .hbm, ⟨69, _⟩ => ⟨S_, .i32⟩
  | .hbm, ⟨70, _⟩ => ⟨S450000, .i32⟩
  | .hbm, ⟨71, _⟩ => ⟨S450000, .i32⟩
  | .hbm, ⟨72, _⟩ => ⟨S450000, .i32⟩
  | .hbm, ⟨73, _⟩ => ⟨S450000x1, .i32⟩
  | .hbm, ⟨74, _⟩ => ⟨S450000x256, .f32⟩
  | .hbm, ⟨75, _⟩ => ⟨S_, .f32⟩
  | .hbm, ⟨76, _⟩ => ⟨S50000x256, .f32⟩
  | .hbm, ⟨77, _⟩ => ⟨S450000x1, .i32⟩
  | .hbm, ⟨78, _⟩ => ⟨S50000x256, .f32⟩
  | .hbm, ⟨79, _⟩ => ⟨S50000x256, .f32⟩
  | .hbm, ⟨80, _⟩ => ⟨S_, .f32⟩
  | .hbm, ⟨81, _⟩ => ⟨S64x256, .f32⟩
  | .hbm, ⟨82, _⟩ => ⟨S50000x1, .i32⟩
  | .hbm, ⟨83, _⟩ => ⟨S64x256, .f32⟩
  | .hbm, ⟨84, _⟩ => ⟨S_, .f32⟩
  | .hbm, ⟨85, _⟩ => ⟨S50000, .f32⟩
  | .hbm, ⟨86, _⟩ => ⟨S_, .f32⟩
  | .hbm, ⟨87, _⟩ => ⟨S64, .f32⟩
  | .hbm, ⟨88, _⟩ => ⟨S50000x1, .i32⟩
  | .hbm, ⟨89, _⟩ => ⟨S64, .f32⟩
  | .hbm, ⟨90, _⟩ => ⟨S_, .f32⟩
  | .hbm, ⟨91, _⟩ => ⟨S64, .f32⟩
  | .hbm, ⟨92, _⟩ => ⟨S64, .f32⟩
  | .hbm, ⟨93, _⟩ => ⟨S64x1, .f32⟩
  | .hbm, ⟨94, _⟩ => ⟨S64x256, .f32⟩
  | .hbm, ⟨95, _⟩ => ⟨S64x256, .f32⟩
  | .hbm, ⟨96, _⟩ => ⟨S64x16, .f32⟩
  | .hbm, ⟨97, _⟩ => ⟨S1x16, .f32⟩
  | .hbm, ⟨98, _⟩ => ⟨S64x16, .f32⟩
  | .hbm, ⟨99, _⟩ => ⟨S64x16, .f32⟩
  | .local _ .vmem, ⟨0, _⟩ => ⟨S2000x256, .f32⟩
  | .local _ .vmem, ⟨1, _⟩ => ⟨S2000x256, .f32⟩
  | .local _ .vmem, ⟨2, _⟩ => ⟨S256x256, .bf16⟩
  | .local _ .vmem, ⟨3, _⟩ => ⟨S2000x1, .f32⟩
  | .local _ .vmem, ⟨4, _⟩ => ⟨S2000x1, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S256, .f32⟩
  | .local _ .vmem, ⟨10, _⟩ => ⟨S2000x1, .f32⟩
  | .local _ .vmem, ⟨11, _⟩ => ⟨S2000x1, .f32⟩
  | .local _ .vmem, ⟨12, _⟩ => ⟨S2000x256, .bf16⟩
  | .local _ .vmem, ⟨13, _⟩ => ⟨S2000x256, .bf16⟩
  | .local _ .vmem, ⟨14, _⟩ => ⟨S2000x256, .bf16⟩
  | .local _ .vmem, ⟨15, _⟩ => ⟨S2000x256, .bf16⟩
  | .local _ .vmem, ⟨16, _⟩ => ⟨S256x256, .bf16⟩
  | .local _ .vmem, ⟨17, _⟩ => ⟨S2000x1, .f32⟩
  | .local _ .vmem, ⟨18, _⟩ => ⟨S2000x1, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S256, .f32⟩
  | .local _ .vmem, ⟨24, _⟩ => ⟨S2000x1, .f32⟩
  | .local _ .vmem, ⟨25, _⟩ => ⟨S2000x1, .f32⟩
  | .local _ .vmem, ⟨26, _⟩ => ⟨S2000x256, .bf16⟩
  | .local _ .vmem, ⟨27, _⟩ => ⟨S2000x256, .bf16⟩
  | .local _ .vmem, ⟨28, _⟩ => ⟨S2000x256, .bf16⟩
  | .local _ .vmem, ⟨29, _⟩ => ⟨S2000x256, .bf16⟩
  | .local _ .vmem, ⟨30, _⟩ => ⟨S256x256, .bf16⟩
  | .local _ .vmem, ⟨31, _⟩ => ⟨S2000x1, .f32⟩
  | .local _ .vmem, ⟨32, _⟩ => ⟨S2000x1, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S256, .f32⟩
  | .local _ .vmem, ⟨38, _⟩ => ⟨S2000x1, .f32⟩
  | .local _ .vmem, ⟨39, _⟩ => ⟨S2000x1, .f32⟩
  | .local _ .vmem, ⟨40, _⟩ => ⟨S2000x256, .f32⟩
  | .local _ .vmem, ⟨41, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem2_1 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  shapeCasts_S50000_S50000x1 : S50000.ShapeCasts S50000x1
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bcast_S_S50000x256 : S_.BroadcastsInDim S50000x256 (![] : Fin 0 → Fin S50000x256.rank)
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  shapeCasts_S2000x256_S2000x256 : S2000x256.ShapeCasts S2000x256
  packedbf16_S2000x256_S2000x256_0_0 : (Rect.unit (s := S2000x256) ![0, 0] S2000x256.size inb_S2000x256_S2000x256_0_0).PackedRows (EltTy.packing .bf16)
  bcast_S_S64x256 : S_.BroadcastsInDim S64x256 (![] : Fin 0 → Fin S64x256.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  scatter_S50000_S450000x1_S450000_n_0_0_1_wf : ScatterDims.WF S50000 S450000x1 S450000 [] [0] [0] 1
  dot_S2000x256_S256x256_S2000x256_1_0_0_1_n_n_wf : DotDims.WF S2000x256 S256x256 S2000x256 [1] [0] [0] [1] [] []
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S256x16_S64x16_1_0_0_1_n_n_wf : DotDims.WF S64x256 S256x16 S64x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S256.size a
  hwx1_1 : ∀ i : grid1.Coords, EltTy.bits .f32 = 32 ∨ (Rect.block (s := S256) S256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .bf16 = 32 ∨ (Rect.block (s := S50000x256) S2000x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .bf16 = 32 ∨ (Rect.block (s := S50000x256) S2000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256.size a ≤ S256.size a
  hwx3_1 : ∀ i : grid3.Coords, EltTy.bits .f32 = 32 ∨ (Rect.block (s := S256) S256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S50000x256.size a
  hwx3_3 : ∀ i : grid3.Coords, EltTy.bits .bf16 = 32 ∨ (Rect.block (s := S50000x256) S2000x256.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .bf16 = 32 ∨ (Rect.block (s := S50000x256) S2000x256.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .bf16 = 32 ∨ (Rect.block (s := S256x256) S256x256.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x256.size a ≤ S50000x256.size a
  hwx4_3 : ∀ i : grid4.Coords, EltTy.bits .f32 = 32 ∨ (Rect.block (s := S50000x256) S2000x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256.size a ≤ S256.size a
  hwx5_1 : ∀ i : grid5.Coords, EltTy.bits .f32 = 32 ∨ (Rect.block (s := S256) S256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x256.size a ≤ S50000x256.size a
  hwx5_3 : ∀ i : grid5.Coords, EltTy.bits .f32 = 32 ∨ (Rect.block (s := S50000x256) S2000x256.size (cc5_transform_3 i) (hinb5_3 i)).WholeWords (EltTy.packing .f32)

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x16_S64x16_1_0_0_1_n_n : DotDims S64x256 S256x16 S64x16 where
  lhsContracting := [1]
  rhsContracting := [0]
  lhsNonContracting := [0]
  rhsNonContracting := [1]
  lhsBatch := []
  rhsBatch := []
  wf := dot_S64x256_S256x16_S64x16_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v16) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v42) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v42) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v43) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v16) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v44) S2000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v54) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v16) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v55) S2000x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x256 : Shape := ⟨2, ![50000, 256]⟩
abbrev S2x400000 : Shape := ⟨2, ![2, 400000]⟩
abbrev S50000 : Shape := ⟨1, ![50000]⟩
abbrev S256x256 : Shape := ⟨2, ![256, 256]⟩
abbrev S256 : Shape := ⟨1, ![256]⟩
abbrev S256x16 : Shape := ⟨2, ![256, 16]⟩
abbrev S16 : Shape := ⟨1, ![16]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S450000x256 : Shape := ⟨2, ![450000, 256]⟩
abbrev S1x256 : Shape := ⟨2, ![1, 256]⟩
abbrev S64x256 : Shape := ⟨2, ![64, 256]⟩
abbrev S50000x1 : Shape := ⟨2, ![50000, 1]⟩
abbrev S64 : Shape := ⟨1, ![64]⟩
abbrev S64x1 : Shape := ⟨2, ![64, 1]⟩
abbrev S64x16 : Shape := ⟨2, ![64, 16]⟩
abbrev S1x16 : Shape := ⟨2, ![1, 16]⟩

abbrev nBuf : Space → Nat
  | .hbm => 217
  | .vmem => 0
  | .smem => 0
  | _ => 0

abbrev hbmTy0_0 (i : Nat) : BufTy := match i % 128 with
  | 0 => ⟨S50000x256, .f32⟩
  | 1 => ⟨S2x400000, .i32⟩
  | 2 => ⟨S50000, .i32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x16, .f32⟩
  | 10 => ⟨S16, .f32⟩
  | 11 => ⟨S50000, .i32⟩
  | 12 => ⟨S1x400000, .i32⟩
  | 13 => ⟨S400000, .i32⟩
  | 14 => ⟨S450000, .i32⟩
  | 15 => ⟨S1x400000, .i32⟩
  | 16 => ⟨S400000, .i32⟩
  | 17 => ⟨S450000, .i32⟩
  | 18 => ⟨S_, .f32⟩
  | 19 => ⟨S450000, .f32⟩
  | 20 => ⟨S_, .f32⟩
  | 21 => ⟨S50000, .f32⟩
  | 22 => ⟨S450000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S50000, .f32⟩
  | 30 => ⟨S50000, .f32⟩
  | 31 => ⟨S_, .i32⟩
  | 32 => ⟨S450000, .i32⟩
  | 33 => ⟨S450000, .i1⟩
  | 34 => ⟨S_, .i32⟩
  | 35 => ⟨S450000, .i32⟩
  | 36 => ⟨S450000, .i32⟩
  | 37 => ⟨S450000, .i32⟩
  | 38 => ⟨S450000x1, .i32⟩
  | 39 => ⟨S450000, .f32⟩
  | 40 => ⟨S_, .i32⟩
  | 41 => ⟨S450000, .i32⟩
  | 42 => ⟨S450000, .i1⟩
  | 43 => ⟨S_, .i32⟩
  | 44 => ⟨S450000, .i32⟩
  | 45 => ⟨S450000, .i32⟩
  | 46 => ⟨S450000, .i32⟩
  | 47 => ⟨S450000x1, .i32⟩
  | 48 => ⟨S450000, .f32⟩
  | 49 => ⟨S450000, .f32⟩
  | 50 => ⟨S50000x256, .f32⟩
  | 51 => ⟨S_, .i32⟩
  | 52 => ⟨S450000, .i32⟩
  | 53 => ⟨S450000, .i1⟩
  | 54 => ⟨S_, .i32⟩
  | 55 => ⟨S450000, .i32⟩
  | 56 => ⟨S450000, .i32⟩
  | 57 => ⟨S450000, .i32⟩
  | 58 => ⟨S450000x1, .i32⟩
  | 59 => ⟨S450000x256, .f32⟩
  | 60 => ⟨S450000x1, .f32⟩
  | 61 => ⟨S450000x256, .f32⟩
  | 62 => ⟨S450000x256, .f32⟩
  | 63 => ⟨S_, .f32⟩
  | 64 => ⟨S50000x256, .f32⟩
  | 65 => ⟨S450000x1, .i32⟩
  | 66 => ⟨S50000x256, .f32⟩
  | 67 => ⟨S1x256, .f32⟩
  | 68 => ⟨S50000x256, .f32⟩
  | 69 => ⟨S50000x256, .f32⟩
  | 70 => ⟨S_, .f32⟩
  | 71 => ⟨S50000x256, .f32⟩
  | 72 => ⟨S50000x256, .f32⟩
  | 73 => ⟨S50000, .i32⟩
  | 74 => ⟨S1x400000, .i32⟩
  | 75 => ⟨S400000, .i32⟩
  | 76 => ⟨S450000, .i32⟩
  | 77 => ⟨S1x400000, .i32⟩
  | 78 => ⟨S400000, .i32⟩
  | 79 => ⟨S450000, .i32⟩
  | 80 => ⟨S_, .f32⟩
  | 81 => ⟨S450000, .f32⟩
  | 82 => ⟨S_, .f32⟩
  | 83 => ⟨S50000, .f32⟩
  | 84 => ⟨S450000x1, .i32⟩
  | 85 => ⟨S50000, .f32⟩
  | 86 => ⟨S_, .f32⟩
  | 87 => ⟨S50000, .f32⟩
  | 88 => ⟨S50000, .i1⟩
  | 89 => ⟨S50000, .f32⟩
  | 90 => ⟨S_, .f32⟩
  | 91 => ⟨S50000, .f32⟩
  | 92 => ⟨S50000, .f32⟩
  | 93 => ⟨S_, .i32⟩
  | 94 => ⟨S450000, .i32⟩
  | 95 => ⟨S450000, .i1⟩
  | 96 => ⟨S_, .i32⟩
  | 97 => ⟨S450000, .i32⟩
  | 98 => ⟨S450000, .i32⟩
  | 99 => ⟨S450000, .i32⟩
  | 100 => ⟨S450000x1, .i32⟩
  | 101 => ⟨S450000, .f32⟩
  | 102 => ⟨S_, .i32⟩
  | 103 => ⟨S450000, .i32⟩
  | 104 => ⟨S450000, .i1⟩
  | 105 => ⟨S_, .i32⟩
  | 106 => ⟨S450000, .i32⟩
  | 107 => ⟨S450000, .i32⟩
  | 108 => ⟨S450000, .i32⟩
  | 109 => ⟨S450000x1, .i32⟩
  | 110 => ⟨S450000, .f32⟩
  | 111 => ⟨S450000, .f32⟩
  | 112 => ⟨S50000x256, .f32⟩
  | 113 => ⟨S_, .i32⟩
  | 114 => ⟨S450000, .i32⟩
  | 115 => ⟨S450000, .i1⟩
  | 116 => ⟨S_, .i32⟩
  | 117 => ⟨S450000, .i32⟩
  | 118 => ⟨S450000, .i32⟩
  | 119 => ⟨S450000, .i32⟩
  | 120 => ⟨S450000x1, .i32⟩
  | 121 => ⟨S450000x256, .f32⟩
  | 122 => ⟨S450000x1, .f32⟩
  | 123 => ⟨S450000x256, .f32⟩
  | 124 => ⟨S450000x256, .f32⟩
  | 125 => ⟨S_, .f32⟩
  | 126 => ⟨S50000x256, .f32⟩
  | 127 => ⟨S450000x1, .i32⟩
  | _ => ⟨S50000x256, .f32⟩

abbrev hbmTy0_1 (i : Nat) : BufTy := match i % 128 with
  | 0 => ⟨S50000x256, .f32⟩
  | 1 => ⟨S1x256, .f32⟩
  | 2 => ⟨S50000x256, .f32⟩
  | 3 => ⟨S50000x256, .f32⟩
  | 4 => ⟨S_, .f32⟩
  | 5 => ⟨S50000x256, .f32⟩
  | 6 => ⟨S50000x256, .f32⟩
  | 7 => ⟨S50000, .i32⟩
  | 8 => ⟨S1x400000, .i32⟩
  | 9 => ⟨S400000, .i32⟩
  | 10 => ⟨S450000, .i32⟩
  | 11 => ⟨S1x400000, .i32⟩
  | 12 => ⟨S400000, .i32⟩
  | 13 => ⟨S450000, .i32⟩
  | 14 => ⟨S_, .f32⟩
  | 15 => ⟨S450000, .f32⟩
  | 16 => ⟨S_, .f32⟩
  | 17 => ⟨S50000, .f32⟩
  | 18 => ⟨S450000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S50000, .f32⟩
  | 26 => ⟨S50000, .f32⟩
  | 27 => ⟨S_, .i32⟩
  | 28 => ⟨S450000, .i32⟩
  | 29 => ⟨S450000, .i1⟩
  | 30 => ⟨S_, .i32⟩
  | 31 => ⟨S450000, .i32⟩
  | 32 => ⟨S450000, .i32⟩
  | 33 => ⟨S450000, .i32⟩
  | 34 => ⟨S450000x1, .i32⟩
  | 35 => ⟨S450000, .f32⟩
  | 36 => ⟨S_, .i32⟩
  | 37 => ⟨S450000, .i32⟩
  | 38 => ⟨S450000, .i1⟩
  | 39 => ⟨S_, .i32⟩
  | 40 => ⟨S450000, .i32⟩
  | 41 => ⟨S450000, .i32⟩
  | 42 => ⟨S450000, .i32⟩
  | 43 => ⟨S450000x1, .i32⟩
  | 44 => ⟨S450000, .f32⟩
  | 45 => ⟨S450000, .f32⟩
  | 46 => ⟨S50000x256, .f32⟩
  | 47 => ⟨S_, .i32⟩
  | 48 => ⟨S450000, .i32⟩
  | 49 => ⟨S450000, .i1⟩
  | 50 => ⟨S_, .i32⟩
  | 51 => ⟨S450000, .i32⟩
  | 52 => ⟨S450000, .i32⟩
  | 53 => ⟨S450000, .i32⟩
  | 54 => ⟨S450000x1, .i32⟩
  | 55 => ⟨S450000x256, .f32⟩
  | 56 => ⟨S450000x1, .f32⟩
  | 57 => ⟨S450000x256, .f32⟩
  | 58 => ⟨S450000x256, .f32⟩
  | 59 => ⟨S_, .f32⟩
  | 60 => ⟨S50000x256, .f32⟩
  | 61 => ⟨S450000x1, .i32⟩
  | 62 => ⟨S50000x256, .f32⟩
  | 63 => ⟨S1x256, .f32⟩
  | 64 => ⟨S50000x256, .f32⟩
  | 65 => ⟨S50000x256, .f32⟩
  | 66 => ⟨S_, .f32⟩
  | 67 => ⟨S50000x256, .f32⟩
  | 68 => ⟨S50000x256, .f32⟩
  | 69 => ⟨S_, .f32⟩
  | 70 => ⟨S64x256, .f32⟩
  | 71 => ⟨S50000x1, .i32⟩
  | 72 => ⟨S64x256, .f32⟩
  | 73 => ⟨S_, .f32⟩
  | 74 => ⟨S50000, .f32⟩
  | 75 => ⟨S_, .f32⟩
  | 76 => ⟨S64, .f32⟩
  | 77 => ⟨S50000x1, .i32⟩
  | 78 => ⟨S64, .f32⟩
  | 79 => ⟨S_, .f32⟩
  | 80 => ⟨S64, .f32⟩
  | 81 => ⟨S64, .f32⟩
  | 82 => ⟨S64x1, .f32⟩
  | 83 => ⟨S64x256, .f32⟩
  | 84 => ⟨S64x256, .f32⟩
  | 85 => ⟨S64x16, .f32⟩
  | 86 => ⟨S1x16, .f32⟩
  | 87 => ⟨S64x16, .f32⟩
  | 88 => ⟨S64x16, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_15 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_17 : Ref sig .tc := ⟨.hbm, 113, rfl⟩
abbrev main_v81 : Ref sig .tc := ⟨.hbm, 114, rfl⟩
abbrev main_v82 : Ref sig .tc := ⟨.hbm, 115, rfl⟩
abbrev main_c_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_19 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_call3_cst : Ref sig .tc := ⟨.hbm, 132, rfl⟩
abbrev main_call3_v0 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_20 : Ref sig .tc := ⟨.hbm, 142, rfl⟩
abbrev main_v105 : Ref sig .tc := ⟨.hbm, 143, rfl⟩
abbrev main_cst_21 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_22 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_23 : Ref sig .tc := ⟨.hbm, 152, rfl⟩
abbrev main_v112 : Ref sig .tc := ⟨.hbm, 153, rfl⟩
abbrev main_v113 : Ref sig .tc := ⟨.hbm, 154, rfl⟩
abbrev main_c_24 : Ref sig .tc := ⟨.hbm, 155, rfl⟩
abbrev main_v114 : Ref sig .tc := ⟨.hbm, 156, rfl⟩
abbrev main_v115 : Ref sig .tc := ⟨.hbm, 157, rfl⟩
abbrev main_c_25 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_c_26 : Ref sig .tc := ⟨.hbm, 164, rfl⟩
abbrev main_v121 : Ref sig .tc := ⟨.hbm, 165, rfl⟩
abbrev main_v122 : Ref sig .tc := ⟨.hbm, 166, rfl⟩
abbrev main_c_27 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_c_28 : Ref sig .tc := ⟨.hbm, 175, rfl⟩
abbrev main_v130 : Ref sig .tc := ⟨.hbm, 176, rfl⟩
abbrev main_v131 : Ref sig .tc := ⟨.hbm, 177, rfl⟩
abbrev main_c_29 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_cst_30 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_call5_cst : Ref sig .tc := ⟨.hbm, 194, rfl⟩
abbrev main_call5_v0 : Ref sig .tc := ⟨.hbm, 195, rfl⟩
abbrev main_v146 : Ref sig .tc := ⟨.hbm, 196, rfl⟩
abbrev main_cst_31 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_cst_32 : Ref sig .tc := ⟨.hbm, 201, rfl⟩
abbrev main_v150 : Ref sig .tc := ⟨.hbm, 202, rfl⟩
abbrev main_cst_33 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_cst_34 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S450000x1_S450000x256_0_1 : S450000x1.BroadcastsInDim S450000x256 (![0, 1] : Fin 2 → Fin S450000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S64x256 : S_.BroadcastsInDim S64x256 (![] : Fin 0 → Fin S64x256.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S50000x256_S256x256_S50000x256_1_0_0_1_n_n_wf : DotDims.WF S50000x256 S256x256 S50000x256 [1] [0] [0] [1] [] []
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S256x16_S64x16_1_0_0_1_n_n_wf : DotDims.WF S64x256 S256x16 S64x16 [1] [0] [0] [1] [] []

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x16_S64x16_1_0_0_1_n_n : DotDims S64x256 S256x16 S64x16 where
  lhsContracting := [1]
  rhsContracting := [0]
  lhsNonContracting := [0]
  rhsNonContracting := [1]
  lhsBatch := []
  rhsBatch := []
  wf := dot_S64x256_S256x16_S64x16_1_0_0_1_n_n_wf

class Facts : Prop extends Facts₀ where

variable [Facts]
-- ==== Proof.KRun.lean ====
/-
  The kernel's program run from launch to return with its RESULT named. The program is six kernel launches among
  stretches of host operations; its run is the fold of the segment boundaries' buffer contents, and every weakly fair
  execution ends with each unscoped buffer at the last boundary's contents. Read at the result buffer this gives the
  result array as the last boundary's contents there; read at an argument it gives the argument as launched.
-/
import proofs.«102876_j84971632984099_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last boundary's contents
    and the argument arrays as launched. -/
theorem run_result : θ_run defs (onTc (τ := τ) (main (F := F))) ⟨m, fun _ => 0, ρ⟩ (fun r => ∀ c : Dev nD,
      r.2.mem ((c.tc : Thread nD τ).loc main_v71) = W15 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v71 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c)⟩)

end Cert.KernelIdeal.RunValue

end
-- ==== Proof.LibRowIndex.lean ====
/-
  Indexing the rows of a matrix by a column of row numbers, on the host: which operand row a gathered element reads,
  and where a scattered row lands.

  `x[idx]` of a matrix `x : [N, D]` (or of a vector `x : [N]`) at a column `idx : [E, 1]` of row numbers is a
  `gather` whose start index on the row axis is the row number read SIGNED and CLAMPED into `[0, N − 1]`
  (`rows_operandIdx_row`, `vec_operandIdx`): element `(e, c)` of the result reads row `clamp idx[e]`.
  A row-wise `scatter` of `[E, D]` updates into `[N, D]` at the same kind of column is NOT clamped: update row `e`
  lands on row `n` only if the row number read signed IS `n` (`rowScatter_lands`); any other row number drops it.
-/
import Idealize.ShloMosaic.Lib.ValueIdx

noncomputable section

namespace Idealize.ShloMosaic.RowIndex

open Idealize.ShloMosaic Idealize.ShloMosaic.ValueIdx

/-- Entry `e` of a column `[E, 1]`. -/
abbrev atRow {E : Nat} (e : Fin E) : (⟨2, ![E, 1]⟩ : Shape).Idx := ix2 e (⟨0, Nat.one_pos⟩ : Fin 1)

variable (N D E : Nat)

/-! ## Whole rows of a matrix gathered at a column of row numbers -/

/-- The dimension numbers of `x[idx]` for `x : [N, D]`, `idx : [E, 1]`: the row axis collapsed and indexed, the
    column axis a full-width offset axis. -/
abbrev rowsDims (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Result element `j = (e, c)` reads operand row `clamp idx[e]`. -/
theorem rows_operandIdx_row {w : Nat}
    (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N D E wf).operandIdx j idx 0).val = min (idx (atRow ⟨(j 0).val, idx2_lt0 j⟩)).toInt.toNat (N - 1) := by
  show (rowsDims N D E wf).start j idx 0 + (rowsDims N D E wf).batchCoord j 0 + (rowsDims N D E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N D E wf).startIndexMap from List.mem_singleton.mpr rfl)]
  have hsi : (rowsDims N D E wf).siIdx j ⟨List.idxOf (0 : Fin 2) (rowsDims N D E wf).startIndexMap,
      List.idxOf_lt_length_iff.2 (List.mem_singleton.mpr rfl)⟩ = atRow ⟨(j 0).val, idx2_lt0 j⟩ := by
    funext b; refine Fin.ext ?_
    match b with
    | ⟨0, _⟩ => rfl
    | ⟨1, _⟩ => rfl
  rw [hsi]
  rfl

/-! ## Entries of a vector gathered at a column of positions -/

/-- The dimension numbers of `x[idx]` for `x : [N]`, `idx : [E, 1]`. -/
abbrev vecDims (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` reads operand entry `clamp idx[e]`. -/
theorem vec_operandIdx {w : Nat} (wf : GatherDims.WF ⟨1, ![N]⟩ ⟨2, ![E, 1]⟩ ⟨1, ![E]⟩ [] [0] [] [0] [] 1 ![1])
    (idx : IVec ⟨2, ![E, 1]⟩ w) (e : (⟨1, ![E]⟩ : Shape).Idx) :
    ((vecDims N E wf).operandIdx e idx 0).val = min (idx (atRow ⟨(e 0).val, (e 0).isLt⟩)).toInt.toNat (N - 1) := by
  show (vecDims N E wf).start e idx 0 + (vecDims N E wf).batchCoord e 0 + (vecDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx e ⟨List.idxOf (0 : Fin 1) (vecDims N E wf).startIndexMap,
      List.idxOf_lt_length_iff.2 (List.mem_singleton.mpr rfl)⟩ = atRow ⟨(e 0).val, (e 0).isLt⟩ := by
    funext b; refine Fin.ext ?_
    match b with
    | ⟨0, _⟩ => rfl
    | ⟨1, _⟩ => rfl
  rw [hsi]
  rfl

/-! ## Rows scattered at a column of row numbers -/

/-- The dimension numbers of a row-wise scatter of `[E, D]` updates into `[N, D]` at `idx : [E, 1]`. -/
abbrev rowScatter (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update element `j = (e, c)` that lands on `i = (n, c')` has row number `idx[e]`, read signed, equal to `n`. -/
theorem rowScatter_lands {w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatter N D E wf).resultIdx? j idx = some i) :
    (idx (atRow ⟨(j 0).val, idx2_lt0 j⟩)).toInt = ((i 0).val : Int) := by
  have hs : (rowScatter N D E wf).start j idx 0 = (idx (atRow ⟨(j 0).val, idx2_lt0 j⟩)).toInt := by
    unfold ScatterDims.start
    rw [dif_pos (show (0 : Fin 2) ∈ (rowScatter N D E wf).scatterDimsToOperandDims from List.mem_singleton.mpr rfl)]
    have hsi : (rowScatter N D E wf).siIdx j ⟨List.idxOf (0 : Fin 2) (rowScatter N D E wf).scatterDimsToOperandDims,
        List.idxOf_lt_length_iff.2 (List.mem_singleton.mpr rfl)⟩ = atRow ⟨(j 0).val, idx2_lt0 j⟩ := by
      funext b; refine Fin.ext ?_
      match b with
      | ⟨0, _⟩ => rfl
      | ⟨1, _⟩ => rfl
    rw [hsi]
  have hw : (rowScatter N D E wf).window j 0 = 0 := by
    have hk : (0 : Fin 2) ∉ (rowScatter N D E wf).sKept := by
      intro hmem
      have h2 : (0 : Fin 2) ∈ (List.finRange 2).filter (· ∉ ([0] : List (Fin 2))) := hmem
      simp at h2
    unfold ScatterDims.window
    rw [dif_neg hk]
  unfold ScatterDims.resultIdx? at h
  split at h
  · rename_i hb
    have h0 : ((rowScatter N D E wf).start j idx 0 + ((rowScatter N D E wf).window j 0 : Int)).toNat = (i 0).val :=
      congrArg (fun f => (f 0).val) (Option.some.inj h)
    have h1 := (hb 0).1
    rw [hs, hw] at h0 h1
    omega
  · exact absurd h (by simp)

/-! ## A row number already in range -/

/-- A row number that reads signed as a natural `n` below `N` is left alone by wrapping (a negative number gets an offset
    added) and by clamping into `[0, N − 1]`: it is not negative, and it is in range. -/
theorem wrap_clamp_of_toInt_eq {N : Nat} (c off : BitVec 32) (n : Nat) (hn : n < N) (hc : c.toInt = (n : Int)) :
    min (Scalar.select (IntOp.cmpi .slt c 0#32) (IntOp.addi c off) c).toInt.toNat (N - 1) = n := by
  have hlt : ¬ (c.toInt < (0#32 : BitVec 32).toInt) := by
    rw [hc]
    simp
  have hcmp : IntOp.cmpi .slt c 0#32 = 0#1 := by
    show BitVec.ofBool (c.slt 0#32) = 0#1
    rw [BitVec.slt, decide_eq_false hlt]
    rfl
  rw [hcmp]
  show min c.toInt.toNat (N - 1) = n
  rw [hc, Int.toNat_natCast]
  omega

end Idealize.ShloMosaic.RowIndex
-- ==== Proof.LibHostColumns.lean ====
/-
  Host forms of a keepdims reduction, read at coordinates. A reduction over the columns of an `[a, b]` array leaves one
  value per row; the index of row `p` with column `k` put back is `(p, k)`. The host lays a per-row value back against
  the rows by two `broadcast_in_dim`s: `[a]` to the column `[a, 1]` (operand axis 0 on result axis 0), then the column
  to `[a, b]` (operand axes on the same result axes, the unit axis repeated). At `(p, c)` the result is the value of
  row `p`.
-/
import Idealize.ShloMosaic.Lib.ValueIdx
import Idealize.ShloMosaic.Lib.Pipeline.Value
import Idealize.ShloMosaic.PureOps.Reduce

namespace Idealize.ShloMosaic.ValueIdx

variable {α : Type}

/-- The reduced index `p` of a reduction over the columns, with column `k` put back, is `(p, k)`. -/
theorem lift_ix1_columns {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- An `[a]` array laid out as the column `[a, 1]` by the host's broadcast reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` laid against `b` columns by the host's broadcast reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value laid out as a column and then against every column reads, at `(p, c)`, the value of row `p`. -/
theorem broadcastInDim_column_apply {a b : ℕ} (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![a, 1]⟩ (![0] : Fin 1 → Fin 2) h1 x) (ix2 p c)
      = x (ix1 p) :=
  (broadcastInDim_a1_ab_apply _ h2 p c).trans (broadcastInDim_a_a1_apply x h1 p 0)

end Idealize.ShloMosaic.ValueIdx
-- ==== Proof.LibRowScatterSum.lean ====
/-
  Rows of a matrix gathered and scattered at a column of row numbers, read at coordinates.

  For `x : [N, D]` and a column `idx : [E, 1]` of row numbers:
  * element `(e, c)` of the gather `x[idx]` reads operand column `c` (`rows_operandIdx_col`), so it is
    `x (clamp idx[e], c)` (`rows_operandIdx_ix2`, `gather_rows_apply`);
  * an update element `(e, c)` of a row-wise scatter lands on `(n, c')` exactly when the row number `idx[e]`, read
    signed, is `n`, and `c = c'` (`rowScatter_resultIdx?_eq_some_iff`): the row is not clamped, the column is kept;
  * hence the host's accumulating scatter, on the extended reals, is at `(n, c)` the operand there plus the sum of
    `upd (e, c)` over the update rows `e` whose row number is `n` (`hostScatterAdd_rows_apply`): a segment sum;
    `rowsTo_column` names those rows when the column is a vector laid out as `[E, 1]`.
  It builds on the row-index lemmas (rows_operandIdx_row, rowScatter) and the host's column broadcast read at
  coordinates, which it imports.
-/
import proofs.«102876_j84971632984099_2_alg».proof.Proof.LibRowIndex
import proofs.«102876_j84971632984099_2_alg».proof.Proof.LibHostColumns
import Idealize.ShloMosaic.PureOps.Ideal

noncomputable section

namespace Idealize.ShloMosaic.RowIndex

open Idealize.ShloMosaic Idealize.ShloMosaic.ValueIdx

variable (N D E : Nat)

/-! ## The gathered element's column -/

/-- Result element `j = (e, c)` of a row gather reads operand column `c`. -/
theorem rows_operandIdx_col {w : Nat}
    (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N D E wf).operandIdx j idx 1).val = (j 1).val := by
  show (rowsDims N D E wf).start j idx 1 + (rowsDims N D E wf).batchCoord j 1 + (rowsDims N D E wf).offCoord j 1 = _
  rw [GatherDims.batchCoord_eq_zero _ _ _ List.not_mem_nil]
  have hs : (rowsDims N D E wf).start j idx 1 = 0 := by
    unfold GatherDims.start
    rw [dif_neg (fun h => absurd (List.mem_singleton.mp h) (show ¬ ((1 : Fin 2) = 0) by decide))]
  have hk : (1 : Fin 2) ∈ (rowsDims N D E wf).sKept :=
    (GatherDims.mem_sKept _ _).mpr ⟨fun h => absurd (List.mem_singleton.mp h) (show ¬ ((1 : Fin 2) = 0) by decide), List.not_mem_nil⟩
  rw [hs]
  unfold GatherDims.offCoord
  rw [dif_pos hk]
  simp only [Nat.zero_add]
  rfl

/-- Result element `(e, c)` of a row gather reads the operand at `(clamp idx[e], c)`. -/
theorem rows_operandIdx_ix2 {w : Nat} (hN : 0 < N)
    (wf : GatherDims.WF ⟨2, ![N, D]⟩ ⟨2, ![E, 1]⟩ ⟨2, ![E, D]⟩ [1] [0] [] [0] [] 1 ![1, D])
    (idx : IVec ⟨2, ![E, 1]⟩ w) (e : Fin E) (c : Fin D) :
    (rowsDims N D E wf).operandIdx (ix2 e c) idx
      = ix2 (⟨min (idx (atRow e)).toInt.toNat (N - 1), Nat.lt_of_le_of_lt (Nat.min_le_right _ _) (by omega)⟩ : Fin N) c := by
  funext a
  apply Fin.ext
  match a with
  | ⟨0, _⟩ => exact rows_operandIdx_row N D E wf idx (ix2 e c)
  | ⟨1, _⟩ => exact rows_operandIdx_col N D E wf idx (ix2 e c)

/-- The host's row gather at `(e, c)` is the operand at `(clamp idx[e], c)`. -/
theorem gather_rows_apply {α : Type} {w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowsDims N D E wf) x idx (ix2 e c)
      = x (ix2 (⟨min (idx (atRow e)).toInt.toNat (N - 1), Nat.lt_of_le_of_lt (Nat.min_le_right _ _) (by omega)⟩ : Fin N) c) :=
  congrArg x (rows_operandIdx_ix2 N D E hN wf idx e c)

/-! ## Where an update element of a row scatter lands -/

section Lands

variable {w : Nat} (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

/-- On the row axis the window starts at the row number read signed. -/
theorem rowScatter_start_row :
    (rowScatter N D E wf).start j idx 0 = (idx (atRow ⟨(j 0).val, idx2_lt0 j⟩)).toInt := by
  unfold ScatterDims.start
  rw [dif_pos (show (0 : Fin 2) ∈ (rowScatter N D E wf).scatterDimsToOperandDims from List.mem_singleton.mpr rfl)]
  have hsi : (rowScatter N D E wf).siIdx j ⟨List.idxOf (0 : Fin 2) (rowScatter N D E wf).scatterDimsToOperandDims,
      List.idxOf_lt_length_iff.2 (List.mem_singleton.mpr rfl)⟩ = atRow ⟨(j 0).val, idx2_lt0 j⟩ := by
    funext b; refine Fin.ext ?_
    match b with
    | ⟨0, _⟩ => rfl
    | ⟨1, _⟩ => rfl
  rw [hsi]

/-- On the column axis the window starts at zero: no index names that axis. -/
theorem rowScatter_start_col : (rowScatter N D E wf).start j idx 1 = 0 := by
  unfold ScatterDims.start
  rw [dif_neg (fun h => absurd (List.mem_singleton.mp h) (show ¬ ((1 : Fin 2) = 0) by decide))]

/-- The row axis is inserted: no window coordinate. -/
theorem rowScatter_window_row : (rowScatter N D E wf).window j 0 = 0 := by
  have hk : (0 : Fin 2) ∉ (rowScatter N D E wf).sKept := by
    intro hmem
    have h2 : (0 : Fin 2) ∈ (List.finRange 2).filter (· ∉ ([0] : List (Fin 2))) := hmem
    simp at h2
  unfold ScatterDims.window
  rw [dif_neg hk]

/-- The column axis carries the update's column. -/
theorem rowScatter_window_col : (rowScatter N D E wf).window j 1 = (j 1).val := by
  have hk : (1 : Fin 2) ∈ (rowScatter N D E wf).sKept := by
    show (1 : Fin 2) ∈ (List.finRange 2).filter (· ∉ ([0] : List (Fin 2)))
    decide
  unfold ScatterDims.window
  rw [dif_pos hk]
  rfl

/-- An update element `j = (e, c)` lands on `i = (n, c')` exactly when its row number, read signed, is `n` and
    `c = c'`. -/
theorem rowScatter_resultIdx?_eq_some_iff (i : (⟨2, ![N, D]⟩ : Shape).Idx) :
    (rowScatter N D E wf).resultIdx? j idx = some i
      ↔ (idx (atRow ⟨(j 0).val, idx2_lt0 j⟩)).toInt = ((i 0).val : Int) ∧ (j 1).val = (i 1).val := by
  have hs0 := rowScatter_start_row N D E wf idx j
  have hs1 := rowScatter_start_col N D E wf idx j
  have hw0 := rowScatter_window_row N D E wf j
  have hw1 := rowScatter_window_col N D E wf j
  have hi0 : (i 0).val < N := idx2_lt0 i
  have hi1 : (i 1).val < D := idx2_lt1 i
  have hj1 : (j 1).val < D := idx2_lt1 j
  unfold ScatterDims.resultIdx?
  split
  · rename_i hb
    constructor
    · intro h
      have h0 : ((rowScatter N D E wf).start j idx 0 + ((rowScatter N D E wf).window j 0 : Int)).toNat = (i 0).val :=
        congrArg (fun f => (f 0).val) (Option.some.inj h)
      have h1 : ((rowScatter N D E wf).start j idx 1 + ((rowScatter N D E wf).window j 1 : Int)).toNat = (i 1).val :=
        congrArg (fun f => (f 1).val) (Option.some.inj h)
      have hb0 := (hb 0).1
      rw [hs0, hw0] at h0 hb0
      rw [hs1, hw1] at h1
      constructor <;> omega
    · rintro ⟨h0, h1⟩
      refine congrArg some (funext fun a => Fin.ext ?_)
      match a with
      | ⟨0, _⟩ =>
        show ((rowScatter N D E wf).start j idx 0 + ((rowScatter N D E wf).window j 0 : Int)).toNat = (i 0).val
        rw [hs0, hw0, h0]; omega
      | ⟨1, _⟩ =>
        show ((rowScatter N D E wf).start j idx 1 + ((rowScatter N D E wf).window j 1 : Int)).toNat = (i 1).val
        rw [hs1, hw1]; omega
  · rename_i hb
    constructor
    · intro h; exact absurd h (by simp)
    · rintro ⟨h0, h1⟩
      refine absurd (fun a => ?_) hb
      match a with
      | ⟨0, _⟩ =>
        show 0 ≤ (rowScatter N D E wf).start j idx 0 + ((rowScatter N D E wf).window j 0 : Int)
          ∧ (rowScatter N D E wf).start j idx 0 + ((rowScatter N D E wf).window j 0 : Int) < (N : Int)
        rw [hs0, hw0, h0]; omega
      | ⟨1, _⟩ =>
        show 0 ≤ (rowScatter N D E wf).start j idx 1 + ((rowScatter N D E wf).window j 1 : Int)
          ∧ (rowScatter N D E wf).start j idx 1 + ((rowScatter N D E wf).window j 1 : Int) < (D : Int)
        rw [hs1, hw1]; omega

end Lands

/-! ## The accumulating row scatter as a segment sum -/

/-- The update rows whose row number, read signed, is `n`. -/
def rowsTo {w : Nat} (idx : IVec ⟨2, ![E, 1]⟩ w) (n : Nat) : Finset (Fin E) :=
  Finset.univ.filter fun e => (idx (atRow e)).toInt = (n : Int)

/-- When the column of row numbers is a vector `x : [E]` laid out as `[E, 1]` by the host's broadcast, the rows sent to
    `n` are the positions `e` with `x e`, read signed, equal to `n`. -/
theorem rowsTo_column {w : Nat} (x : IVec ⟨1, ![E]⟩ w)
    (h : (⟨1, ![E]⟩ : Shape).BroadcastsInDim ⟨2, ![E, 1]⟩ (![0] : Fin 1 → Fin 2)) (n : Nat) :
    rowsTo E (broadcastInDim ⟨2, ![E, 1]⟩ (![0] : Fin 1 → Fin 2) h x) n
      = Finset.univ.filter fun e : Fin E => (x (ix1 e)).toInt = (n : Int) := by
  unfold rowsTo
  refine Finset.filter_congr fun e _ => ?_
  rw [show broadcastInDim ⟨2, ![E, 1]⟩ (![0] : Fin 1 → Fin 2) h x (atRow e) = x (ix1 e) from
    broadcastInDim_a_a1_apply x h e _]

/-- On the extended reals the host's accumulating row scatter is, at `(n, c)`, the operand there plus the sum of the
    updates `(e, c)` over the rows `e` sent to `n`. -/
theorem hostScatterAdd_rows_apply {w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (n : Fin N) (c : Fin D) :
    Ideal.hostScatterAdd (rowScatter N D E wf) x idx upd (ix2 n c)
      = x (ix2 n c) + ∑ e ∈ rowsTo E idx n.val, upd (ix2 e c) := by
  unfold Ideal.hostScatterAdd rowsTo
  refine congrArg (x (ix2 n c) + ·) ?_
  refine Finset.sum_bij' (fun j _ => (⟨(j 0).val, idx2_lt0 j⟩ : Fin E)) (fun e _ => ix2 e c) ?_ ?_ ?_ ?_ ?_
  · intro j hj
    have h := (rowScatter_resultIdx?_eq_some_iff N D E wf idx j (ix2 n c)).mp (Finset.mem_filter.mp hj).2
    exact Finset.mem_filter.mpr ⟨Finset.mem_univ _, h.1⟩
  · intro e he
    have h := (Finset.mem_filter.mp he).2
    exact Finset.mem_filter.mpr ⟨Finset.mem_univ _,
      (rowScatter_resultIdx?_eq_some_iff N D E wf idx (ix2 e c) (ix2 n c)).mpr ⟨h, rfl⟩⟩
  · intro j hj
    have h := (rowScatter_resultIdx?_eq_some_iff N D E wf idx j (ix2 n c)).mp (Finset.mem_filter.mp hj).2
    funext a; apply Fin.ext
    match a with
    | ⟨0, _⟩ => rfl
    | ⟨1, _⟩ => exact h.2.symm
  · intro e _
    rfl
  · intro j hj
    have h := (rowScatter_resultIdx?_eq_some_iff N D E wf idx j (ix2 n c)).mp (Finset.mem_filter.mp hj).2
    refine congrArg upd ?_
    funext a; apply Fin.ext
    match a with
    | ⟨0, _⟩ => rfl
    | ⟨1, _⟩ => exact h.2

/-- The same for the host operation as a program prints it, `Host.scatterAdd` read on the extended reals. -/
theorem scatterAdd_rows_apply {φ : FTy} {w : Nat}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (n : Fin N) (c : Fin D) :
    Host.scatterAdd (rowScatter N D E wf) x idx upd (ix2 n c)
      = x (ix2 n c) + ∑ e ∈ rowsTo E idx n.val, upd (ix2 e c) :=
  hostScatterAdd_rows_apply N D E wf x idx upd n c

end Idealize.ShloMosaic.RowIndex
-- ==== Proof.LibVecIndex.lean ====
/-
  Entries of a vector gathered and scattered at a column of positions, two vectors laid end to end, and a sum over the
  joined range split at the joint — read at coordinates.

  For a vector `x : [N]` and a column `idx : [E, 1]` of positions:
  * element `e` of the gather `x[idx]` is `x (clamp idx[e])`, the position read signed and clamped into
    `[0, N − 1]` (`gather_vec_apply`);
  * an update element `e` of an entry-wise scatter of `[E]` updates lands on entry `n` exactly when the position
    `idx[e]`, read signed, is `n` (`vecScatter_resultIdx?_eq_some_iff`): the position is not clamped;
  * hence the host's accumulating scatter, on the extended reals, is at `n` the operand there plus the sum of
    `upd e` over the updates `e` whose position is `n` (`hostScatterAdd_vec_apply`): a segment sum.
  For `x : [a]` and `y : [b]` laid end to end into `[c]`, `c = a + b`: position `p < a` reads `x p`, position
  `a + q` reads `y q` (`concatenate_vec_apply_left` / `_right`); and a sum over `Fin c` is the sum over the first
  `a` positions plus the sum over the last `b` (`sum_fin_split`; `sum_filter_fin_split` for a filtered sum).
-/
import proofs.«102876_j84971632984099_2_alg».proof.Proof.LibRowScatterSum
import Idealize.ShloMosaic.Lib.Pipeline.Value

noncomputable section

open scoped BigOperators

namespace Idealize.ShloMosaic.RowIndex

open Idealize.ShloMosaic Idealize.ShloMosaic.ValueIdx

variable (N E : Nat)

/-! ## Entries of a vector gathered at a column of positions -/

/-- Result element `e` of a vector gather reads the operand at `clamp idx[e]`. -/
theorem vec_operandIdx_ix1 {w : Nat} (hN : 0 < N)
    (wf : GatherDims.WF ⟨1, ![N]⟩ ⟨2, ![E, 1]⟩ ⟨1, ![E]⟩ [] [0] [] [0] [] 1 ![1])
    (idx : IVec ⟨2, ![E, 1]⟩ w) (e : Fin E) :
    (vecDims N E wf).operandIdx (ix1 e) idx
      = ix1 (⟨min (idx (atRow e)).toInt.toNat (N - 1), Nat.lt_of_le_of_lt (Nat.min_le_right _ _) (by omega)⟩ : Fin N) := by
  funext a
  apply Fin.ext
  match a with
  | ⟨0, _⟩ => exact vec_operandIdx N E wf idx (ix1 e)

/-- The host's vector gather at `e` is the operand at `clamp idx[e]`: the position read signed and clamped into
    `[0, N − 1]`. -/
theorem gather_vec_apply {α : Type} {w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 (⟨min (idx (atRow e)).toInt.toNat (N - 1), Nat.lt_of_le_of_lt (Nat.min_le_right _ _) (by omega)⟩ : Fin N)) :=
  congrArg x (vec_operandIdx_ix1 N E hN wf idx e)

/-! ## Entries scattered at a column of positions -/

/-- The dimension numbers of an entry-wise scatter of `[E]` updates into `[N]` at `idx : [E, 1]`: no window axis, the
    operand's one axis inserted and indexed. -/
abbrev vecScatter (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Lands

variable {w : Nat} (wf : ScatterDims.WF ⟨1, ![N]⟩ ⟨2, ![E, 1]⟩ ⟨1, ![E]⟩ [] [0] [0] 1)
  (idx : IVec ⟨2, ![E, 1]⟩ w) (j : (⟨1, ![E]⟩ : Shape).Idx)

/-- The window starts at the position read signed. -/
theorem vecScatter_start :
    (vecScatter N E wf).start j idx 0 = (idx (atRow ⟨(j 0).val, (j 0).isLt⟩)).toInt := by
  unfold ScatterDims.start
  rw [dif_pos (show (0 : Fin 1) ∈ (vecScatter N E wf).scatterDimsToOperandDims from List.mem_singleton.mpr rfl)]
  have hsi : (vecScatter N E wf).siIdx j ⟨List.idxOf (0 : Fin 1) (vecScatter N E wf).scatterDimsToOperandDims,
      List.idxOf_lt_length_iff.2 (List.mem_singleton.mpr rfl)⟩ = atRow ⟨(j 0).val, (j 0).isLt⟩ := by
    funext b; refine Fin.ext ?_
    match b with
    | ⟨0, _⟩ => rfl
    | ⟨1, _⟩ => rfl
  exact congrArg (fun k => (idx k).toInt) hsi

/-- The one axis is inserted: no window coordinate. -/
theorem vecScatter_window : (vecScatter N E wf).window j 0 = 0 := by
  have hk : (0 : Fin 1) ∉ (vecScatter N E wf).sKept := by
    intro hmem
    have h2 : (0 : Fin 1) ∈ (List.finRange 1).filter (· ∉ ([0] : List (Fin 1))) := hmem
    simp at h2
  unfold ScatterDims.window
  rw [dif_neg hk]

/-- An update element `j = e` lands on `i = n` exactly when its position, read signed, is `n`. -/
theorem vecScatter_resultIdx?_eq_some_iff (i : (⟨1, ![N]⟩ : Shape).Idx) :
    (vecScatter N E wf).resultIdx? j idx = some i
      ↔ (idx (atRow ⟨(j 0).val, (j 0).isLt⟩)).toInt = ((i 0).val : Int) := by
  have hs0 := vecScatter_start N E wf idx j
  have hw0 := vecScatter_window N E wf j
  have hi0 : (i 0).val < N := (i 0).isLt
  unfold ScatterDims.resultIdx?
  split
  · rename_i hb
    constructor
    · intro h
      have h0 : ((vecScatter N E wf).start j idx 0 + ((vecScatter N E wf).window j 0 : Int)).toNat = (i 0).val :=
        congrArg (fun f => (f 0).val) (Option.some.inj h)
      have hb0 := (hb 0).1
      rw [hs0, hw0] at h0 hb0
      omega
    · intro h0
      refine congrArg some (funext fun a => Fin.ext ?_)
      match a with
      | ⟨0, _⟩ =>
        show ((vecScatter N E wf).start j idx 0 + ((vecScatter N E wf).window j 0 : Int)).toNat = (i 0).val
        rw [hs0, hw0, h0]; omega
  · rename_i hb
    constructor
    · intro h; exact absurd h (by simp)
    · intro h0
      refine absurd (fun a => ?_) hb
      match a with
      | ⟨0, _⟩ =>
        show 0 ≤ (vecScatter N E wf).start j idx 0 + ((vecScatter N E wf).window j 0 : Int)
          ∧ (vecScatter N E wf).start j idx 0 + ((vecScatter N E wf).window j 0 : Int) < (N : Int)
        rw [hs0, hw0, h0]; omega

end Lands

/-! ## The accumulating vector scatter as a segment sum -/

/-- On the extended reals the host's accumulating vector scatter is, at `n`, the operand there plus the sum of the
    updates `e` over the positions `e` sent to `n` (those whose position word, read signed, is `n`). -/
theorem hostScatterAdd_vec_apply {w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Ideal.hostScatterAdd (vecScatter N E wf) x idx upd (ix1 n)
      = x (ix1 n) + ∑ e ∈ rowsTo E idx n.val, upd (ix1 e) := by
  unfold Ideal.hostScatterAdd rowsTo
  refine congrArg (x (ix1 n) + ·) ?_
  refine Finset.sum_bij' (fun j _ => (⟨(j 0).val, (j 0).isLt⟩ : Fin E)) (fun e _ => ix1 e) ?_ ?_ ?_ ?_ ?_
  · intro j hj
    have h := (vecScatter_resultIdx?_eq_some_iff N E wf idx j (ix1 n)).mp (Finset.mem_filter.mp hj).2
    exact Finset.mem_filter.mpr ⟨Finset.mem_univ _, h⟩
  · intro e he
    have h := (Finset.mem_filter.mp he).2
    exact Finset.mem_filter.mpr ⟨Finset.mem_univ _,
      (vecScatter_resultIdx?_eq_some_iff N E wf idx (ix1 e) (ix1 n)).mpr h⟩
  · intro j _
    funext a; apply Fin.ext
    match a with
    | ⟨0, _⟩ => rfl
  · intro e _
    rfl
  · intro j _
    refine congrArg upd ?_
    funext a; apply Fin.ext
    match a with
    | ⟨0, _⟩ => rfl

/-- The same for the host operation as a program prints it, `Host.scatterAdd` read on the extended reals. -/
theorem scatterAdd_vec_apply {φ : FTy} {w : Nat}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatter N E wf) x idx upd (ix1 n)
      = x (ix1 n) + ∑ e ∈ rowsTo E idx n.val, upd (ix1 e) :=
  hostScatterAdd_vec_apply N E wf x idx upd n

/-! ## Two vectors laid end to end -/

section Concat
variable {α : Type} {a b c : Nat}

/-- Two vectors `x : [a]`, `y : [b]` laid end to end, at a position `p < a`: the first vector at `p`. -/
theorem concatenate_vec_apply_left (x : (⟨1, ![a]⟩ : Shape).Idx → α) (y : (⟨1, ![b]⟩ : Shape).Idx → α)
    (h : Shape.Concatenates [(⟨1, ![a]⟩ : Shape), ⟨1, ![b]⟩] ⟨1, ![c]⟩ 0) (p : Fin c) (hp : p.val < a) :
    concatenate ⟨1, ![c]⟩ 0 [⟨⟨1, ![a]⟩, x⟩, ⟨⟨1, ![b]⟩, y⟩] h (ix1 p) = x (ix1 (⟨p.val, hp⟩ : Fin a)) := by
  refine concatenate_pair_apply_left 0 x y h (ix1 p) rfl (ix1 (⟨p.val, hp⟩ : Fin a)) fun d => ?_
  match d with
  | ⟨0, _⟩ => rfl

/-- Two vectors `x : [a]`, `y : [b]` laid end to end, at the position `a + q`: the second vector at `q`. -/
theorem concatenate_vec_apply_right (x : (⟨1, ![a]⟩ : Shape).Idx → α) (y : (⟨1, ![b]⟩ : Shape).Idx → α)
    (h : Shape.Concatenates [(⟨1, ![a]⟩ : Shape), ⟨1, ![b]⟩] ⟨1, ![c]⟩ 0) (p : Fin c) (q : Fin b)
    (hpq : p.val = a + q.val) :
    concatenate ⟨1, ![c]⟩ 0 [⟨⟨1, ![a]⟩, x⟩, ⟨⟨1, ![b]⟩, y⟩] h (ix1 p) = y (ix1 q) := by
  refine concatenate_pair_apply_right 0 x y h (ix1 p) rfl rfl (ix1 q) (fun d hd => ?_) ?_
  · match d with
    | ⟨0, _⟩ => exact absurd rfl hd
  · show q.val + a = p.val
    omega

end Concat

/-! ## A sum over a joined range, split at the joint -/

section Split
variable {M : Type*} [AddCommMonoid M] {a b c : Nat}

/-- A sum over `c = a + b` positions is the sum over the first `a` plus the sum over the last `b`. -/
theorem sum_fin_split (h : c = a + b) (f : Fin c → M) :
    ∑ i, f i = ∑ e : Fin a, f ⟨e.val, by omega⟩ + ∑ j : Fin b, f ⟨a + j.val, by omega⟩ := by
  subst h
  rw [Fin.sum_univ_add]
  rfl

/-- A filtered sum over `c = a + b` positions is the filtered sum over the first `a` plus the filtered sum over the
    last `b`. -/
theorem sum_filter_fin_split (h : c = a + b) (p : Fin c → Prop) [DecidablePred p] (f : Fin c → M) :
    ∑ i ∈ Finset.univ.filter p, f i
      = ∑ e ∈ Finset.univ.filter (fun e : Fin a => p ⟨e.val, by omega⟩), f ⟨e.val, by omega⟩
        + ∑ j ∈ Finset.univ.filter (fun j : Fin b => p ⟨a + j.val, by omega⟩), f ⟨a + j.val, by omega⟩ := by
  rw [Finset.sum_filter, sum_fin_split h, Finset.sum_filter, Finset.sum_filter]

end Split

end Idealize.ShloMosaic.RowIndex

end
-- ==== Proof.LibERealSum.lean ====
/-
  Two facts about the extended reals, for a sum of products that shares a factor.

  A finite sum of extended reals times a NONNEGATIVE REAL is the sum of the products: the extended reals are not a
  ring (`⊤ + ⊥ = ⊥` breaks distributivity in general), but a nonnegative finite factor distributes over any sum,
  infinite terms included.

  The guarded inverse square root `if 0 < x then x^(-1/2) else 0` is a nonnegative real at EVERY extended real `x`:
  at `⊤` the inverse square root is `0`, at a positive real it is `(√x)⁻¹`, and everywhere else the guard answers `0`.
-/
import Mathlib.Data.EReal.Operations
import Idealize.ShloMosaic.PureOps.Ideal

namespace Idealize.ShloMosaic.ERealSum

open Idealize.ShloMosaic

/-- A finite sum of extended reals times a nonnegative real is the sum of the products. -/
theorem sum_mul_coe {ι : Type*} (s : Finset ι) (f : ι → EReal) {r : ℝ} (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- A sum of products `a · p` times a nonnegative real `D` is the sum of `a · (p · D)`: the factor is moved inside and
    regrouped. The terms may be infinite; `D` may not. -/
theorem sum_mul_assoc {ι : Type*} (s : Finset ι) (a p : ι → EReal) {D : EReal} (hD : ∃ r : ℝ, 0 ≤ r ∧ D = (r : EReal)) :
    (∑ j ∈ s, a j * p j) * D = ∑ j ∈ s, a j * (p j * D) := by
  obtain ⟨r, hr, rfl⟩ := hD
  rw [sum_mul_coe s _ hr]
  exact Finset.sum_congr rfl fun j _ => mul_assoc _ _ _

/-- `if 0 < x then rsqrt x else 0` is a nonnegative real whatever the extended real `x`. -/
theorem guarded_rsqrt_real (x : EReal) :
    ∃ r : ℝ, 0 ≤ r ∧ Scalar.select (Ideal.cmp .ogt x 0) (Ideal.rsqrt x) (0 : EReal) = (r : EReal) := by
  by_cases h : (0 : EReal) < x
  · have hc : Ideal.cmp .ogt x 0 = 1#1 := by simp [Ideal.cmp, h]
    rw [hc]
    show ∃ r : ℝ, 0 ≤ r ∧ Ideal.rsqrt x = (r : EReal)
    induction x using EReal.rec with
    | bot => exact absurd h (by simp)
    | top => exact ⟨0, le_rfl, by rw [EReal.coe_zero]; rfl⟩
    | coe y =>
      have hy : 0 < y := by exact_mod_cast h
      refine ⟨(Real.sqrt y)⁻¹, inv_nonneg.mpr (Real.sqrt_nonneg y), ?_⟩
      show (if y < 0 then (⊥ : EReal) else if y = 0 then ⊤ else (((Real.sqrt y)⁻¹ : ℝ) : EReal)) = _
      rw [if_neg (not_lt.mpr hy.le), if_neg hy.ne']
  · have hc : Ideal.cmp .ogt x 0 = 0#1 := by simp [Ideal.cmp, h]
    rw [hc]
    exact ⟨0, le_rfl, by simp [Scalar.select]⟩

/-- The two arrangements of a normalised aggregate. On the left every term `a · p` is summed (onto zero) and the sum
    scaled by `D`; on the right every term carries its own second factor `q`, which on the summed set is `D`. For a
    nonnegative real `D` the two agree, whatever the terms. -/
theorem scaled_sum_eq {ι : Type*} (s : Finset ι) (a p q : ι → EReal) {D : EReal}
    (hD : ∃ r : ℝ, 0 ≤ r ∧ D = (r : EReal)) (hq : ∀ j ∈ s, q j = D) :
    (0 + ∑ j ∈ s, a j * p j) * D = 0 + ∑ j ∈ s, a j * (p j * q j) := by
  rw [zero_add, zero_add, sum_mul_assoc s a p hD]
  exact Finset.sum_congr rfl fun j hj => by rw [hq j hj]

/-- The same for the host's accumulating scatter at one result element `i`: scattering the terms `a · p` onto an array
    that is zero at `i` and scaling what arrives by `D` is scattering the terms `a · (p · q)` onto such an array, when
    every update that lands on `i` has `q = D` and `D` is a nonnegative real. -/
theorem hostScatterAdd_scaled {s si su : Shape} (d : ScatterDims s si su) {w : Nat} (idx : IVec si w)
    (z z' : s.Idx → EReal) (a p q : su.Idx → EReal) (i : s.Idx) {D : EReal}
    (hz : z i = 0) (hz' : z' i = 0) (hD : ∃ r : ℝ, 0 ≤ r ∧ D = (r : EReal))
    (hq : ∀ j, d.resultIdx? j idx = some i → q j = D) :
    Ideal.hostScatterAdd d z idx (fun j => a j * p j) i * D
      = Ideal.hostScatterAdd d z' idx (fun j => a j * (p j * q j)) i := by
  unfold Ideal.hostScatterAdd
  show (z i + ∑ j ∈ _, a j * p j) * D = z' i + ∑ j ∈ _, a j * (p j * q j)
  rw [hz, hz']
  exact scaled_sum_eq _ a p q hD fun j hj => hq j (Finset.mem_filter.mp hj).2

end Idealize.ShloMosaic.ERealSum
-- ==== Proof.LibGcnLayer.lean ====
/-
  One graph-convolution aggregation, in its two arrangements, on the extended reals.

  Data: a feature matrix `h : [N, D]`, a per-node scale `dis : [N]`, and for each of `E` edges a source row number
  `rw e` (already wrapped) and a target row number `c e`.  A row number is used as the hosts' gather uses it —
  read signed and clamped into `[0, N − 1]` — and as the accumulating scatter uses it — an edge whose target,
  read signed, is not a row is dropped.

  * scale first:  `out (n, d) = dis n · Σ_{e : c e = n} (h (rw e, d) · dis (rw e))`
    (the features are scaled by `dis`, gathered, summed per target, and the sums scaled by `dis` again);
  * weigh the edges:  `out (n, d) = Σ_{e : c e = n} h (rw e, d) · (dis (rw e) · dis (cw e))`
    (each gathered row is weighted by the product of the two ends' scales, `cw e` the wrapped target).

  On the summed set the target's scale is the constant `dis n` (an in-range row number survives the wrap and the
  clamp), so the two agree as soon as that factor may be moved across the sum: it is a nonnegative real.  The
  terms themselves may be infinite.  Stated for any extents `N`, `D`, `E`, over the hosts' row gather, vector gather
  and accumulating row scatter; it builds on the row-gather / segment-sum lemmas, the vector-gather lemma and the
  nonnegative-factor law for sums of extended reals, which it imports.
-/
import proofs.«102876_j84971632984099_2_alg».proof.Proof.LibRowScatterSum
import proofs.«102876_j84971632984099_2_alg».proof.Proof.LibVecIndex
import proofs.«102876_j84971632984099_2_alg».proof.Proof.LibERealSum

noncomputable section

namespace Cert.Gcn

open Idealize.ShloMosaic Idealize.ShloMosaic.ValueIdx Idealize.ShloMosaic.RowIndex

variable (N D E : Nat)

/-- A vector of extended reals all of whose entries are nonnegative reals. -/
def NonnegReal {s : Shape} (v : s.Idx → EReal) : Prop := ∀ i, ∃ r : ℝ, 0 ≤ r ∧ v i = (r : EReal)

/-- The wrapped form of a column of row numbers: a negative one has `off` added. -/
def IsWrapOf (off : BitVec 32) (cw c : IVec ⟨1, ![E]⟩ 32) : Prop :=
  ∀ e : Fin E, cw (ix1 e) = Scalar.select (IntOp.cmpi .slt (c (ix1 e)) 0#32) (IntOp.addi (c (ix1 e)) off) (c (ix1 e))

/-- The row a gather reads for edge `e`: the row number read signed, clamped into `[0, N − 1]`. -/
def rowOf (hN : 0 < N) (v : IVec ⟨1, ![E]⟩ 32) (e : Fin E) : Fin N :=
  ⟨min (v (ix1 e)).toInt.toNat (N - 1), Nat.lt_of_le_of_lt (Nat.min_le_right _ _) (by omega)⟩

section
variable (hN : 0 < N)
  (gwf : GatherDims.WF ⟨2, ![N, D]⟩ ⟨2, ![E, 1]⟩ ⟨2, ![E, D]⟩ [1] [0] [] [0] [] 1 ![1, D])
  (swf : ScatterDims.WF ⟨2, ![N, D]⟩ ⟨2, ![E, 1]⟩ ⟨2, ![E, D]⟩ [1] [0] [0] 1)
  (vwf : GatherDims.WF ⟨1, ![N]⟩ ⟨2, ![E, 1]⟩ ⟨1, ![E]⟩ [] [0] [] [0] [] 1 ![1])
  (hb1 : (⟨1, ![N]⟩ : Shape).BroadcastsInDim ⟨2, ![N, 1]⟩ (![0] : Fin 1 → Fin 2))
  (hb2 : (⟨2, ![N, 1]⟩ : Shape).BroadcastsInDim ⟨2, ![N, D]⟩ (![0, 1] : Fin 2 → Fin 2))
  (hbE : (⟨1, ![E]⟩ : Shape).BroadcastsInDim ⟨2, ![E, 1]⟩ (![0] : Fin 1 → Fin 2))
  (hbED : (⟨2, ![E, 1]⟩ : Shape).BroadcastsInDim ⟨2, ![E, D]⟩ (![0, 1] : Fin 2 → Fin 2))

/-- The per-node scale spread over the columns of `[N, D]`. -/
def spread (dis : FVec Ideal ⟨1, ![N]⟩ .f32) : FVec Ideal ⟨2, ![N, D]⟩ .f32 :=
  broadcastInDim ⟨2, ![N, D]⟩ (![0, 1] : Fin 2 → Fin 2) hb2 (broadcastInDim ⟨2, ![N, 1]⟩ (![0] : Fin 1 → Fin 2) hb1 dis)

/-- A vector of row numbers as the column `[E, 1]` the gather and the scatter take. -/
def col (v : IVec ⟨1, ![E]⟩ 32) : IVec ⟨2, ![E, 1]⟩ 32 :=
  broadcastInDim ⟨2, ![E, 1]⟩ (![0] : Fin 1 → Fin 2) hbE v

/-- Scale first: scale, gather, sum per target onto `z`, scale again. -/
def scaleFirst (z h : FVec Ideal ⟨2, ![N, D]⟩ .f32) (dis : FVec Ideal ⟨1, ![N]⟩ .f32) (rw c : IVec ⟨1, ![E]⟩ 32) :
    FVec Ideal ⟨2, ![N, D]⟩ .f32 :=
  mulf (spread N D hb1 hb2 dis)
    (Host.scatterAdd (rowScatter N D E swf) z (col E hbE c)
      (Host.gather (rowsDims N D E gwf) (mulf h (spread N D hb1 hb2 dis)) (col E hbE rw)))

/-- Weigh the edges: gather, weigh each row by the product of its two ends' scales, sum per target onto `z`. -/
def weighEdges (z h : FVec Ideal ⟨2, ![N, D]⟩ .f32) (dis : FVec Ideal ⟨1, ![N]⟩ .f32) (rw cw c : IVec ⟨1, ![E]⟩ 32) :
    FVec Ideal ⟨2, ![N, D]⟩ .f32 :=
  Host.scatterAdd (rowScatter N D E swf) z (col E hbE c)
    (mulf (Host.gather (rowsDims N D E gwf) h (col E hbE rw))
      (broadcastInDim ⟨2, ![E, D]⟩ (![0, 1] : Fin 2 → Fin 2) hbED
        (broadcastInDim ⟨2, ![E, 1]⟩ (![0] : Fin 1 → Fin 2) hbE
          (mulf (Host.gather (vecDims N E vwf) dis (col E hbE rw)) (Host.gather (vecDims N E vwf) dis (col E hbE cw))))))

theorem col_atRow (v : IVec ⟨1, ![E]⟩ 32) (e : Fin E) : col E hbE v (atRow e) = v (ix1 e) :=
  broadcastInDim_a_a1_apply v hbE e _

theorem spread_apply (dis : FVec Ideal ⟨1, ![N]⟩ .f32) (n : Fin N) (d : Fin D) :
    spread N D hb1 hb2 dis (ix2 n d) = dis (ix1 n) :=
  broadcastInDim_column_apply dis hb1 hb2 n d

/-- Scale first, read at `(n, d)`. -/
theorem scaleFirst_apply (z h : FVec Ideal ⟨2, ![N, D]⟩ .f32) (dis : FVec Ideal ⟨1, ![N]⟩ .f32)
    (rw c : IVec ⟨1, ![E]⟩ 32) (n : Fin N) (d : Fin D) :
    scaleFirst N D E gwf swf hb1 hb2 hbE z h dis rw c (ix2 n d)
      = (z (ix2 n d) + ∑ e ∈ rowsTo E (col E hbE c) n.val,
          h (ix2 (rowOf N E hN rw e) d) * dis (ix1 (rowOf N E hN rw e))) * dis (ix1 n) := by
  unfold scaleFirst
  show spread N D hb1 hb2 dis (ix2 n d) * Host.scatterAdd (rowScatter N D E swf) z (col E hbE c) _ (ix2 n d) = _
  rw [spread_apply, scatterAdd_rows_apply, mul_comm]
  refine congrArg (fun S => (z (ix2 n d) + S) * dis (ix1 n)) (Finset.sum_congr rfl fun e _ => ?_)
  rw [gather_rows_apply N D E hN gwf, col_atRow]
  show h (ix2 _ d) * spread N D hb1 hb2 dis (ix2 _ d) = _
  rw [spread_apply]
  rfl

/-- Weigh the edges, read at `(n, d)`. -/
theorem weighEdges_apply (z h : FVec Ideal ⟨2, ![N, D]⟩ .f32) (dis : FVec Ideal ⟨1, ![N]⟩ .f32)
    (rw cw c : IVec ⟨1, ![E]⟩ 32) (n : Fin N) (d : Fin D) :
    weighEdges N D E gwf swf vwf hbE hbED z h dis rw cw c (ix2 n d)
      = z (ix2 n d) + ∑ e ∈ rowsTo E (col E hbE c) n.val,
          h (ix2 (rowOf N E hN rw e) d) * (dis (ix1 (rowOf N E hN rw e)) * dis (ix1 (rowOf N E hN cw e))) := by
  unfold weighEdges
  rw [scatterAdd_rows_apply]
  refine congrArg (z (ix2 n d) + ·) (Finset.sum_congr rfl fun e _ => ?_)
  show Host.gather (rowsDims N D E gwf) h (col E hbE rw) (ix2 e d) * broadcastInDim _ _ hbED _ (ix2 e d) = _
  rw [gather_rows_apply N D E hN gwf, col_atRow, broadcastInDim_column_apply _ hbE hbED e d]
  show _ * (Host.gather (vecDims N E vwf) dis (col E hbE rw) (ix1 e) * Host.gather (vecDims N E vwf) dis (col E hbE cw) (ix1 e)) = _
  rw [gather_vec_apply N E hN vwf, gather_vec_apply N E hN vwf, col_atRow, col_atRow]
  rfl

include hN in
/-- The two arrangements agree when the scale is a nonnegative real at every node and both sums start from zero. -/
theorem scaleFirst_eq_weighEdges (off : BitVec 32) (z z' h : FVec Ideal ⟨2, ![N, D]⟩ .f32)
    (dis : FVec Ideal ⟨1, ![N]⟩ .f32) (rw cw c : IVec ⟨1, ![E]⟩ 32)
    (hz : ∀ i, z i = 0) (hz' : ∀ i, z' i = 0) (hdis : NonnegReal dis) (hcw : IsWrapOf E off cw c) :
    scaleFirst N D E gwf swf hb1 hb2 hbE z h dis rw c = weighEdges N D E gwf swf vwf hbE hbED z' h dis rw cw c := by
  funext i
  obtain ⟨n, d, rfl⟩ : ∃ (n : Fin N) (d : Fin D), i = ix2 n d := ⟨i 0, i 1, eq_ix2 i⟩
  rw [scaleFirst_apply N D E hN, weighEdges_apply N D E hN, hz, hz']
  refine ERealSum.scaled_sum_eq _ _ _ _ (hdis (ix1 n)) fun e he => ?_
  have hto : (c (ix1 e)).toInt = (n.val : Int) := by
    have := (Finset.mem_filter.mp he).2
    rwa [col_atRow] at this
  have hrow : rowOf N E hN cw e = n := by
    apply Fin.ext
    show min (cw (ix1 e)).toInt.toNat (N - 1) = n.val
    rw [hcw e]
    exact wrap_clamp_of_toInt_eq (c (ix1 e)) off n.val n.isLt hto
  rw [hrow]

end

end Cert.Gcn

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.Net.lean ====
/-
  One graph-convolution layer of a three-layer network, in the two arrangements the kernel's program and the
  reference use, on the extended reals, and the law that joins them.

  Data: a feature matrix x : [N, D], a weight matrix w : [D, D], a bias b : [D], a per-node scale dis : [N], and
  for each of E edges a (wrapped) source row number rw e and a target row number c e.

  * The kernel's arrangement. Rows are projected and scaled once per node,
        hp (i, q) = (Σ_k x (i, k) · w (k, q)) · dis i,
    the rows hp[rw e] are gathered and summed per target, and the sums are scaled by the target's own factor,
    biased and rectified:  out (n, q) = max (agg (n, q) · dis n + b q, 0).
  * The reference's arrangement. Rows are projected, h = x · w, every gathered row h[rw e] is weighted by
    dis (rw e) · dis (cw e) (cw the wrapped target), the weighted rows are summed per target, and the sums are
    biased and rectified.

  The two agree at every entry when dis is a nonnegative real at every node: the target's factor is the same for
  every edge summed into a node, and a nonnegative real factor moves across a sum of extended reals.
-/
import proofs.«102876_j84971632984099_2_alg».proof.Proof.LibGcnLayer
import proofs.«102876_j84971632984099_2_alg».proof.Proof.LibMatmul
import proofs.«102876_j84971632984099_2_alg».proof.Proof.LibColumns

open scoped BigOperators

noncomputable section

namespace Cert.Net

open Idealize.ShloMosaic Idealize.ShloMosaic.ValueIdx Idealize.ShloMosaic.RowIndex Cert.Gcn

/-- The zero both programs rectify against: the all-zero f32 pattern. -/
abbrev zeroWord : EReal := FloatOps.ofBits (F := Ideal) .f32 0x00000000#32

variable (N D E : Nat)

/-- The rows of x times w, row i scaled by the i-th entry of a column. -/
def mmScaled (x : (⟨2, ![N, D]⟩ : Shape).Idx → EReal) (w : (⟨2, ![D, D]⟩ : Shape).Idx → EReal)
    (dcol : (⟨2, ![N, 1]⟩ : Shape).Idx → EReal) : (⟨2, ![N, D]⟩ : Shape).Idx → EReal :=
  fun i => (∑ k : Fin D, x (ix2 (⟨(i 0).val, idx2_lt0 i⟩ : Fin N) k) * w (ix2 k (⟨(i 1).val, idx2_lt1 i⟩ : Fin D)))
    * dcol (ix2 (⟨(i 0).val, idx2_lt0 i⟩ : Fin N) (0 : Fin 1))

theorem mmScaled_ix2 (x : (⟨2, ![N, D]⟩ : Shape).Idx → EReal) (w : (⟨2, ![D, D]⟩ : Shape).Idx → EReal)
    (dcol : (⟨2, ![N, 1]⟩ : Shape).Idx → EReal) (p : Fin N) (q : Fin D) :
    mmScaled N D x w dcol (ix2 p q) = (∑ k : Fin D, x (ix2 p k) * w (ix2 k q)) * dcol (ix2 p (0 : Fin 1)) := rfl

/-- Row i of agg scaled by the i-th entry of a column, plus the bias, rectified. -/
def biasRelu (agg : (⟨2, ![N, D]⟩ : Shape).Idx → EReal) (b : (⟨1, ![D]⟩ : Shape).Idx → EReal)
    (dcol : (⟨2, ![N, 1]⟩ : Shape).Idx → EReal) : (⟨2, ![N, D]⟩ : Shape).Idx → EReal :=
  fun i => max (agg i * dcol (ix2 (⟨(i 0).val, idx2_lt0 i⟩ : Fin N) (0 : Fin 1)) + b (ix1 (⟨(i 1).val, idx2_lt1 i⟩ : Fin D))) zeroWord

theorem biasRelu_ix2 (agg : (⟨2, ![N, D]⟩ : Shape).Idx → EReal) (b : (⟨1, ![D]⟩ : Shape).Idx → EReal)
    (dcol : (⟨2, ![N, 1]⟩ : Shape).Idx → EReal) (p : Fin N) (q : Fin D) :
    biasRelu N D agg b dcol (ix2 p q) = max (agg (ix2 p q) * dcol (ix2 p (0 : Fin 1)) + b (ix1 q)) zeroWord := rfl

/-- The rows of x times w. -/
def proj (x : (⟨2, ![N, D]⟩ : Shape).Idx → EReal) (w : (⟨2, ![D, D]⟩ : Shape).Idx → EReal) :
    (⟨2, ![N, D]⟩ : Shape).Idx → EReal :=
  fun i => ∑ k : Fin D, x (ix2 (⟨(i 0).val, idx2_lt0 i⟩ : Fin N) k) * w (ix2 k (⟨(i 1).val, idx2_lt1 i⟩ : Fin D))

theorem proj_ix2 (x : (⟨2, ![N, D]⟩ : Shape).Idx → EReal) (w : (⟨2, ![D, D]⟩ : Shape).Idx → EReal) (p : Fin N) (q : Fin D) :
    proj N D x w (ix2 p q) = ∑ k : Fin D, x (ix2 p k) * w (ix2 k q) := rfl

section
variable (hN : 0 < N)
  (gwf : GatherDims.WF ⟨2, ![N, D]⟩ ⟨2, ![E, 1]⟩ ⟨2, ![E, D]⟩ [1] [0] [] [0] [] 1 ![1, D])
  (swf : ScatterDims.WF ⟨2, ![N, D]⟩ ⟨2, ![E, 1]⟩ ⟨2, ![E, D]⟩ [1] [0] [0] 1)
  (vwf : GatherDims.WF ⟨1, ![N]⟩ ⟨2, ![E, 1]⟩ ⟨1, ![E]⟩ [] [0] [] [0] [] 1 ![1])
  (hb1 : (⟨1, ![N]⟩ : Shape).BroadcastsInDim ⟨2, ![N, 1]⟩ (![0] : Fin 1 → Fin 2))
  (hb2 : (⟨2, ![N, 1]⟩ : Shape).BroadcastsInDim ⟨2, ![N, D]⟩ (![0, 1] : Fin 2 → Fin 2))
  (hbE : (⟨1, ![E]⟩ : Shape).BroadcastsInDim ⟨2, ![E, 1]⟩ (![0] : Fin 1 → Fin 2))
  (hbED : (⟨2, ![E, 1]⟩ : Shape).BroadcastsInDim ⟨2, ![E, D]⟩ (![0, 1] : Fin 2 → Fin 2))
  (hsc : (⟨1, ![N]⟩ : Shape).ShapeCasts ⟨2, ![N, 1]⟩)

/-- The kernel's layer: project and scale, gather the rows, sum them per target onto z, scale, bias, rectify. -/
def layerK (z : FVec Ideal ⟨2, ![N, D]⟩ .f32) (x : (⟨2, ![N, D]⟩ : Shape).Idx → EReal)
    (w : (⟨2, ![D, D]⟩ : Shape).Idx → EReal) (b : (⟨1, ![D]⟩ : Shape).Idx → EReal)
    (dis : FVec Ideal ⟨1, ![N]⟩ .f32) (rw c : IVec ⟨1, ![E]⟩ 32) : (⟨2, ![N, D]⟩ : Shape).Idx → EReal :=
  biasRelu N D
    (Host.scatterAdd (rowScatter N D E swf) z (col E hbE c)
      (Host.gather (rowsDims N D E gwf)
        (mmScaled N D x w (shapeCast ⟨2, ![N, 1]⟩ dis hsc)) (col E hbE rw)))
    b (shapeCast ⟨2, ![N, 1]⟩ dis hsc)

/-- The reference's layer: project, gather and weigh every edge's row, sum per target onto z', bias, rectify. -/
def layerR (z' : FVec Ideal ⟨2, ![N, D]⟩ .f32) (x : (⟨2, ![N, D]⟩ : Shape).Idx → EReal)
    (w : (⟨2, ![D, D]⟩ : Shape).Idx → EReal) (b : (⟨1, ![D]⟩ : Shape).Idx → EReal)
    (dis : FVec Ideal ⟨1, ![N]⟩ .f32) (rw cw c : IVec ⟨1, ![E]⟩ 32) : (⟨2, ![N, D]⟩ : Shape).Idx → EReal :=
  fun i => max (weighEdges N D E gwf swf vwf hbE hbED z' (proj N D x w) dis rw cw c i
    + b (ix1 (⟨(i 1).val, idx2_lt1 i⟩ : Fin D))) zeroWord

include hN hb1 hb2 in
/-- The two layers agree when the scale is a nonnegative real at every node and both sums start from zero. -/
theorem layerK_eq_layerR (off : BitVec 32) (z z' : FVec Ideal ⟨2, ![N, D]⟩ .f32)
    (x : (⟨2, ![N, D]⟩ : Shape).Idx → EReal) (w : (⟨2, ![D, D]⟩ : Shape).Idx → EReal) (b : (⟨1, ![D]⟩ : Shape).Idx → EReal)
    (dis : FVec Ideal ⟨1, ![N]⟩ .f32) (rw cw c : IVec ⟨1, ![E]⟩ 32)
    (hz : ∀ i, z i = 0) (hz' : ∀ i, z' i = 0) (hdis : NonnegReal dis) (hcw : IsWrapOf E off cw c) :
    layerK N D E gwf swf hbE hsc z x w b dis rw c = layerR N D E gwf swf vwf hbE hbED z' x w b dis rw cw c := by
  have hscaled : mmScaled N D x w (shapeCast ⟨2, ![N, 1]⟩ dis hsc)
      = mulf (F := Ideal) (φ := .f32) (proj N D x w) (spread N D hb1 hb2 dis) := by
    funext i
    obtain ⟨p, q, rfl⟩ : ∃ (p : Fin N) (q : Fin D), i = ix2 p q := ⟨_, _, eq_ix2 i⟩
    show mmScaled N D x w (shapeCast ⟨2, ![N, 1]⟩ dis hsc) (ix2 p q) = proj N D x w (ix2 p q) * spread N D hb1 hb2 dis (ix2 p q)
    rw [mmScaled_ix2, proj_ix2, spread_apply, shapeCast_a_a1_apply]
  have hlaw := scaleFirst_eq_weighEdges N D E hN gwf swf vwf hb1 hb2 hbE hbED off z z'
    (proj N D x w) dis rw cw c hz hz' hdis hcw
  funext i
  obtain ⟨p, q, rfl⟩ : ∃ (p : Fin N) (q : Fin D), i = ix2 p q := ⟨_, _, eq_ix2 i⟩
  unfold layerK layerR
  rw [biasRelu_ix2, hscaled, shapeCast_a_a1_apply]
  have h := congrFun hlaw (ix2 p q)
  unfold scaleFirst at h
  rw [mulf_apply, spread_apply, mul_comm] at h
  rw [h]
  rfl

end

end Cert.Net

end
-- ==== Proof.KForms.lean ====
/-
  The kernel's program folded into its stages: the edge lists, the per-node scale and its column, one layer as a
  function of the features going in (projection launch, row gather and per-target sum on the host, bias launch),
  and the pooling head.
-/
import proofs.«102876_j84971632984099_2_alg».proof.Proof.Gen.KernelIdeal
import proofs.«102876_j84971632984099_2_alg».proof.Proof.Net
import Idealize.ShloMosaic.PureOps.Ideal

set_option maxRecDepth 16384

noncomputable section

namespace Cert.KernelIdeal.Forms

open Cert.KernelIdeal Cert.KernelIdeal.Gen Idealize.ShloMosaic Idealize.ShloMosaic.TcCoe Idealize.SL.Sem
open Idealize.ShloMosaic.ValueIdx Idealize.ShloMosaic.RowIndex Cert.Gcn Cert.Net

/-- The edge list's source row numbers: row 0 of the edge array followed by one self-loop per node. -/
def srcP (ei : IVec S2x400000 32) : IVec S450000 32 :=
  concatenate S450000 0 [⟨S400000, (shapeCast _ (extractStridedSlice S1x400000 ![0, 0] ei slices_S2x400000_S1x400000_0_0) shapeCasts_S1x400000_S400000)⟩, ⟨S50000, (iotaInDim S50000 32 0)⟩] concatenates_S400000_S50000_S450000_d0

/-- The edge list's target row numbers: row 1 of the edge array followed by one self-loop per node. -/
def dstP (ei : IVec S2x400000 32) : IVec S450000 32 :=
  concatenate S450000 0 [⟨S400000, (shapeCast _ (extractStridedSlice S1x400000 ![1, 0] ei slices_S2x400000_S1x400000_1_0) shapeCasts_S1x400000_S400000)⟩, ⟨S50000, (iotaInDim S50000 32 0)⟩] concatenates_S400000_S50000_S450000_d0

/-- The degree of every node: ones summed per target onto zeros. -/
def degP (ei : IVec S2x400000 32) : FVec Ideal S50000 .f32 :=
  Host.scatterAdd scatter_S50000_S450000x1_S450000_n_0_0_1 (broadcastInDim S50000 ![] bcast_S_S50000 (constant S_ .f32 0x00000000#32)) (broadcastInDim S450000x1 ![0] bcast_S450000_S450000x1_0 (dstP ei)) (broadcastInDim S450000 ![] bcast_S_S450000 (constant S_ .f32 0x3F800000#32))

/-- The guarded inverse square root of a degree vector. -/
def disOf (deg : FVec Ideal S50000 .f32) : FVec Ideal S50000 .f32 :=
  select (cmpf (F := Ideal) .ogt deg (broadcastInDim S50000 ![] bcast_S_S50000 (constant S_ .f32 0x00000000#32))) (Host.rsqrt deg) (broadcastInDim S50000 ![] bcast_S_S50000 (constant S_ .f32 0x00000000#32))

/-- The per-node scale. -/
def disP (ei : IVec S2x400000 32) : FVec Ideal S50000 .f32 := disOf (degP ei)

/-- A vector of row numbers with the negative ones wrapped. -/
def wrapP (v : IVec S450000 32) : IVec S450000 32 :=
  select (cmpi .slt v (broadcastInDim S450000 ![] bcast_S_S450000 (constantI S_ 32 0#32))) (addi v (broadcastInDim S450000 ![] bcast_S_S450000 (constantI S_ 32 50000#32))) v

/-- The array of zeros the sums start from. -/
abbrev zK : FVec Ideal S50000x256 .f32 := broadcastInDim S50000x256 ![] bcast_S_S50000x256 (constant S_ .f32 0x00000000#32)

/-- The per-node scale as the column the kernels take. -/
def dcolP (ei : IVec S2x400000 32) : FVec Ideal S50000x1 .f32 := shapeCast S50000x1 (disP ei) shapeCasts_S50000_S50000x1

/-- What the host does between a projection launch and a bias launch, on any two edge lists: gather the rows at the
    wrapped sources and sum them per target onto zeros. -/
def aggRaw (dst src : IVec S450000 32) (hp : FVec Ideal S50000x256 .f32) : FVec Ideal S50000x256 .f32 :=
  Host.scatterAdd scatter_S50000x256_S450000x1_S450000x256_1_0_0_1 zK (broadcastInDim S450000x1 ![0] bcast_S450000_S450000x1_0 dst) (Host.gather gather_S50000x256_S450000x1_S450000x256_1_0_n_n_0_1_1256 hp (broadcastInDim S450000x1 ![0] bcast_S450000_S450000x1_0 (wrapP src)))

/-- The same on the program's own edge lists. -/
def aggP (ei : IVec S2x400000 32) (hp : FVec Ideal S50000x256 .f32) : FVec Ideal S50000x256 .f32 :=
  aggRaw (dstP ei) (srcP ei) hp

/-- One layer of the kernel's program. -/
def layerKP (ei : IVec S2x400000 32) (x : S50000x256.Idx → EReal) (w : S256x256.Idx → EReal) (b : S256.Idx → EReal) :
    S50000x256.Idx → EReal :=
  biasRelu 50000 256 (aggP ei (mmScaled 50000 256 x w (dcolP ei))) b (dcolP ei)

/-- It is the kernel's arrangement of the layer. -/
theorem layerKP_eq (ei : IVec S2x400000 32) (x : S50000x256.Idx → EReal) (w : S256x256.Idx → EReal) (b : S256.Idx → EReal) :
    layerKP ei x w b
      = layerK 50000 256 450000 Facts₀.gather_S50000x256_S450000x1_S450000x256_1_0_n_n_0_1_1256_wf
          Facts₀.scatter_S50000x256_S450000x1_S450000x256_1_0_0_1_wf bcast_S450000_S450000x1_0 shapeCasts_S50000_S50000x1
          zK x w b (disP ei) (wrapP (srcP ei)) (dstP ei) := rfl

/-- The pooling head, as printed: the rows summed per graph, divided by the graph's node count (at least one),
    projected and biased. -/
def tailP (batch : IVec S50000 32) (h : FVec Ideal S50000x256 .f32) (wfc : FVec Ideal S256x16 .f32) (bfc : FVec Ideal S16 .f32) :
    FVec Ideal S64x16 .f32 :=
  addf (Host.dotGeneral dot_S64x256_S256x16_S64x16_1_0_0_1_n_n none (Host.divf (Host.scatterAdd scatter_S64x256_S50000x1_S50000x256_1_0_0_1 (broadcastInDim S64x256 ![] bcast_S_S64x256 (constant S_ .f32 0x00000000#32)) (broadcastInDim S50000x1 ![0] bcast_S50000_S50000x1_0 batch) h) (broadcastInDim S64x256 ![0, 1] bcast_S64x1_S64x256_0_1 (broadcastInDim S64x1 ![0] bcast_S64_S64x1_0 (maximumf (Host.scatterAdd scatter_S64_S50000x1_S50000_n_0_0_1 (broadcastInDim S64 ![] bcast_S_S64 (constant S_ .f32 0x00000000#32)) (broadcastInDim S50000x1 ![0] bcast_S50000_S50000x1_0 batch) (broadcastInDim S50000 ![] bcast_S_S50000 (constant S_ .f32 0x3F800000#32))) (broadcastInDim S64 ![] bcast_S_S64 (constant S_ .f32 0x3F800000#32)))))) wfc) (broadcastInDim S64x16 ![0, 1] bcast_S1x16_S64x16_0_1 (broadcastInDim S1x16 ![1] bcast_S16_S1x16_1 bfc))

end Cert.KernelIdeal.Forms

end
-- ==== Proof.LibReadThrough.lean ====
/-
  Two facts that let a one-pass reading of a fold of host lines go all the way down to the buffers the lines start from,
  and the pass that uses them.
  • TRANSPORTS. A line of a module-local function is written through typed references: it reads an operand through
    `ofBuf` and writes its result through `toBuf`, transports along the reference's type fact. Contents written through a
    typed reference and read back through the same one are the contents (`TRef.ofBuf_toBuf`): with it a chain of such
    lines reads as the plain composition of the lines' functions, transports left only where a typed line meets a
    plain one.
  • A TWO-OPERAND CONCATENATE. The printed `concatenate t a [⟨s₁, x⟩, ⟨s₂, y⟩] h` carries a fact `h` stated over the operand
    list itself, so a rewriting pass may not change the list and never looks inside it. As `joinTwo t a s₁ s₂ h' x y`,
    an ordinary function of the two operands, the pass goes on into `x` and `y` (`concatenate_two`, by `rfl`).
  • `after_results_through`: the library's one-pass reading (`after_results_simp`) with these two added. Use it on a goal
    `after ops V (Proc.devRef .tc r) = …` over a literal list `ops`; what is left is the composed term over `V` at the
    argument buffers, for `rfl` against the intended function.
-/
import Idealize.ShloMosaic.Lib.StableHlo.Run

noncomputable section

namespace Idealize.ShloMosaic.StableHlo.TRef

variable {sig : RefSig} {Val : EltTy → Type} {T : BufTy}

/-- Contents written through a typed reference and read back through the same one are the contents. -/
theorem ofBuf_toBuf (x : TRef sig T) (v : T.Contents Val) : x.ofBuf (x.toBuf v) = v := by
  obtain ⟨r, rfl, _, _⟩ := x
  rfl

end Idealize.ShloMosaic.StableHlo.TRef

namespace Cert.LibReadThrough

open Idealize.ShloMosaic

/-- Two arrays joined along axis `a` of the result shape `t`, as a function of the two arrays. -/
def joinTwo {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The printed two-operand concatenate is that function, whatever proof of the shapes' fit it carries (the fact is
    stated over the operand list, so its type is read off the printed term). -/
theorem concatenate_two {α : Type} (t : Shape) (a : Fin t.rank) (s₁ s₂ : Shape) (x : s₁.Idx → α) (y : s₂.Idx → α) {h} :
    concatenate t a [⟨s₁, x⟩, ⟨s₂, y⟩] h = joinTwo t a s₁ s₂ h x y := rfl

end Cert.LibReadThrough

/-- The library's one-pass reading of a fold of host lines at a buffer, reading through typed-reference transports and
    into the operands of a two-operand concatenate. -/
macro "after_results_through" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Cert.LibReadThrough.concatenate_two, Idealize.ShloMosaic.StableHlo.TRef.ofBuf_toBuf]))

end
-- ==== Proof.KChain0.lean ====
/-
  The kernel's program, one stretch of host operations at a time, from ANY buffer contents: what each stretch leaves in
  the buffers later parts read (the two edge lists, the guarded inverse square root of the degrees as a column, each
  weight matrix narrowed, the gathered rows summed per target, the pooling head); and what the first three stretches
  together leave before the first launch.
-/
import proofs.«102876_j84971632984099_2_alg».proof.Proof.Gen.KernelIdeal.Frame
import proofs.«102876_j84971632984099_2_alg».proof.Proof.KForms
import proofs.«102876_j84971632984099_2_alg».proof.Proof.LibReadThrough

set_option maxRecDepth 16384

noncomputable section

namespace Cert.KernelIdeal.Chain

open Cert.KernelIdeal Cert.KernelIdeal.Gen Cert.KernelIdeal.Forms
open Idealize.ShloMosaic Idealize.ShloMosaic.TcCoe Idealize.ShloMosaic.StableHlo Idealize.SL.Sem
open Idealize.ShloMosaic.Pipeline (Dat Cfg Window)
open Cert.Net

variable (m : (ℓ : Loc nD τ sig) → Buf (Elt Ideal) ℓ) (ρ : Dev nD → PrngReg) (c : Dev nD)

/-! ## Each stretch, from any contents -/

theorem host00_v3 (V : Valuation τ sig (Elt Ideal)) :
    StableHlo.after hostOps0 V (Proc.devRef .tc main_v3) = srcP (V (Proc.devRef .tc main_arg1)) := by
  after_results_through <;> rfl

theorem host00_v6 (V : Valuation τ sig (Elt Ideal)) :
    StableHlo.after hostOps0 V (Proc.devRef .tc main_v6) = dstP (V (Proc.devRef .tc main_arg1)) := by
  after_results_through <;> rfl

theorem host00_v12 (V : Valuation τ sig (Elt Ideal)) :
    StableHlo.after hostOps0 V (Proc.devRef .tc main_v12)
      = cmpf (F := Ideal) .ogt (degP (V (Proc.devRef .tc main_arg1))) (broadcastInDim S50000 ![] bcast_S_S50000 (constant S_ .f32 0x00000000#32)) := by
  after_results_through <;> rfl

theorem host00_v13 (V : Valuation τ sig (Elt Ideal)) :
    StableHlo.after hostOps0 V (Proc.devRef .tc main_v13) = Host.rsqrt (degP (V (Proc.devRef .tc main_arg1))) := by
  after_results_through <;> rfl

theorem host00_v14 (V : Valuation τ sig (Elt Ideal)) :
    StableHlo.after hostOps0 V (Proc.devRef .tc main_v14)
      = broadcastInDim S50000 ![] bcast_S_S50000 (constant (F := Ideal) S_ .f32 0x00000000#32) := by
  after_results_through <;> rfl

theorem host01_v15 (V : Valuation τ sig (Elt Ideal)) :
    StableHlo.after hostOps0_1 V (Proc.devRef .tc main_v15)
      = select (V (Proc.devRef .tc main_v12)) (V (Proc.devRef .tc main_v13)) (V (Proc.devRef .tc main_v14)) := by
  after_results_through <;> rfl

theorem host01_keep (V : Valuation τ sig (Elt Ideal)) (b : Ref sig .tc) (hb : b ≠ main_v15) :
    StableHlo.after hostOps0_1 V (Proc.devRef .tc b) = V (Proc.devRef .tc b) :=
  StableHlo.after_of_forall_not_mem (b := Proc.devRef .tc b) _ _ (List.forall_iff_forall_mem.mp (by
    simp only [hostOps0_1, List.Forall, StableHlo.ternary_writes, Finset.mem_singleton]
    exact StableHlo.devRef_ne_of_ne hb))

theorem host02_v16 (V : Valuation τ sig (Elt Ideal)) :
    StableHlo.after hostOps0_2 V (Proc.devRef .tc main_v16)
      = shapeCast S50000x1 (V (Proc.devRef .tc main_v15)) shapeCasts_S50000_S50000x1 := by
  after_results_through <;> rfl

theorem host02_v17 (V : Valuation τ sig (Elt Ideal)) :
    StableHlo.after hostOps0_2 V (Proc.devRef .tc main_v17)
      = (truncf (F := Ideal) .bf16 (V (Proc.devRef .tc main_arg3)) bitsLt_bf16_f32 : FVec Ideal S256x256 .bf16) := by
  after_results_through <;> rfl

theorem host02_keep (V : Valuation τ sig (Elt Ideal)) (b : Ref sig .tc) (h16 : b ≠ main_v16) (h17 : b ≠ main_v17) :
    StableHlo.after hostOps0_2 V (Proc.devRef .tc b) = V (Proc.devRef .tc b) :=
  StableHlo.after_of_forall_not_mem (b := Proc.devRef .tc b) _ _ (List.forall_iff_forall_mem.mp (by
    simp only [hostOps0_2, List.Forall, StableHlo.unary_writes, StableHlo.reshape_writes, Finset.mem_singleton]
    exact ⟨StableHlo.devRef_ne_of_ne h16, StableHlo.devRef_ne_of_ne h17⟩))

/-- Between the first projection and the first bias launch: the projected rows gathered and summed per target. -/
theorem host1_read (V : Valuation τ sig (Elt Ideal)) :
    StableHlo.after hostOps1 V (Proc.devRef .tc main_v28)
      = aggRaw (V (Proc.devRef .tc main_v6)) (V (Proc.devRef .tc main_v3)) (V (Proc.devRef .tc main_v18)) := by
  after_results_through <;> rfl

/-- The second weight matrix, narrowed. -/
theorem host2_read (V : Valuation τ sig (Elt Ideal)) :
    StableHlo.after hostOps2 V (Proc.devRef .tc main_v30)
      = (truncf (F := Ideal) .bf16 (V (Proc.devRef .tc main_arg5)) bitsLt_bf16_f32 : FVec Ideal S256x256 .bf16) := by
  after_results_through <;> rfl

/-- Between the second projection and the second bias launch. -/
theorem host3_read (V : Valuation τ sig (Elt Ideal)) :
    StableHlo.after hostOps3 V (Proc.devRef .tc main_v41)
      = aggRaw (V (Proc.devRef .tc main_v6)) (V (Proc.devRef .tc main_v3)) (V (Proc.devRef .tc main_v31)) := by
  after_results_through <;> rfl

/-- The third weight matrix, narrowed. -/
theorem host4_read (V : Valuation τ sig (Elt Ideal)) :
    StableHlo.after hostOps4 V (Proc.devRef .tc main_v43)
      = (truncf (F := Ideal) .bf16 (V (Proc.devRef .tc main_arg7)) bitsLt_bf16_f32 : FVec Ideal S256x256 .bf16) := by
  after_results_through <;> rfl

/-- Between the third projection and the third bias launch. -/
theorem host5_read (V : Valuation τ sig (Elt Ideal)) :
    StableHlo.after hostOps5 V (Proc.devRef .tc main_v54)
      = aggRaw (V (Proc.devRef .tc main_v6)) (V (Proc.devRef .tc main_v3)) (V (Proc.devRef .tc main_v44)) := by
  after_results_through <;> rfl

/-- After the last launch: the pooling head. -/
theorem host6_read (V : Valuation τ sig (Elt Ideal)) :
    StableHlo.after hostOps6 V (Proc.devRef .tc main_v71)
      = tailP (V (Proc.devRef .tc main_arg2)) (V (Proc.devRef .tc main_v55)) (V (Proc.devRef .tc main_arg9)) (V (Proc.devRef .tc main_arg10)) := by
  after_results_through <;> rfl

/-! ## Before the first launch -/

/-- The source row numbers. -/
theorem w3_v3 : W3 m ρ c (Proc.devRef .tc main_v3) = srcP (m ((c : Thread nD τ).loc main_arg1)) := by
  show StableHlo.after hostOps0_2 (W2 m ρ c) (Proc.devRef .tc main_v3) = _
  rw [host02_keep _ _ (by decide) (by decide)]
  show StableHlo.after hostOps0_1 (W1 m ρ c) (Proc.devRef .tc main_v3) = _
  rw [host01_keep _ _ (by decide)]
  exact host00_v3 (W0 m ρ c)

/-- The target row numbers. -/
theorem w3_v6 : W3 m ρ c (Proc.devRef .tc main_v6) = dstP (m ((c : Thread nD τ).loc main_arg1)) := by
  show StableHlo.after hostOps0_2 (W2 m ρ c) (Proc.devRef .tc main_v6) = _
  rw [host02_keep _ _ (by decide) (by decide)]
  show StableHlo.after hostOps0_1 (W1 m ρ c) (Proc.devRef .tc main_v6) = _
  rw [host01_keep _ _ (by decide)]
  exact host00_v6 (W0 m ρ c)

/-- The per-node scale, as a column. -/
theorem w3_v16 : W3 m ρ c (Proc.devRef .tc main_v16) = dcolP (m ((c : Thread nD τ).loc main_arg1)) := by
  show StableHlo.after hostOps0_2 (W2 m ρ c) (Proc.devRef .tc main_v16) = _
  rw [host02_v16]
  show shapeCast S50000x1 (StableHlo.after hostOps0_1 (W1 m ρ c) (Proc.devRef .tc main_v15)) shapeCasts_S50000_S50000x1 = _
  rw [host01_v15]
  show shapeCast S50000x1 (select (StableHlo.after hostOps0 (W0 m ρ c) (Proc.devRef .tc main_v12))
    (StableHlo.after hostOps0 (W0 m ρ c) (Proc.devRef .tc main_v13)) (StableHlo.after hostOps0 (W0 m ρ c) (Proc.devRef .tc main_v14)))
    shapeCasts_S50000_S50000x1 = _
  rw [host00_v12, host00_v13, host00_v14]
  rfl

/-- The first weight matrix, narrowed. -/
theorem w3_v17 : W3 m ρ c (Proc.devRef .tc main_v17)
    = (truncf (F := Ideal) .bf16 (m ((c : Thread nD τ).loc main_arg3)) bitsLt_bf16_f32 : FVec Ideal S256x256 .bf16) := by
  show StableHlo.after hostOps0_2 (W2 m ρ c) (Proc.devRef .tc main_v17) = _
  rw [host02_v17]
  show (truncf (F := Ideal) .bf16 (StableHlo.after hostOps0_1 (W1 m ρ c) (Proc.devRef .tc main_arg3)) bitsLt_bf16_f32 : FVec Ideal S256x256 .bf16) = _
  rw [host01_keep _ _ (by decide)]
  show (truncf (F := Ideal) .bf16 (StableHlo.after hostOps0 (W0 m ρ c) (Proc.devRef .tc main_arg3)) bitsLt_bf16_f32 : FVec Ideal S256x256 .bf16) = _
  rw [show StableHlo.after hostOps0 (W0 m ρ c) (Proc.devRef .tc main_arg3) = W0 m ρ c (Proc.devRef .tc main_arg3) from by after_results_through]

end Cert.KernelIdeal.Chain

end
-- ==== Proof.KRegBase.lean ====
/-
  What each kernel launch leaves in its output array, as one function of the arrays it finds at entry.

  The program launches two kernels three times each, every one over a grid of 25 points; point t works on rows
  2000·t … 2000·t + 1999 of the node arrays and on the whole weight matrix or bias vector.
  * The projection kernel writes, at row i and column q, (Σ_k x (i, k) · w (k, q)) · dcol (i, 0).
  * The bias kernel writes max (agg (i, q) · dcol (i, 0) + b q, 0).
  Each entry depends on row i of the node arrays only, so what point t writes back is block t of the function on the
  whole arrays, and the 25 blocks tile the output array.
-/
import proofs.«102876_j84971632984099_2_alg».proof.Proof.Gen.KernelIdeal.Frame
import proofs.«102876_j84971632984099_2_alg».proof.Proof.Net
import Idealize.ShloMosaic.Lib.Pipeline.Value
import Idealize.ShloMosaic.Lib.ValueLayout

set_option maxRecDepth 16384

open scoped BigOperators

noncomputable section

namespace Cert.KernelIdeal.RegionValues

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Net

theorem hz2 : (![0, 0] : Fin 2 → Nat) = fun _ => 0 := funext fun a => by fin_cases a <;> rfl
theorem hz1 : (![0] : Fin 1 → Nat) = fun _ => 0 := funext fun a => by fin_cases a <;> rfl

/-- Row a of the t-th block of 2000 rows. -/
def rowAt (tv : Nat) (ht : tv < 25) (a : Fin 2000) : Fin 50000 := ⟨tv * 2000 + a.val, by have := a.isLt; omega⟩

end Cert.KernelIdeal.RegionValues

end
-- ==== Proof.KReg0.lean ====
/-
  What kernel launch 0 leaves in its output array, as one function of the arrays it finds at entry: each entry depends
  on its own row of the node arrays only, so what grid point t writes back is block t of the function on the whole
  arrays, and the 25 blocks of 2000 rows tile the output array.
-/
import proofs.«102876_j84971632984099_2_alg».proof.Proof.KRegBase

set_option maxRecDepth 16384

open scoped BigOperators

noncomputable section

namespace Cert.KernelIdeal.RegionValues

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Net

/-! ## Launch 0: a projection -/

/-- The projection body on a block: entry (a, q) is row a of the block times column q of the weights, scaled by the
    a-th entry of the column block. -/
theorem pay0_at (x0 : Vec Ideal S2000x256 .f32) (x1 : Vec Ideal S256x256 .bf16) (x2 : Vec Ideal S2000x1 .f32)
    (a : Fin 2000) (q : Fin 256) :
    k0_pay1 (F := Ideal) x0 x1 x2 (ix2 a q) = (∑ k : Fin 256, x0 (ix2 a k) * x1 (ix2 k q)) * x2 (ix2 a (0 : Fin 1)) := by
  unfold k0_pay1
  rw [mulf_apply, shapeCast_self, shapeCast_self, broadcastTo_a1_ab_apply]
  refine congrArg (· * x2 (ix2 a (0 : Fin 1))) ?_
  exact matmul_zero_ix2 dot_S2000x256_S256x256_S2000x256_1_0_0_1_n_n rfl rfl rfl rfl rfl rfl none
    (truncf .bf16 x0 bitsLt_bf16_f32) x1 a q

/-- Where each window's block sits at a point: the node arrays' blocks at row block t, the weights whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem lt0 (t : Fin cfg0.N) : t.val < 25 := t.isLt.trans_eq N_0

/-- Row a of point t's block of the features is row 2000·t + a of the array. -/
theorem iblk0_0_at (V : (c : Dev nD) → (b : Ref sig .tc) → Buf (Elt Ideal) ((c : Thread nD τ).loc b)) (c : Dev nD)
    (t : Fin cfg0.N) (a : Fin 2000) (k : Fin 256) :
    iblk0 V c 0 t (ix2 a k) = V c (Pipeline.arrRef spec0 0) (ix2 (rowAt t.val (lt0 t) a) k) := by
  obtain ⟨e0, e1, -⟩ := idx_facts0 t
  show V c (Pipeline.arrRef spec0 0) (((cfg0.win 0).blk t).view.emb (ix2 a k)) = _
  refine congrArg _ (funext fun ax => Fin.ext ?_)
  match ax with
  | ⟨0, _⟩ => show win0_0.index t (0 : Fin 2) * 2000 + 1 * a.val = t.val * 2000 + a.val; omega
  | ⟨1, _⟩ => show win0_0.index t (1 : Fin 2) * 256 + 1 * k.val = k.val; omega

/-- The weights' block is the whole matrix. -/
theorem iblk0_1_at (V : (c : Dev nD) → (b : Ref sig .tc) → Buf (Elt Ideal) ((c : Thread nD τ).loc b)) (c : Dev nD)
    (t : Fin cfg0.N) (k : Fin 256) (q : Fin 256) :
    iblk0 V c 1 t (ix2 k q) = V c (Pipeline.arrRef spec0 1) (ix2 k q) := by
  obtain ⟨-, -, e0, e1, -⟩ := idx_facts0 t
  show V c (Pipeline.arrRef spec0 1) (((cfg0.win 1).blk t).view.emb (ix2 k q)) = _
  refine congrArg _ (funext fun ax => Fin.ext ?_)
  match ax with
  | ⟨0, _⟩ => show win0_1.index t (0 : Fin 2) * 256 + 1 * k.val = k.val; omega
  | ⟨1, _⟩ => show win0_1.index t (1 : Fin 2) * 256 + 1 * q.val = q.val; omega

/-- Entry a of point t's block of the scale column is entry 2000·t + a of the column. -/
theorem iblk0_2_at (V : (c : Dev nD) → (b : Ref sig .tc) → Buf (Elt Ideal) ((c : Thread nD τ).loc b)) (c : Dev nD)
    (t : Fin cfg0.N) (a : Fin 2000) (u : Fin 1) :
    iblk0 V c 2 t (ix2 a u) = V c (Pipeline.arrRef spec0 2) (ix2 (rowAt t.val (lt0 t) a) u) := by
  obtain ⟨-, -, -, -, e0, e1, -⟩ := idx_facts0 t
  show V c (Pipeline.arrRef spec0 2) (((cfg0.win 2).blk t).view.emb (ix2 a u)) = _
  refine congrArg _ (funext fun ax => Fin.ext ?_)
  match ax with
  | ⟨0, _⟩ => show win0_2.index t (0 : Fin 2) * 2000 + 1 * a.val = t.val * 2000 + a.val; omega
  | ⟨1, _⟩ => show win0_2.index t (1 : Fin 2) * 1 + 1 * u.val = u.val; omega

/-- Entry (a, q) of point t's output block is entry (2000·t + a, q) of the output array. -/
theorem emb0_3_at (t : Fin cfg0.N) (a : Fin 2000) (q : Fin 256) :
    ((cfg0.win 3).blk t).view.emb (ix2 a q) = ix2 (rowAt t.val (lt0 t) a) q := by
  obtain ⟨-, -, -, -, -, -, e0, e1⟩ := idx_facts0 t
  refine funext fun ax => Fin.ext ?_
  match ax with
  | ⟨0, _⟩ => show win0_3.index t (0 : Fin 2) * 2000 + 1 * a.val = t.val * 2000 + a.val; omega
  | ⟨1, _⟩ => show win0_3.index t (1 : Fin 2) * 256 + 1 * q.val = q.val; omega

/-- What point t writes back is block t of the projection of the whole arrays. -/
theorem flushed0 (V : (c : Dev nD) → (b : Ref sig .tc) → Buf (Elt Ideal) ((c : Thread nD τ).loc b)) (c : Dev nD)
    (t : Fin cfg0.N) :
    (dat0 V c).flushed 3 t = ((cfg0.win 3).blk t).view.read (Elt Ideal)
      (mmScaled 50000 256 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz2]
  simp only [View.ld_unit_zero (S := S2000x256) hz2, View.ld_unit_zero (S := S256x256) hz2, View.ld_unit_zero (S := S2000x1) hz2]
  funext j
  obtain ⟨a, q, rfl⟩ : ∃ (a : Fin 2000) (q : Fin 256), j = ix2 a q := ⟨j 0, j 1, eq_ix2 j⟩
  show k0_pay1 (iblk0 V c 0 t) (iblk0 V c 1 t) (iblk0 V c 2 t) (ix2 a q)
    = mmScaled 50000 256 (V c (Pipeline.arrRef spec0 0)) (V c (Pipeline.arrRef spec0 1)) (V c (Pipeline.arrRef spec0 2))
        (((cfg0.win 3).blk t).view.emb (ix2 a q))
  refine (pay0_at (iblk0 V c 0 t) (iblk0 V c 1 t) (iblk0 V c 2 t) a q).trans ?_
  rw [emb0_3_at t a q, mmScaled_ix2, iblk0_2_at V c t a 0]
  refine congrArg (· * _) (Finset.sum_congr rfl fun k _ => ?_)
  rw [iblk0_0_at V c t a k, iblk0_1_at V c t k q]

/-- An index of the output array is in point t's block iff each coordinate is in the block's range on its axis. -/
theorem mem_blk0 (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v18).slice (win0_3.rect t)).set ↔ _
  rw [View.set_slice_whole, Rect.mem_set_unit]
  exact Iff.rfl

/-- The 25 blocks tile the output array: row r is in block r / 2000. -/
theorem cover0 (i : S50000x256.Idx) : ∃ t : Fin cfg0.N, (cfg0.win 3).flush t = true ∧ i ∈ ((cfg0.win 3).blk t).view.set := by
  have hi0 : (i 0).val < 50000 := idx2_lt0 i
  have hi1 : (i 1).val < 256 := idx2_lt1 i
  have ht : (i 0).val / 2000 < cfg0.N := by rw [show cfg0.N = 25 from N_0]; omega
  obtain ⟨-, -, -, -, -, -, e0, e1⟩ := idx_facts0 ⟨(i 0).val / 2000, ht⟩
  refine ⟨⟨(i 0).val / 2000, ht⟩, flush0_3 _, ?_⟩
  rw [mem_blk0]
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_3.index ⟨(i 0).val / 2000, ht⟩ (1 : Fin 2) * 256 ≤ (i 1).val ∧ (i 1).val < win0_3.index ⟨(i 0).val / 2000, ht⟩ (1 : Fin 2) * 256 + 256
    rw [e1]; omega

/-- The output array after launch 0 is the projection of the arrays found at entry. -/
theorem arr0 (V : (c : Dev nD) → (b : Ref sig .tc) → Buf (Elt Ideal) ((c : Thread nD τ).loc b)) (c : Dev nD) :
    (dat0 V c).arrAt 3 cfg0.N
      = mmScaled 50000 256 (V c (Pipeline.arrRef spec0 0)) (V c (Pipeline.arrRef spec0 1)) (V c (Pipeline.arrRef spec0 2)) :=
  (dat0 V c).arrAt_eq_of_cover 3 _ (fun t _ => flushed0 V c t) cover0

end Cert.KernelIdeal.RegionValues

end
-- ==== Proof.KReg1.lean ====
/-
  What kernel launch 1 leaves in its output array, as one function of the arrays it finds at entry: each entry depends
  on its own row of the node arrays only, so what grid point t writes back is block t of the function on the whole
  arrays, and the 25 blocks of 2000 rows tile the output array.
-/
import proofs.«102876_j84971632984099_2_alg».proof.Proof.KRegBase

set_option maxRecDepth 16384

open scoped BigOperators

noncomputable section

namespace Cert.KernelIdeal.RegionValues

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Net

/-! ## Launch 1: scale, bias, rectify -/

/-- The bias body on a block: entry (a, q) is the block's entry scaled by the a-th entry of the column block, plus
    the q-th bias, rectified. -/
theorem pay1_at (v0 : Vec Ideal S256 .f32) (v3 : Vec Ideal S2000x256 .f32) (v5 : Vec Ideal S2000x1 .f32)
    (a : Fin 2000) (q : Fin 256) :
    k1_pay1 (F := Ideal) v0 v3 v5 (ix2 a q) = max (v3 (ix2 a q) * v5 (ix2 a (0 : Fin 1)) + v0 (ix1 q)) zeroWord := by
  unfold k1_pay1
  simp only [shapeCast_self]
  rw [truncf_apply, maximumf_apply, addf_apply, mulf_apply, broadcastTo_a1_ab_apply, broadcastTo_1b_ab_apply, shapeCast_a_1a_apply, broadcast_apply]

/-- Where each window's block sits at a point: the node arrays' blocks at row block t, the bias whole. -/
theorem idx_facts1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem lt1 (t : Fin cfg1.N) : t.val < 25 := t.isLt.trans_eq N_1

/-- Row a of point t's block of the sums is row 2000·t + a of the array. -/
theorem iblk1_0_at (V : (c : Dev nD) → (b : Ref sig .tc) → Buf (Elt Ideal) ((c : Thread nD τ).loc b)) (c : Dev nD)
    (t : Fin cfg1.N) (a : Fin 2000) (k : Fin 256) :
    iblk1 V c 0 t (ix2 a k) = V c (Pipeline.arrRef spec1 0) (ix2 (rowAt t.val (lt1 t) a) k) := by
  obtain ⟨e0, e1, -⟩ := idx_facts1 t
  show V c (Pipeline.arrRef spec1 0) (((cfg1.win 0).blk t).view.emb (ix2 a k)) = _
  refine congrArg _ (funext fun ax => Fin.ext ?_)
  match ax with
  | ⟨0, _⟩ => show win1_0.index t (0 : Fin 2) * 2000 + 1 * a.val = t.val * 2000 + a.val; omega
  | ⟨1, _⟩ => show win1_0.index t (1 : Fin 2) * 256 + 1 * k.val = k.val; omega

/-- The bias block is the whole vector. -/
theorem iblk1_1_at (V : (c : Dev nD) → (b : Ref sig .tc) → Buf (Elt Ideal) ((c : Thread nD τ).loc b)) (c : Dev nD)
    (t : Fin cfg1.N) (q : Fin 256) :
    iblk1 V c 1 t (ix1 q) = V c (Pipeline.arrRef spec1 1) (ix1 q) := by
  obtain ⟨-, -, e0, -⟩ := idx_facts1 t
  show V c (Pipeline.arrRef spec1 1) (((cfg1.win 1).blk t).view.emb (ix1 q)) = _
  refine congrArg _ (funext fun ax => Fin.ext ?_)
  match ax with
  | ⟨0, _⟩ => show win1_1.index t (0 : Fin 1) * 256 + 1 * q.val = q.val; omega

/-- Entry a of point t's block of the scale column is entry 2000·t + a of the column. -/
theorem iblk1_2_at (V : (c : Dev nD) → (b : Ref sig .tc) → Buf (Elt Ideal) ((c : Thread nD τ).loc b)) (c : Dev nD)
    (t : Fin cfg1.N) (a : Fin 2000) (u : Fin 1) :
    iblk1 V c 2 t (ix2 a u) = V c (Pipeline.arrRef spec1 2) (ix2 (rowAt t.val (lt1 t) a) u) := by
  obtain ⟨-, -, -, e0, e1, -⟩ := idx_facts1 t
  show V c (Pipeline.arrRef spec1 2) (((cfg1.win 2).blk t).view.emb (ix2 a u)) = _
  refine congrArg _ (funext fun ax => Fin.ext ?_)
  match ax with
  | ⟨0, _⟩ => show win1_2.index t (0 : Fin 2) * 2000 + 1 * a.val = t.val * 2000 + a.val; omega
  | ⟨1, _⟩ => show win1_2.index t (1 : Fin 2) * 1 + 1 * u.val = u.val; omega

/-- Entry (a, q) of point t's output block is entry (2000·t + a, q) of the output array. -/
theorem emb1_3_at (t : Fin cfg1.N) (a : Fin 2000) (q : Fin 256) :
    ((cfg1.win 3).blk t).view.emb (ix2 a q) = ix2 (rowAt t.val (lt1 t) a) q := by
  obtain ⟨-, -, -, -, -, e0, e1⟩ := idx_facts1 t
  refine funext fun ax => Fin.ext ?_
  match ax with
  | ⟨0, _⟩ => show win1_3.index t (0 : Fin 2) * 2000 + 1 * a.val = t.val * 2000 + a.val; omega
  | ⟨1, _⟩ => show win1_3.index t (1 : Fin 2) * 256 + 1 * q.val = q.val; omega

/-- What point t writes back is block t of the scaled, biased, rectified whole array. -/
theorem flushed1 (V : (c : Dev nD) → (b : Ref sig .tc) → Buf (Elt Ideal) ((c : Thread nD τ).loc b)) (c : Dev nD)
    (t : Fin cfg1.N) :
    (dat1 V c).flushed 3 t = ((cfg1.win 3).blk t).view.read (Elt Ideal)
      (biasRelu 50000 256 (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz2]
  simp only [View.ld_unit_zero (S := S2000x256) hz2, View.ld_unit_zero (S := S256) hz1, View.ld_unit_zero (S := S2000x1) hz2]
  funext j
  obtain ⟨a, q, rfl⟩ : ∃ (a : Fin 2000) (q : Fin 256), j = ix2 a q := ⟨j 0, j 1, eq_ix2 j⟩
  show k1_pay1 (iblk1 V c 1 t) (iblk1 V c 0 t) (iblk1 V c 2 t) (ix2 a q)
    = biasRelu 50000 256 (V c (Pipeline.arrRef spec1 0)) (V c (Pipeline.arrRef spec1 1)) (V c (Pipeline.arrRef spec1 2))
        (((cfg1.win 3).blk t).view.emb (ix2 a q))
  refine (pay1_at (iblk1 V c 1 t) (iblk1 V c 0 t) (iblk1 V c 2 t) a q).trans ?_
  rw [emb1_3_at t a q, biasRelu_ix2, iblk1_2_at V c t a 0, iblk1_0_at V c t a q, iblk1_1_at V c t q]

/-- An index of the output array is in point t's block iff each coordinate is in the block's range on its axis. -/
theorem mem_blk1 (t : Fin cfg1.N) (i : S50000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v29).slice (win1_3.rect t)).set ↔ _
  rw [View.set_slice_whole, Rect.mem_set_unit]
  exact Iff.rfl

/-- The 25 blocks tile the output array: row r is in block r / 2000. -/
theorem cover1 (i : S50000x256.Idx) : ∃ t : Fin cfg1.N, (cfg1.win 3).flush t = true ∧ i ∈ ((cfg1.win 3).blk t).view.set := by
  have hi0 : (i 0).val < 50000 := idx2_lt0 i
  have hi1 : (i 1).val < 256 := idx2_lt1 i
  have ht : (i 0).val / 2000 < cfg1.N := by rw [show cfg1.N = 25 from N_1]; omega
  obtain ⟨-, -, -, -, -, e0, e1⟩ := idx_facts1 ⟨(i 0).val / 2000, ht⟩
  refine ⟨⟨(i 0).val / 2000, ht⟩, flush1_3 _, ?_⟩
  rw [mem_blk1]
  intro a
  match a with
  | ⟨0, _⟩ =>
    show win1_3.index ⟨(i 0).val / 2000, ht⟩ (0 : Fin 2) * 2000 ≤ (i 0).val ∧ (i 0).val < win1_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_3.index ⟨(i 0).val / 2000, ht⟩ (1 : Fin 2) * 256 ≤ (i 1).val ∧ (i 1).val < win1_3.index ⟨(i 0).val / 2000, ht⟩ (1 : Fin 2) * 256 + 256
    rw [e1]; omega

/-- The output array after launch 1 is the scaled, biased, rectified array found at entry. -/
theorem arr1 (V : (c : Dev nD) → (b : Ref sig .tc) → Buf (Elt Ideal) ((c : Thread nD τ).loc b)) (c : Dev nD) :
    (dat1 V c).arrAt 3 cfg1.N
      = biasRelu 50000 256 (V c (Pipeline.arrRef spec1 0)) (V c (Pipeline.arrRef spec1 1)) (V c (Pipeline.arrRef spec1 2)) :=
  (dat1 V c).arrAt_eq_of_cover 3 _ (fun t _ => flushed1 V c t) cover1

end Cert.KernelIdeal.RegionValues

end
-- ==== Proof.KChainA.lean ====
/-
  The first layer of the kernel's program: the first projection launch on the features, the host's gather and
  per-target sum, and the first bias launch. Buffers that nothing writes in between keep their contents.
-/
import proofs.«102876_j84971632984099_2_alg».proof.Proof.Gen.KernelIdeal.Frame
import proofs.«102876_j84971632984099_2_alg».proof.Proof.KForms
import proofs.«102876_j84971632984099_2_alg».proof.Proof.LibReadThrough
import proofs.«102876_j84971632984099_2_alg».proof.Proof.KChain0
import proofs.«102876_j84971632984099_2_alg».proof.Proof.KReg0
import proofs.«102876_j84971632984099_2_alg».proof.Proof.KReg1

set_option maxRecDepth 16384

noncomputable section

namespace Cert.KernelIdeal.Chain

open Cert.KernelIdeal Cert.KernelIdeal.Gen Cert.KernelIdeal.Forms
open Idealize.ShloMosaic Idealize.ShloMosaic.TcCoe Idealize.ShloMosaic.StableHlo Idealize.SL.Sem
open Idealize.ShloMosaic.Pipeline (Dat Cfg Window)
open Cert.Net

variable (m : (ℓ : Loc nD τ sig) → Buf (Elt Ideal) ℓ) (ρ : Dev nD → PrngReg) (c : Dev nD)

/-- The features are as launched. -/
theorem keep_arg0_0_3 : W3 m ρ c (Proc.devRef .tc main_arg0) = W0 m ρ c (Proc.devRef .tc main_arg0) :=
  calc W3 m ρ c (Proc.devRef .tc main_arg0)
    _ = W2 m ρ c (Proc.devRef .tc main_arg0) := (by show StableHlo.after hostOps0_2 (W2 m ρ c) (Proc.devRef .tc main_arg0) = _; after_results_through)
    _ = W1 m ρ c (Proc.devRef .tc main_arg0) := (by show StableHlo.after hostOps0_1 (W1 m ρ c) (Proc.devRef .tc main_arg0) = _; after_results_through)
    _ = W0 m ρ c (Proc.devRef .tc main_arg0) := (by show StableHlo.after hostOps0 (W0 m ρ c) (Proc.devRef .tc main_arg0) = _; after_results_through)

/-- No operation and no launch up to here writes the source row numbers. -/
theorem keep_v3_3_4 : W4 m ρ c (Proc.devRef .tc main_v3) = W3 m ρ c (Proc.devRef .tc main_v3) :=
  calc W4 m ρ c (Proc.devRef .tc main_v3)
    _ = W3 m ρ c (Proc.devRef .tc main_v3) := (W4_of_ne m ρ c main_v3 (by decide))

/-- No operation and no launch up to here writes the target row numbers. -/
theorem keep_v6_3_4 : W4 m ρ c (Proc.devRef .tc main_v6) = W3 m ρ c (Proc.devRef .tc main_v6) :=
  calc W4 m ρ c (Proc.devRef .tc main_v6)
    _ = W3 m ρ c (Proc.devRef .tc main_v6) := (W4_of_ne m ρ c main_v6 (by decide))

/-- The scale column is read, never written, up to the bias launch. -/
theorem keep_v16_3_5 : W5 m ρ c (Proc.devRef .tc main_v16) = W3 m ρ c (Proc.devRef .tc main_v16) :=
  calc W5 m ρ c (Proc.devRef .tc main_v16)
    _ = W4 m ρ c (Proc.devRef .tc main_v16) := (by show StableHlo.after hostOps1 (W4 m ρ c) (Proc.devRef .tc main_v16) = _; after_results_through)
    _ = W3 m ρ c (Proc.devRef .tc main_v16) := ((W4_arr m ρ c 2).trans (((dat0 (V3 m ρ) c).arrAt_in 2 rfl _).trans (A_eq0 (V3 m ρ) c 2)))

/-- The bias vector is as launched. -/
theorem keep_arg4_0_5 : W5 m ρ c (Proc.devRef .tc main_arg4) = W0 m ρ c (Proc.devRef .tc main_arg4) :=
  calc W5 m ρ c (Proc.devRef .tc main_arg4)
    _ = W4 m ρ c (Proc.devRef .tc main_arg4) := (by show StableHlo.after hostOps1 (W4 m ρ c) (Proc.devRef .tc main_arg4) = _; after_results_through)
    _ = W3 m ρ c (Proc.devRef .tc main_arg4) := (W4_of_ne m ρ c main_arg4 (by decide))
    _ = W2 m ρ c (Proc.devRef .tc main_arg4) := (by show StableHlo.after hostOps0_2 (W2 m ρ c) (Proc.devRef .tc main_arg4) = _; after_results_through)
    _ = W1 m ρ c (Proc.devRef .tc main_arg4) := (by show StableHlo.after hostOps0_1 (W1 m ρ c) (Proc.devRef .tc main_arg4) = _; after_results_through)
    _ = W0 m ρ c (Proc.devRef .tc main_arg4) := (by show StableHlo.after hostOps0 (W0 m ρ c) (Proc.devRef .tc main_arg4) = _; after_results_through)

/-- After the first projection launch: the features projected by the first weights, scaled row by row. -/
theorem v18 : W4 m ρ c (Proc.devRef .tc main_v18) = mmScaled 50000 256 (m ((c : Thread nD τ).loc main_arg0)) (truncf (F := Ideal) .bf16 (m ((c : Thread nD τ).loc main_arg3)) bitsLt_bf16_f32 : FVec Ideal S256x256 .bf16) (dcolP (m ((c : Thread nD τ).loc main_arg1))) := by
  refine (W4_arr m ρ c 3).trans ((RegionValues.arr0 (V3 m ρ) c).trans ?_)
  have e0 : V3 m ρ c (Pipeline.arrRef spec0 0) = (m ((c : Thread nD τ).loc main_arg0)) := keep_arg0_0_3 m ρ c
  have e1 : V3 m ρ c (Pipeline.arrRef spec0 1) = (truncf (F := Ideal) .bf16 (m ((c : Thread nD τ).loc main_arg3)) bitsLt_bf16_f32 : FVec Ideal S256x256 .bf16) := w3_v17 m ρ c
  have e2 : V3 m ρ c (Pipeline.arrRef spec0 2) = dcolP (m ((c : Thread nD τ).loc main_arg1)) := w3_v16 m ρ c
  rw [e0, e1, e2]

/-- The gathered rows summed per target. -/
theorem v28 : W5 m ρ c (Proc.devRef .tc main_v28) = aggP (m ((c : Thread nD τ).loc main_arg1)) (mmScaled 50000 256 (m ((c : Thread nD τ).loc main_arg0)) (truncf (F := Ideal) .bf16 (m ((c : Thread nD τ).loc main_arg3)) bitsLt_bf16_f32 : FVec Ideal S256x256 .bf16) (dcolP (m ((c : Thread nD τ).loc main_arg1)))) := by
  show StableHlo.after hostOps1 (W4 m ρ c) (Proc.devRef .tc main_v28) = _
  rw [host1_read, keep_v6_3_4, w3_v6, keep_v3_3_4, w3_v3, v18]
  rfl

/-- After the first bias launch: the first layer. -/
theorem v29 : W6 m ρ c (Proc.devRef .tc main_v29) = layerKP (m ((c : Thread nD τ).loc main_arg1)) (m ((c : Thread nD τ).loc main_arg0)) (truncf (F := Ideal) .bf16 (m ((c : Thread nD τ).loc main_arg3)) bitsLt_bf16_f32 : FVec Ideal S256x256 .bf16) (m ((c : Thread nD τ).loc main_arg4)) := by
  refine (W6_arr m ρ c 3).trans ((RegionValues.arr1 (V5 m ρ) c).trans ?_)
  have e0 : V5 m ρ c (Pipeline.arrRef spec1 0) = aggP (m ((c : Thread nD τ).loc main_arg1)) (mmScaled 50000 256 (m ((c : Thread nD τ).loc main_arg0)) (truncf (F := Ideal) .bf16 (m ((c : Thread nD τ).loc main_arg3)) bitsLt_bf16_f32 : FVec Ideal S256x256 .bf16) (dcolP (m ((c : Thread nD τ).loc main_arg1)))) := v28 m ρ c
  have e1 : V5 m ρ c (Pipeline.arrRef spec1 1) = (m ((c : Thread nD τ).loc main_arg4)) := keep_arg4_0_5 m ρ c
  have e2 : V5 m ρ c (Pipeline.arrRef spec1 2) = dcolP (m ((c : Thread nD τ).loc main_arg1)) := (keep_v16_3_5 m ρ c).trans (w3_v16 m ρ c)
  rw [e0, e1, e2]
  rfl

end Cert.KernelIdeal.Chain

end
-- ==== Proof.KReg2.lean ====
/-
  What kernel launch 2 leaves in its output array, as one function of the arrays it finds at entry: each entry depends
  on its own row of the node arrays only, so what grid point t writes back is block t of the function on the whole
  arrays, and the 25 blocks of 2000 rows tile the output array.
-/
import proofs.«102876_j84971632984099_2_alg».proof.Proof.KRegBase

set_option maxRecDepth 16384

open scoped BigOperators

noncomputable section

namespace Cert.KernelIdeal.RegionValues

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Net

/-! ## Launch 2: a projection -/

/-- The projection body on a block: entry (a, q) is row a of the block times column q of the weights, scaled by the
    a-th entry of the column block. -/
theorem pay2_at (x0 : Vec Ideal S2000x256 .bf16) (x1 : Vec Ideal S256x256 .bf16) (x2 : Vec Ideal S2000x1 .f32)
    (a : Fin 2000) (q : Fin 256) :
    k2_pay1 (F := Ideal) x0 x1 x2 (ix2 a q) = (∑ k : Fin 256, x0 (ix2 a k) * x1 (ix2 k q)) * x2 (ix2 a (0 : Fin 1)) := by
  unfold k2_pay1
  rw [mulf_apply, shapeCast_self, shapeCast_self, shapeCast_self, broadcastTo_a1_ab_apply]
  refine congrArg (· * x2 (ix2 a (0 : Fin 1))) ?_
  exact matmul_zero_ix2 dot_S2000x256_S256x256_S2000x256_1_0_0_1_n_n rfl rfl rfl rfl rfl rfl none x0 x1 a q

/-- Where each window's block sits at a point: the node arrays' blocks at row block t, the weights whole. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem lt2 (t : Fin cfg2.N) : t.val < 25 := t.isLt.trans_eq N_2

/-- Row a of point t's block of the features is row 2000·t + a of the array. -/
theorem iblk2_0_at (V : (c : Dev nD) → (b : Ref sig .tc) → Buf (Elt Ideal) ((c : Thread nD τ).loc b)) (c : Dev nD)
    (t : Fin cfg2.N) (a : Fin 2000) (k : Fin 256) :
    iblk2 V c 0 t (ix2 a k) = V c (Pipeline.arrRef spec2 0) (ix2 (rowAt t.val (lt2 t) a) k) := by
  obtain ⟨e0, e1, -⟩ := idx_facts2 t
  show V c (Pipeline.arrRef spec2 0) (((cfg2.win 0).blk t).view.emb (ix2 a k)) = _
  refine congrArg _ (funext fun ax => Fin.ext ?_)
  match ax with
  | ⟨0, _⟩ => show win2_0.index t (0 : Fin 2) * 2000 + 1 * a.val = t.val * 2000 + a.val; omega
  | ⟨1, _⟩ => show win2_0.index t (1 : Fin 2) * 256 + 1 * k.val = k.val; omega

/-- The weights' block is the whole matrix. -/
theorem iblk2_1_at (V : (c : Dev nD) → (b : Ref sig .tc) → Buf (Elt Ideal) ((c : Thread nD τ).loc b)) (c : Dev nD)
    (t : Fin cfg2.N) (k : Fin 256) (q : Fin 256) :
    iblk2 V c 1 t (ix2 k q) = V c (Pipeline.arrRef spec2 1) (ix2 k q) := by
  obtain ⟨-, -, e0, e1, -⟩ := idx_facts2 t
  show V c (Pipeline.arrRef spec2 1) (((cfg2.win 1).blk t).view.emb (ix2 k q)) = _
  refine congrArg _ (funext fun ax => Fin.ext ?_)
  match ax with
  | ⟨0, _⟩ => show win2_1.index t (0 : Fin 2) * 256 + 1 * k.val = k.val; omega
  | ⟨1, _⟩ => show win2_1.index t (1 : Fin 2) * 256 + 1 * q.val = q.val; omega

/-- Entry a of point t's block of the scale column is entry 2000·t + a of the column. -/
theorem iblk2_2_at (V : (c : Dev nD) → (b : Ref sig .tc) → Buf (Elt Ideal) ((c : Thread nD τ).loc b)) (c : Dev nD)
    (t : Fin cfg2.N) (a : Fin 2000) (u : Fin 1) :
    iblk2 V c 2 t (ix2 a u) = V c (Pipeline.arrRef spec2 2) (ix2 (rowAt t.val (lt2 t) a) u) := by
  obtain ⟨-, -, -, -, e0, e1, -⟩ := idx_facts2 t
  show V c (Pipeline.arrRef spec2 2) (((cfg2.win 2).blk t).view.emb (ix2 a u)) = _
  refine congrArg _ (funext fun ax => Fin.ext ?_)
  match ax with
  | ⟨0, _⟩ => show win2_2.index t (0 : Fin 2) * 2000 + 1 * a.val = t.val * 2000 + a.val; omega
  | ⟨1, _⟩ => show win2_2.index t (1 : Fin 2) * 1 + 1 * u.val = u.val; omega

/-- Entry (a, q) of point t's output block is entry (2000·t + a, q) of the output array. -/
theorem emb2_3_at (t : Fin cfg2.N) (a : Fin 2000) (q : Fin 256) :
    ((cfg2.win 3).blk t).view.emb (ix2 a q) = ix2 (rowAt t.val (lt2 t) a) q := by
  obtain ⟨-, -, -, -, -, -, e0, e1⟩ := idx_facts2 t
  refine funext fun ax => Fin.ext ?_
  match ax with
  | ⟨0, _⟩ => show win2_3.index t (0 : Fin 2) * 2000 + 1 * a.val = t.val * 2000 + a.val; omega
  | ⟨1, _⟩ => show win2_3.index t (1 : Fin 2) * 256 + 1 * q.val = q.val; omega

/-- What point t writes back is block t of the projection of the whole arrays. -/
theorem flushed2 (V : (c : Dev nD) → (b : Ref sig .tc) → Buf (Elt Ideal) ((c : Thread nD τ).loc b)) (c : Dev nD)
    (t : Fin cfg2.N) :
    (dat2 V c).flushed 3 t = ((cfg2.win 3).blk t).view.read (Elt Ideal)
      (mmScaled 50000 256 (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz2]
  simp only [View.ld_unit_zero (S := S2000x256) hz2, View.ld_unit_zero (S := S256x256) hz2, View.ld_unit_zero (S := S2000x1) hz2]
  funext j
  obtain ⟨a, q, rfl⟩ : ∃ (a : Fin 2000) (q : Fin 256), j = ix2 a q := ⟨j 0, j 1, eq_ix2 j⟩
  show k2_pay1 (iblk2 V c 0 t) (iblk2 V c 1 t) (iblk2 V c 2 t) (ix2 a q)
    = mmScaled 50000 256 (V c (Pipeline.arrRef spec2 0)) (V c (Pipeline.arrRef spec2 1)) (V c (Pipeline.arrRef spec2 2))
        (((cfg2.win 3).blk t).view.emb (ix2 a q))
  refine (pay2_at (iblk2 V c 0 t) (iblk2 V c 1 t) (iblk2 V c 2 t) a q).trans ?_
  rw [emb2_3_at t a q, mmScaled_ix2, iblk2_2_at V c t a 0]
  refine congrArg (· * _) (Finset.sum_congr rfl fun k _ => ?_)
  rw [iblk2_0_at V c t a k, iblk2_1_at V c t k q]

/-- An index of the output array is in point t's block iff each coordinate is in the block's range on its axis. -/
theorem mem_blk2 (t : Fin cfg2.N) (i : S50000x256.Idx) :
    i ∈ ((cfg2.win 3).blk t).view.set ↔ ∀ a : Fin 2, win2_3.index t a * S2000x256.size a ≤ (i a).val ∧ (i a).val < win2_3.index t a * S2000x256.size a + S2000x256.size a := by
  show i ∈ ((View.whole main_v31).slice (win2_3.rect t)).set ↔ _
  rw [View.set_slice_whole, Rect.mem_set_unit]
  exact Iff.rfl

/-- The 25 blocks tile the output array: row r is in block r / 2000. -/
theorem cover2 (i : S50000x256.Idx) : ∃ t : Fin cfg2.N, (cfg2.win 3).flush t = true ∧ i ∈ ((cfg2.win 3).blk t).view.set := by
  have hi0 : (i 0).val < 50000 := idx2_lt0 i
  have hi1 : (i 1).val < 256 := idx2_lt1 i
  have ht : (i 0).val / 2000 < cfg2.N := by rw [show cfg2.N = 25 from N_2]; omega
  obtain ⟨-, -, -, -, -, -, e0, e1⟩ := idx_facts2 ⟨(i 0).val / 2000, ht⟩
  refine ⟨⟨(i 0).val / 2000, ht⟩, flush2_3 _, ?_⟩
  rw [mem_blk2]
  intro a
  match a with
  | ⟨0, _⟩ =>
    show win2_3.index ⟨(i 0).val / 2000, ht⟩ (0 : Fin 2) * 2000 ≤ (i 0).val ∧ (i 0).val < win2_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_3.index ⟨(i 0).val / 2000, ht⟩ (1 : Fin 2) * 256 ≤ (i 1).val ∧ (i 1).val < win2_3.index ⟨(i 0).val / 2000, ht⟩ (1 : Fin 2) * 256 + 256
    rw [e1]; omega

/-- The output array after launch 2 is the projection of the arrays found at entry. -/
theorem arr2 (V : (c : Dev nD) → (b : Ref sig .tc) → Buf (Elt Ideal) ((c : Thread nD τ).loc b)) (c : Dev nD) :
    (dat2 V c).arrAt 3 cfg2.N
      = mmScaled 50000 256 (V c (Pipeline.arrRef spec2 0)) (V c (Pipeline.arrRef spec2 1)) (V c (Pipeline.arrRef spec2 2)) :=
  (dat2 V c).arrAt_eq_of_cover 3 _ (fun t _ => flushed2 V c t) cover2

end Cert.KernelIdeal.RegionValues

end
-- ==== Proof.KReg3.lean ====
/-
  What kernel launch 3 leaves in its output array, as one function of the arrays it finds at entry: each entry depends
  on its own row of the node arrays only, so what grid point t writes back is block t of the function on the whole
  arrays, and the 25 blocks of 2000 rows tile the output array.
-/
import proofs.«102876_j84971632984099_2_alg».proof.Proof.KRegBase

set_option maxRecDepth 16384

open scoped BigOperators

noncomputable section

namespace Cert.KernelIdeal.RegionValues

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Net

/-! ## Launch 3: scale, bias, rectify -/

/-- The bias body on a block: entry (a, q) is the block's entry scaled by the a-th entry of the column block, plus
    the q-th bias, rectified. -/
theorem pay3_at (v0 : Vec Ideal S256 .f32) (v3 : Vec Ideal S2000x256 .f32) (v5 : Vec Ideal S2000x1 .f32)
    (a : Fin 2000) (q : Fin 256) :
    k3_pay1 (F := Ideal) v0 v3 v5 (ix2 a q) = max (v3 (ix2 a q) * v5 (ix2 a (0 : Fin 1)) + v0 (ix1 q)) zeroWord := by
  unfold k3_pay1
  simp only [shapeCast_self]
  rw [truncf_apply, maximumf_apply, addf_apply, mulf_apply, broadcastTo_a1_ab_apply, broadcastTo_1b_ab_apply, shapeCast_a_1a_apply, broadcast_apply]

/-- Where each window's block sits at a point: the node arrays' blocks at row block t, the bias whole. -/
theorem idx_facts3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

theorem lt3 (t : Fin cfg3.N) : t.val < 25 := t.isLt.trans_eq N_3

/-- Row a of point t's block of the sums is row 2000·t + a of the array. -/
theorem iblk3_0_at (V : (c : Dev nD) → (b : Ref sig .tc) → Buf (Elt Ideal) ((c : Thread nD τ).loc b)) (c : Dev nD)
    (t : Fin cfg3.N) (a : Fin 2000) (k : Fin 256) :
    iblk3 V c 0 t (ix2 a k) = V c (Pipeline.arrRef spec3 0) (ix2 (rowAt t.val (lt3 t) a) k) := by
  obtain ⟨e0, e1, -⟩ := idx_facts3 t
  show V c (Pipeline.arrRef spec3 0) (((cfg3.win 0).blk t).view.emb (ix2 a k)) = _
  refine congrArg _ (funext fun ax => Fin.ext ?_)
  match ax with
  | ⟨0, _⟩ => show win3_0.index t (0 : Fin 2) * 2000 + 1 * a.val = t.val * 2000 + a.val; omega
  | ⟨1, _⟩ => show win3_0.index t (1 : Fin 2) * 256 + 1 * k.val = k.val; omega

/-- The bias block is the whole vector. -/
theorem iblk3_1_at (V : (c : Dev nD) → (b : Ref sig .tc) → Buf (Elt Ideal) ((c : Thread nD τ).loc b)) (c : Dev nD)
    (t : Fin cfg3.N) (q : Fin 256) :
    iblk3 V c 1 t (ix1 q) = V c (Pipeline.arrRef spec3 1) (ix1 q) := by
  obtain ⟨-, -, e0, -⟩ := idx_facts3 t
  show V c (Pipeline.arrRef spec3 1) (((cfg3.win 1).blk t).view.emb (ix1 q)) = _
  refine congrArg _ (funext fun ax => Fin.ext ?_)
  match ax with
  | ⟨0, _⟩ => show win3_1.index t (0 : Fin 1) * 256 + 1 * q.val = q.val; omega

/-- Entry a of point t's block of the scale column is entry 2000·t + a of the column. -/
theorem iblk3_2_at (V : (c : Dev nD) → (b : Ref sig .tc) → Buf (Elt Ideal) ((c : Thread nD τ).loc b)) (c : Dev nD)
    (t : Fin cfg3.N) (a : Fin 2000) (u : Fin 1) :
    iblk3 V c 2 t (ix2 a u) = V c (Pipeline.arrRef spec3 2) (ix2 (rowAt t.val (lt3 t) a) u) := by
  obtain ⟨-, -, -, e0, e1, -⟩ := idx_facts3 t
  show V c (Pipeline.arrRef spec3 2) (((cfg3.win 2).blk t).view.emb (ix2 a u)) = _
  refine congrArg _ (funext fun ax => Fin.ext ?_)
  match ax with
  | ⟨0, _⟩ => show win3_2.index t (0 : Fin 2) * 2000 + 1 * a.val = t.val * 2000 + a.val; omega
  | ⟨1, _⟩ => show win3_2.index t (1 : Fin 2) * 1 + 1 * u.val = u.val; omega

/-- Entry (a, q) of point t's output block is entry (2000·t + a, q) of the output array. -/
theorem emb3_3_at (t : Fin cfg3.N) (a : Fin 2000) (q : Fin 256) :
    ((cfg3.win 3).blk t).view.emb (ix2 a q) = ix2 (rowAt t.val (lt3 t) a) q := by
  obtain ⟨-, -, -, -, -, e0, e1⟩ := idx_facts3 t
  refine funext fun ax => Fin.ext ?_
  match ax with
  | ⟨0, _⟩ => show win3_3.index t (0 : Fin 2) * 2000 + 1 * a.val = t.val * 2000 + a.val; omega
  | ⟨1, _⟩ => show win3_3.index t (1 : Fin 2) * 256 + 1 * q.val = q.val; omega

/-- What point t writes back is block t of the scaled, biased, rectified whole array. -/
theorem flushed3 (V : (c : Dev nD) → (b : Ref sig .tc) → Buf (Elt Ideal) ((c : Thread nD τ).loc b)) (c : Dev nD)
    (t : Fin cfg3.N) :
    (dat3 V c).flushed 3 t = ((cfg3.win 3).blk t).view.read (Elt Ideal)
      (biasRelu 50000 256 (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz2]
  simp only [View.ld_unit_zero (S := S2000x256) hz2, View.ld_unit_zero (S := S256) hz1, View.ld_unit_zero (S := S2000x1) hz2]
  funext j
  obtain ⟨a, q, rfl⟩ : ∃ (a : Fin 2000) (q : Fin 256), j = ix2 a q := ⟨j 0, j 1, eq_ix2 j⟩
  show k3_pay1 (iblk3 V c 1 t) (iblk3 V c 0 t) (iblk3 V c 2 t) (ix2 a q)
    = biasRelu 50000 256 (V c (Pipeline.arrRef spec3 0)) (V c (Pipeline.arrRef spec3 1)) (V c (Pipeline.arrRef spec3 2))
        (((cfg3.win 3).blk t).view.emb (ix2 a q))
  refine (pay3_at (iblk3 V c 1 t) (iblk3 V c 0 t) (iblk3 V c 2 t) a q).trans ?_
  rw [emb3_3_at t a q, biasRelu_ix2, iblk3_2_at V c t a 0, iblk3_0_at V c t a q, iblk3_1_at V c t q]

/-- An index of the output array is in point t's block iff each coordinate is in the block's range on its axis. -/
theorem mem_blk3 (t : Fin cfg3.N) (i : S50000x256.Idx) :
    i ∈ ((cfg3.win 3).blk t).view.set ↔ ∀ a : Fin 2, win3_3.index t a * S2000x256.size a ≤ (i a).val ∧ (i a).val < win3_3.index t a * S2000x256.size a + S2000x256.size a := by
  show i ∈ ((View.whole main_v42).slice (win3_3.rect t)).set ↔ _
  rw [View.set_slice_whole, Rect.mem_set_unit]
  exact Iff.rfl

/-- The 25 blocks tile the output array: row r is in block r / 2000. -/
theorem cover3 (i : S50000x256.Idx) : ∃ t : Fin cfg3.N, (cfg3.win 3).flush t = true ∧ i ∈ ((cfg3.win 3).blk t).view.set := by
  have hi0 : (i 0).val < 50000 := idx2_lt0 i
  have hi1 : (i 1).val < 256 := idx2_lt1 i
  have ht : (i 0).val / 2000 < cfg3.N := by rw [show cfg3.N = 25 from N_3]; omega
  obtain ⟨-, -, -, -, -, e0, e1⟩ := idx_facts3 ⟨(i 0).val / 2000, ht⟩
  refine ⟨⟨(i 0).val / 2000, ht⟩, flush3_3 _, ?_⟩
  rw [mem_blk3]
  intro a
  match a with
  | ⟨0, _⟩ =>
    show win3_3.index ⟨(i 0).val / 2000, ht⟩ (0 : Fin 2) * 2000 ≤ (i 0).val ∧ (i 0).val < win3_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_3.index ⟨(i 0).val / 2000, ht⟩ (1 : Fin 2) * 256 ≤ (i 1).val ∧ (i 1).val < win3_3.index ⟨(i 0).val / 2000, ht⟩ (1 : Fin 2) * 256 + 256
    rw [e1]; omega

/-- The output array after launch 3 is the scaled, biased, rectified array found at entry. -/
theorem arr3 (V : (c : Dev nD) → (b : Ref sig .tc) → Buf (Elt Ideal) ((c : Thread nD τ).loc b)) (c : Dev nD) :
    (dat3 V c).arrAt 3 cfg3.N
      = biasRelu 50000 256 (V c (Pipeline.arrRef spec3 0)) (V c (Pipeline.arrRef spec3 1)) (V c (Pipeline.arrRef spec3 2)) :=
  (dat3 V c).arrAt_eq_of_cover 3 _ (fun t _ => flushed3 V c t) cover3

end Cert.KernelIdeal.RegionValues

end
-- ==== Proof.KChainB.lean ====
/-
  The second layer of the kernel's program, from whatever the first layer left: the second weights narrowed, the
  projection launch, the host's gather and per-target sum, the bias launch.
-/
import proofs.«102876_j84971632984099_2_alg».proof.Proof.Gen.KernelIdeal.Frame
import proofs.«102876_j84971632984099_2_alg».proof.Proof.KForms
import proofs.«102876_j84971632984099_2_alg».proof.Proof.LibReadThrough
import proofs.«102876_j84971632984099_2_alg».proof.Proof.KChain0
import proofs.«102876_j84971632984099_2_alg».proof.Proof.KReg2
import proofs.«102876_j84971632984099_2_alg».proof.Proof.KReg3

set_option maxRecDepth 16384

noncomputable section

namespace Cert.KernelIdeal.Chain

open Cert.KernelIdeal Cert.KernelIdeal.Gen Cert.KernelIdeal.Forms
open Idealize.ShloMosaic Idealize.ShloMosaic.TcCoe Idealize.ShloMosaic.StableHlo Idealize.SL.Sem
open Idealize.ShloMosaic.Pipeline (Dat Cfg Window)
open Cert.Net

variable (m : (ℓ : Loc nD τ sig) → Buf (Elt Ideal) ℓ) (ρ : Dev nD → PrngReg) (c : Dev nD)

/-- The previous layer's output is not written before the projection launch reads it. -/
theorem keep_v29_6_7 : W7 m ρ c (Proc.devRef .tc main_v29) = W6 m ρ c (Proc.devRef .tc main_v29) :=
  calc W7 m ρ c (Proc.devRef .tc main_v29)
    _ = W6 m ρ c (Proc.devRef .tc main_v29) := (by show StableHlo.after hostOps2 (W6 m ρ c) (Proc.devRef .tc main_v29) = _; after_results_through)

/-- The weight matrix is as launched. -/
theorem keep_arg5_0_6 : W6 m ρ c (Proc.devRef .tc main_arg5) = W0 m ρ c (Proc.devRef .tc main_arg5) :=
  calc W6 m ρ c (Proc.devRef .tc main_arg5)
    _ = W5 m ρ c (Proc.devRef .tc main_arg5) := (W6_of_ne m ρ c main_arg5 (by decide))
    _ = W4 m ρ c (Proc.devRef .tc main_arg5) := (by show StableHlo.after hostOps1 (W4 m ρ c) (Proc.devRef .tc main_arg5) = _; after_results_through)
    _ = W3 m ρ c (Proc.devRef .tc main_arg5) := (W4_of_ne m ρ c main_arg5 (by decide))
    _ = W2 m ρ c (Proc.devRef .tc main_arg5) := (by show StableHlo.after hostOps0_2 (W2 m ρ c) (Proc.devRef .tc main_arg5) = _; after_results_through)
    _ = W1 m ρ c (Proc.devRef .tc main_arg5) := (by show StableHlo.after hostOps0_1 (W1 m ρ c) (Proc.devRef .tc main_arg5) = _; after_results_through)
    _ = W0 m ρ c (Proc.devRef .tc main_arg5) := (by show StableHlo.after hostOps0 (W0 m ρ c) (Proc.devRef .tc main_arg5) = _; after_results_through)

/-- No operation and no launch up to here writes the source row numbers. -/
theorem keep_v3_3_8 : W8 m ρ c (Proc.devRef .tc main_v3) = W3 m ρ c (Proc.devRef .tc main_v3) :=
  calc W8 m ρ c (Proc.devRef .tc main_v3)
    _ = W7 m ρ c (Proc.devRef .tc main_v3) := (W8_of_ne m ρ c main_v3 (by decide))
    _ = W6 m ρ c (Proc.devRef .tc main_v3) := (by show StableHlo.after hostOps2 (W6 m ρ c) (Proc.devRef .tc main_v3) = _; after_results_through)
    _ = W5 m ρ c (Proc.devRef .tc main_v3) := (W6_of_ne m ρ c main_v3 (by decide))
    _ = W4 m ρ c (Proc.devRef .tc main_v3) := (by show StableHlo.after hostOps1 (W4 m ρ c) (Proc.devRef .tc main_v3) = _; after_results_through)
    _ = W3 m ρ c (Proc.devRef .tc main_v3) := (W4_of_ne m ρ c main_v3 (by decide))

/-- No operation and no launch up to here writes the target row numbers. -/
theorem keep_v6_3_8 : W8 m ρ c (Proc.devRef .tc main_v6) = W3 m ρ c (Proc.devRef .tc main_v6) :=
  calc W8 m ρ c (Proc.devRef .tc main_v6)
    _ = W7 m ρ c (Proc.devRef .tc main_v6) := (W8_of_ne m ρ c main_v6 (by decide))
    _ = W6 m ρ c (Proc.devRef .tc main_v6) := (by show StableHlo.after hostOps2 (W6 m ρ c) (Proc.devRef .tc main_v6) = _; after_results_through)
    _ = W5 m ρ c (Proc.devRef .tc main_v6) := (W6_of_ne m ρ c main_v6 (by decide))
    _ = W4 m ρ c (Proc.devRef .tc main_v6) := (by show StableHlo.after hostOps1 (W4 m ρ c) (Proc.devRef .tc main_v6) = _; after_results_through)
    _ = W3 m ρ c (Proc.devRef .tc main_v6) := (W4_of_ne m ρ c main_v6 (by decide))

/-- The scale column is read, never written, up to the projection launch. -/
theorem keep_v16_3_7 : W7 m ρ c (Proc.devRef .tc main_v16) = W3 m ρ c (Proc.devRef .tc main_v16) :=
  calc W7 m ρ c (Proc.devRef .tc main_v16)
    _ = W6 m ρ c (Proc.devRef .tc main_v16) := (by show StableHlo.after hostOps2 (W6 m ρ c) (Proc.devRef .tc main_v16) = _; after_results_through)
    _ = W5 m ρ c (Proc.devRef .tc main_v16) := ((W6_arr m ρ c 2).trans (((dat1 (V5 m ρ) c).arrAt_in 2 rfl _).trans (A_eq1 (V5 m ρ) c 2)))
    _ = W4 m ρ c (Proc.devRef .tc main_v16) := (by show StableHlo.after hostOps1 (W4 m ρ c) (Proc.devRef .tc main_v16) = _; after_results_through)
    _ = W3 m ρ c (Proc.devRef .tc main_v16) := ((W4_arr m ρ c 2).trans (((dat0 (V3 m ρ) c).arrAt_in 2 rfl _).trans (A_eq0 (V3 m ρ) c 2)))

/-- The scale column is read, never written, up to the bias launch. -/
theorem keep_v16_3_9 : W9 m ρ c (Proc.devRef .tc main_v16) = W3 m ρ c (Proc.devRef .tc main_v16) :=
  calc W9 m ρ c (Proc.devRef .tc main_v16)
    _ = W8 m ρ c (Proc.devRef .tc main_v16) := (by show StableHlo.after hostOps3 (W8 m ρ c) (Proc.devRef .tc main_v16) = _; after_results_through)
    _ = W7 m ρ c (Proc.devRef .tc main_v16) := ((W8_arr m ρ c 2).trans (((dat2 (V7 m ρ) c).arrAt_in 2 rfl _).trans (A_eq2 (V7 m ρ) c 2)))
    _ = W6 m ρ c (Proc.devRef .tc main_v16) := (by show StableHlo.after hostOps2 (W6 m ρ c) (Proc.devRef .tc main_v16) = _; after_results_through)
    _ = W5 m ρ c (Proc.devRef .tc main_v16) := ((W6_arr m ρ c 2).trans (((dat1 (V5 m ρ) c).arrAt_in 2 rfl _).trans (A_eq1 (V5 m ρ) c 2)))
    _ = W4 m ρ c (Proc.devRef .tc main_v16) := (by show StableHlo.after hostOps1 (W4 m ρ c) (Proc.devRef .tc main_v16) = _; after_results_through)
    _ = W3 m ρ c (Proc.devRef .tc main_v16) := ((W4_arr m ρ c 2).trans (((dat0 (V3 m ρ) c).arrAt_in 2 rfl _).trans (A_eq0 (V3 m ρ) c 2)))

/-- The bias vector is as launched. -/
theorem keep_arg6_0_9 : W9 m ρ c (Proc.devRef .tc main_arg6) = W0 m ρ c (Proc.devRef .tc main_arg6) :=
  calc W9 m ρ c (Proc.devRef .tc main_arg6)
    _ = W8 m ρ c (Proc.devRef .tc main_arg6) := (by show StableHlo.after hostOps3 (W8 m ρ c) (Proc.devRef .tc main_arg6) = _; after_results_through)
    _ = W7 m ρ c (Proc.devRef .tc main_arg6) := (W8_of_ne m ρ c main_arg6 (by decide))
    _ = W6 m ρ c (Proc.devRef .tc main_arg6) := (by show StableHlo.after hostOps2 (W6 m ρ c) (Proc.devRef .tc main_arg6) = _; after_results_through)
    _ = W5 m ρ c (Proc.devRef .tc main_arg6) := (W6_of_ne m ρ c main_arg6 (by decide))
    _ = W4 m ρ c (Proc.devRef .tc main_arg6) := (by show StableHlo.after hostOps1 (W4 m ρ c) (Proc.devRef .tc main_arg6) = _; after_results_through)
    _ = W3 m ρ c (Proc.devRef .tc main_arg6) := (W4_of_ne m ρ c main_arg6 (by decide))
    _ = W2 m ρ c (Proc.devRef .tc main_arg6) := (by show StableHlo.after hostOps0_2 (W2 m ρ c) (Proc.devRef .tc main_arg6) = _; after_results_through)
    _ = W1 m ρ c (Proc.devRef .tc main_arg6) := (by show StableHlo.after hostOps0_1 (W1 m ρ c) (Proc.devRef .tc main_arg6) = _; after_results_through)
    _ = W0 m ρ c (Proc.devRef .tc main_arg6) := (by show StableHlo.after hostOps0 (W0 m ρ c) (Proc.devRef .tc main_arg6) = _; after_results_through)

/-- The weight matrix, narrowed. -/
theorem v30 : W7 m ρ c (Proc.devRef .tc main_v30) = (truncf (F := Ideal) .bf16 (m ((c : Thread nD τ).loc main_arg5)) bitsLt_bf16_f32 : FVec Ideal S256x256 .bf16) := by
  show StableHlo.after hostOps2 (W6 m ρ c) (Proc.devRef .tc main_v30) = _
  rw [host2_read, keep_arg5_0_6]

/-- After the projection launch: the previous layer projected and scaled row by row. -/
theorem v31 (H : S50000x256.Idx → EReal) (hH : W6 m ρ c (Proc.devRef .tc main_v29) = H) :
    W8 m ρ c (Proc.devRef .tc main_v31) = mmScaled 50000 256 H (truncf (F := Ideal) .bf16 (m ((c : Thread nD τ).loc main_arg5)) bitsLt_bf16_f32 : FVec Ideal S256x256 .bf16) (dcolP (m ((c : Thread nD τ).loc main_arg1))) := by
  refine (W8_arr m ρ c 3).trans ((RegionValues.arr2 (V7 m ρ) c).trans ?_)
  have e0 : V7 m ρ c (Pipeline.arrRef spec2 0) = H := (keep_v29_6_7 m ρ c).trans hH
  have e1 : V7 m ρ c (Pipeline.arrRef spec2 1) = (truncf (F := Ideal) .bf16 (m ((c : Thread nD τ).loc main_arg5)) bitsLt_bf16_f32 : FVec Ideal S256x256 .bf16) := v30 m ρ c
  have e2 : V7 m ρ c (Pipeline.arrRef spec2 2) = dcolP (m ((c : Thread nD τ).loc main_arg1)) := (keep_v16_3_7 m ρ c).trans (w3_v16 m ρ c)
  rw [e0, e1, e2]

/-- The gathered rows summed per target. -/
theorem v41 (H : S50000x256.Idx → EReal) (hH : W6 m ρ c (Proc.devRef .tc main_v29) = H) :
    W9 m ρ c (Proc.devRef .tc main_v41) = aggP (m ((c : Thread nD τ).loc main_arg1)) (mmScaled 50000 256 H (truncf (F := Ideal) .bf16 (m ((c : Thread nD τ).loc main_arg5)) bitsLt_bf16_f32 : FVec Ideal S256x256 .bf16) (dcolP (m ((c : Thread nD τ).loc main_arg1)))) := by
  show StableHlo.after hostOps3 (W8 m ρ c) (Proc.devRef .tc main_v41) = _
  rw [host3_read, keep_v6_3_8, w3_v6, keep_v3_3_8, w3_v3, v31 m ρ c H hH]
  rfl

/-- After the bias launch: the layer. -/
theorem v42 (H : S50000x256.Idx → EReal) (hH : W6 m ρ c (Proc.devRef .tc main_v29) = H) :
    W10 m ρ c (Proc.devRef .tc main_v42) = layerKP (m ((c : Thread nD τ).loc main_arg1)) H (truncf (F := Ideal) .bf16 (m ((c : Thread nD τ).loc main_arg5)) bitsLt_bf16_f32 : FVec Ideal S256x256 .bf16) (m ((c : Thread nD τ).loc main_arg6)) := by
  refine (W10_arr m ρ c 3).trans ((RegionValues.arr3 (V9 m ρ) c).trans ?_)
  have e0 : V9 m ρ c (Pipeline.arrRef spec3 0) = aggP (m ((c : Thread nD τ).loc main_arg1)) (mmScaled 50000 256 H (truncf (F := Ideal) .bf16 (m ((c : Thread nD τ).loc main_arg5)) bitsLt_bf16_f32 : FVec Ideal S256x256 .bf16) (dcolP (m ((c : Thread nD τ).loc main_arg1)))) := v41 m ρ c H hH
  have e1 : V9 m ρ c (Pipeline.arrRef spec3 1) = (m ((c : Thread nD τ).loc main_arg6)) := keep_arg6_0_9 m ρ c
  have e2 : V9 m ρ c (Pipeline.arrRef spec3 2) = dcolP (m ((c : Thread nD τ).loc main_arg1)) := (keep_v16_3_9 m ρ c).trans (w3_v16 m ρ c)
  rw [e0, e1, e2]
  rfl

end Cert.KernelIdeal.Chain

end
-- ==== Proof.KReg4.lean ====
/-
  What kernel launch 4 leaves in its output array, as one function of the arrays it finds at entry: each entry depends
  on its own row of the node arrays only, so what grid point t writes back is block t of the function on the whole
  arrays, and the 25 blocks of 2000 rows tile the output array.
-/
import proofs.«102876_j84971632984099_2_alg».proof.Proof.KRegBase

set_option maxRecDepth 16384

open scoped BigOperators

noncomputable section

namespace Cert.KernelIdeal.RegionValues

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Net

/-! ## Launch 4: a projection -/

/-- The projection body on a block: entry (a, q) is row a of the block times column q of the weights, scaled by the
    a-th entry of the column block. -/
theorem pay4_at (x0 : Vec Ideal S2000x256 .bf16) (x1 : Vec Ideal S256x256 .bf16) (x2 : Vec Ideal S2000x1 .f32)
    (a : Fin 2000) (q : Fin 256) :
    k4_pay1 (F := Ideal) x0 x1 x2 (ix2 a q) = (∑ k : Fin 256, x0 (ix2 a k) * x1 (ix2 k q)) * x2 (ix2 a (0 : Fin 1)) := by
  unfold k4_pay1
  rw [mulf_apply, shapeCast_self, shapeCast_self, shapeCast_self, broadcastTo_a1_ab_apply]
  refine congrArg (· * x2 (ix2 a (0 : Fin 1))) ?_
  exact matmul_zero_ix2 dot_S2000x256_S256x256_S2000x256_1_0_0_1_n_n rfl rfl rfl rfl rfl rfl none x0 x1 a q

/-- Where each window's block sits at a point: the node arrays' blocks at row block t, the weights whole. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

theorem lt4 (t : Fin cfg4.N) : t.val < 25 := t.isLt.trans_eq N_4

/-- Row a of point t's block of the features is row 2000·t + a of the array. -/
theorem iblk4_0_at (V : (c : Dev nD) → (b : Ref sig .tc) → Buf (Elt Ideal) ((c : Thread nD τ).loc b)) (c : Dev nD)
    (t : Fin cfg4.N) (a : Fin 2000) (k : Fin 256) :
    iblk4 V c 0 t (ix2 a k) = V c (Pipeline.arrRef spec4 0) (ix2 (rowAt t.val (lt4 t) a) k) := by
  obtain ⟨e0, e1, -⟩ := idx_facts4 t
  show V c (Pipeline.arrRef spec4 0) (((cfg4.win 0).blk t).view.emb (ix2 a k)) = _
  refine congrArg _ (funext fun ax => Fin.ext ?_)
  match ax with
  | ⟨0, _⟩ => show win4_0.index t (0 : Fin 2) * 2000 + 1 * a.val = t.val * 2000 + a.val; omega
  | ⟨1, _⟩ => show win4_0.index t (1 : Fin 2) * 256 + 1 * k.val = k.val; omega

/-- The weights' block is the whole matrix. -/
theorem iblk4_1_at (V : (c : Dev nD) → (b : Ref sig .tc) → Buf (Elt Ideal) ((c : Thread nD τ).loc b)) (c : Dev nD)
    (t : Fin cfg4.N) (k : Fin 256) (q : Fin 256) :
    iblk4 V c 1 t (ix2 k q) = V c (Pipeline.arrRef spec4 1) (ix2 k q) := by
  obtain ⟨-, -, e0, e1, -⟩ := idx_facts4 t
  show V c (Pipeline.arrRef spec4 1) (((cfg4.win 1).blk t).view.emb (ix2 k q)) = _
  refine congrArg _ (funext fun ax => Fin.ext ?_)
  match ax with
  | ⟨0, _⟩ => show win4_1.index t (0 : Fin 2) * 256 + 1 * k.val = k.val; omega
  | ⟨1, _⟩ => show win4_1.index t (1 : Fin 2) * 256 + 1 * q.val = q.val; omega

/-- Entry a of point t's block of the scale column is entry 2000·t + a of the column. -/
theorem iblk4_2_at (V : (c : Dev nD) → (b : Ref sig .tc) → Buf (Elt Ideal) ((c : Thread nD τ).loc b)) (c : Dev nD)
    (t : Fin cfg4.N) (a : Fin 2000) (u : Fin 1) :
    iblk4 V c 2 t (ix2 a u) = V c (Pipeline.arrRef spec4 2) (ix2 (rowAt t.val (lt4 t) a) u) := by
  obtain ⟨-, -, -, -, e0, e1, -⟩ := idx_facts4 t
  show V c (Pipeline.arrRef spec4 2) (((cfg4.win 2).blk t).view.emb (ix2 a u)) = _
  refine congrArg _ (funext fun ax => Fin.ext ?_)
  match ax with
  | ⟨0, _⟩ => show win4_2.index t (0 : Fin 2) * 2000 + 1 * a.val = t.val * 2000 + a.val; omega
  | ⟨1, _⟩ => show win4_2.index t (1 : Fin 2) * 1 + 1 * u.val = u.val; omega

/-- Entry (a, q) of point t's output block is entry (2000·t + a, q) of the output array. -/
theorem emb4_3_at (t : Fin cfg4.N) (a : Fin 2000) (q : Fin 256) :
    ((cfg4.win 3).blk t).view.emb (ix2 a q) = ix2 (rowAt t.val (lt4 t) a) q := by
  obtain ⟨-, -, -, -, -, -, e0, e1⟩ := idx_facts4 t
  refine funext fun ax => Fin.ext ?_
  match ax with
  | ⟨0, _⟩ => show win4_3.index t (0 : Fin 2) * 2000 + 1 * a.val = t.val * 2000 + a.val; omega
  | ⟨1, _⟩ => show win4_3.index t (1 : Fin 2) * 256 + 1 * q.val = q.val; omega

/-- What point t writes back is block t of the projection of the whole arrays. -/
theorem flushed4 (V : (c : Dev nD) → (b : Ref sig .tc) → Buf (Elt Ideal) ((c : Thread nD τ).loc b)) (c : Dev nD)
    (t : Fin cfg4.N) :
    (dat4 V c).flushed 3 t = ((cfg4.win 3).blk t).view.read (Elt Ideal)
      (mmScaled 50000 256 (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero hz2]
  simp only [View.ld_unit_zero (S := S2000x256) hz2, View.ld_unit_zero (S := S256x256) hz2, View.ld_unit_zero (S := S2000x1) hz2]
  funext j
  obtain ⟨a, q, rfl⟩ : ∃ (a : Fin 2000) (q : Fin 256), j = ix2 a q := ⟨j 0, j 1, eq_ix2 j⟩
  show k4_pay1 (iblk4 V c 0 t) (iblk4 V c 1 t) (iblk4 V c 2 t) (ix2 a q)
    = mmScaled 50000 256 (V c (Pipeline.arrRef spec4 0)) (V c (Pipeline.arrRef spec4 1)) (V c (Pipeline.arrRef spec4 2))
        (((cfg4.win 3).blk t).view.emb (ix2 a q))
  refine (pay4_at (iblk4 V c 0 t) (iblk4 V c 1 t) (iblk4 V c 2 t) a q).trans ?_
  rw [emb4_3_at t a q, mmScaled_ix2, iblk4_2_at V c t a 0]
  refine congrArg (· * _) (Finset.sum_congr rfl fun k _ => ?_)
  rw [iblk4_0_at V c t a k, iblk4_1_at V c t k q]

/-- An index of the output array is in point t's block iff each coordinate is in the block's range on its axis. -/
theorem mem_blk4 (t : Fin cfg4.N) (i : S50000x256.Idx) :
    i ∈ ((cfg4.win 3).blk t).view.set ↔ ∀ a : Fin 2, win4_3.index t a * S2000x256.size a ≤ (i a).val ∧ (i a).val < win4_3.index t a * S2000x256.size a + S2000x256.size a := by
  show i ∈ ((View.whole main_v44).slice (win4_3.rect t)).set ↔ _
  rw [View.set_slice_whole, Rect.mem_set_unit]
  exact Iff.rfl

/-- The 25 blocks tile the output array: row r is in block r / 2000. -/
theorem cover4 (i : S50000x256.Idx) : ∃ t : Fin cfg4.N, (cfg4.win 3).flush t = true ∧ i ∈ ((cfg4.win 3).blk t).view.set := by
  have hi0 : (i 0).val < 50000 := idx2_lt0 i
  have hi1 : (i 1).val < 256 := idx2_lt1 i
  have ht : (i 0).val / 2000 < cfg4.N := by rw [show cfg4.N = 25 from N_4]; omega
  obtain ⟨-, -, -, -, -, -, e0, e1⟩ := idx_facts4 ⟨(i 0).val / 2000, ht⟩
  refine ⟨⟨(i 0).val / 2000, ht⟩, flush4_3 _, ?_⟩
  rw [mem_blk4]
  intro a
  match a with
  | ⟨0, _⟩ =>
    show win4_3.index ⟨(i 0).val / 2000, ht⟩ (0 : Fin 2) * 2000 ≤ (i 0).val ∧ (i 0).val < win4_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win4_3.index ⟨(i 0).val / 2000, ht⟩ (1 : Fin 2) * 256 ≤ (i 1).val ∧ (i 1).val < win4_3.index ⟨(i 0).val / 2000, ht⟩ (1 : Fin 2) * 256 + 256
    rw [e1]; omega

/-- The output array after launch 4 is the projection of the arrays found at entry. -/
theorem arr4 (V : (c : Dev nD) → (b : Ref sig .tc) → Buf (Elt Ideal) ((c : Thread nD τ).loc b)) (c : Dev nD) :
    (dat4 V c).arrAt 3 cfg4.N
      = mmScaled 50000 256 (V c (Pipeline.arrRef spec4 0)) (V c (Pipeline.arrRef spec4 1)) (V c (Pipeline.arrRef spec4 2)) :=
  (dat4 V c).arrAt_eq_of_cover 3 _ (fun t _ => flushed4 V c t) cover4

end Cert.KernelIdeal.RegionValues

end
-- ==== Proof.KReg5.lean ====
/-
  What kernel launch 5 leaves in its output array, as one function of the arrays it finds at entry: each entry depends
  on its own row of the node arrays only, so what grid point t writes back is block t of the function on the whole
  arrays, and the 25 blocks of 2000 rows tile the output array.
-/
import proofs.«102876_j84971632984099_2_alg».proof.Proof.KRegBase

set_option maxRecDepth 16384

open scoped BigOperators

noncomputable section

namespace Cert.KernelIdeal.RegionValues

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Net

/-! ## Launch 5: scale, bias, rectify -/

/-- The bias body on a block: entry (a, q) is the block's entry scaled by the a-th entry of the column block, plus
    the q-th bias, rectified. -/
theorem pay5_at (v0 : Vec Ideal S256 .f32) (v3 : Vec Ideal S2000x256 .f32) (v5 : Vec Ideal S2000x1 .f32)
    (a : Fin 2000) (q : Fin 256) :
    k5_pay1 (F := Ideal) v0 v3 v5 (ix2 a q) = max (v3 (ix2 a q) * v5 (ix2 a (0 : Fin 1)) + v0 (ix1 q)) zeroWord := by
  unfold k5_pay1
  simp only [shapeCast_self]
  rw [maximumf_apply, addf_apply, mulf_apply, broadcastTo_a1_ab_apply, broadcastTo_1b_ab_apply, shapeCast_a_1a_apply, broadcast_apply]

/-- Where each window's block sits at a point: the node arrays' blocks at row block t, the bias whole. -/
theorem idx_facts5 : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

theorem lt5 (t : Fin cfg5.N) : t.val < 25 := t.isLt.trans_eq N_5

/-- Row a of point t's block of the sums is row 2000·t + a of the array. -/
theorem iblk5_0_at (V : (c : Dev nD) → (b : Ref sig .tc) → Buf (Elt Ideal) ((c : Thread nD τ).loc b)) (c : Dev nD)
    (t : Fin cfg5.N) (a : Fin 2000) (k : Fin 256) :
    iblk5 V c 0 t (ix2 a k) = V c (Pipeline.arrRef spec5 0) (ix2 (rowAt t.val (lt5 t) a) k) := by
  obtain ⟨e0, e1, -⟩ := idx_facts5 t
  show V c (Pipeline.arrRef spec5 0) (((cfg5.win 0).blk t).view.emb (ix2 a k)) = _
  refine congrArg _ (funext fun ax => Fin.ext ?_)
  match ax with
  | ⟨0, _⟩ => show win5_0.index t (0 : Fin 2) * 2000 + 1 * a.val = t.val * 2000 + a.val; omega
  | ⟨1, _⟩ => show win5_0.index t (1 : Fin 2) * 256 + 1 * k.val = k.val; omega

/-- The bias block is the whole vector. -/
theorem iblk5_1_at (V : (c : Dev nD) → (b : Ref sig .tc) → Buf (Elt Ideal) ((c : Thread nD τ).loc b)) (c : Dev nD)
    (t : Fin cfg5.N) (q : Fin 256) :
    iblk5 V c 1 t (ix1 q) = V c (Pipeline.arrRef spec5 1) (ix1 q) := by
  obtain ⟨-, -, e0, -⟩ := idx_facts5 t
  show V c (Pipeline.arrRef spec5 1) (((cfg5.win 1).blk t).view.emb (ix1 q)) = _
  refine congrArg _ (funext fun ax => Fin.ext ?_)
  match ax with
  | ⟨0, _⟩ => show win5_1.index t (0 : Fin 1) * 256 + 1 * q.val = q.val; omega

/-- Entry a of point t's block of the scale column is entry 2000·t + a of the column. -/
theorem iblk5_2_at (V : (c : Dev nD) → (b : Ref sig .tc) → Buf (Elt Ideal) ((c : Thread nD τ).loc b)) (c : Dev nD)
    (t : Fin cfg5.N) (a : Fin 2000) (u : Fin 1) :
    iblk5 V c 2 t (ix2 a u) = V c (Pipeline.arrRef spec5 2) (ix2 (rowAt t.val (lt5 t) a) u) := by
  obtain ⟨-, -, -, e0, e1, -⟩ := idx_facts5 t
  show V c (Pipeline.arrRef spec5 2) (((cfg5.win 2).blk t).view.emb (ix2 a u)) = _
  refine congrArg _ (funext fun ax => Fin.ext ?_)
  match ax with
  | ⟨0, _⟩ => show win5_2.index t (0 : Fin 2) * 2000 + 1 * a.val = t.val * 2000 + a.val; omega
  | ⟨1, _⟩ => show win5_2.index t (1 : Fin 2) * 1 + 1 * u.val = u.val; omega

/-- Entry (a, q) of point t's output block is entry (2000·t + a, q) of the output array. -/
theorem emb5_3_at (t : Fin cfg5.N) (a : Fin 2000) (q : Fin 256) :
    ((cfg5.win 3).blk t).view.emb (ix2 a q) = ix2 (rowAt t.val (lt5 t) a) q := by
  obtain ⟨-, -, -, -, -, e0, e1⟩ := idx_facts5 t
  refine funext fun ax => Fin.ext ?_
  match ax with
  | ⟨0, _⟩ => show win5_3.index t (0 : Fin 2) * 2000 + 1 * a.val = t.val * 2000 + a.val; omega
  | ⟨1, _⟩ => show win5_3.index t (1 : Fin 2) * 256 + 1 * q.val = q.val; omega

/-- What point t writes back is block t of the scaled, biased, rectified whole array. -/
theorem flushed5 (V : (c : Dev nD) → (b : Ref sig .tc) → Buf (Elt Ideal) ((c : Thread nD τ).loc b)) (c : Dev nD)
    (t : Fin cfg5.N) :
    (dat5 V c).flushed 3 t = ((cfg5.win 3).blk t).view.read (Elt Ideal)
      (biasRelu 50000 256 (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz2]
  simp only [View.ld_unit_zero (S := S2000x256) hz2, View.ld_unit_zero (S := S256) hz1, View.ld_unit_zero (S := S2000x1) hz2]
  funext j
  obtain ⟨a, q, rfl⟩ : ∃ (a : Fin 2000) (q : Fin 256), j = ix2 a q := ⟨j 0, j 1, eq_ix2 j⟩
  show k5_pay1 (iblk5 V c 1 t) (iblk5 V c 0 t) (iblk5 V c 2 t) (ix2 a q)
    = biasRelu 50000 256 (V c (Pipeline.arrRef spec5 0)) (V c (Pipeline.arrRef spec5 1)) (V c (Pipeline.arrRef spec5 2))
        (((cfg5.win 3).blk t).view.emb (ix2 a q))
  refine (pay5_at (iblk5 V c 1 t) (iblk5 V c 0 t) (iblk5 V c 2 t) a q).trans ?_
  rw [emb5_3_at t a q, biasRelu_ix2, iblk5_2_at V c t a 0, iblk5_0_at V c t a q, iblk5_1_at V c t q]

/-- An index of the output array is in point t's block iff each coordinate is in the block's range on its axis. -/
theorem mem_blk5 (t : Fin cfg5.N) (i : S50000x256.Idx) :
    i ∈ ((cfg5.win 3).blk t).view.set ↔ ∀ a : Fin 2, win5_3.index t a * S2000x256.size a ≤ (i a).val ∧ (i a).val < win5_3.index t a * S2000x256.size a + S2000x256.size a := by
  show i ∈ ((View.whole main_v55).slice (win5_3.rect t)).set ↔ _
  rw [View.set_slice_whole, Rect.mem_set_unit]
  exact Iff.rfl

/-- The 25 blocks tile the output array: row r is in block r / 2000. -/
theorem cover5 (i : S50000x256.Idx) : ∃ t : Fin cfg5.N, (cfg5.win 3).flush t = true ∧ i ∈ ((cfg5.win 3).blk t).view.set := by
  have hi0 : (i 0).val < 50000 := idx2_lt0 i
  have hi1 : (i 1).val < 256 := idx2_lt1 i
  have ht : (i 0).val / 2000 < cfg5.N := by rw [show cfg5.N = 25 from N_5]; omega
  obtain ⟨-, -, -, -, -, e0, e1⟩ := idx_facts5 ⟨(i 0).val / 2000, ht⟩
  refine ⟨⟨(i 0).val / 2000, ht⟩, flush5_3 _, ?_⟩
  rw [mem_blk5]
  intro a
  match a with
  | ⟨0, _⟩ =>
    show win5_3.index ⟨(i 0).val / 2000, ht⟩ (0 : Fin 2) * 2000 ≤ (i 0).val ∧ (i 0).val < win5_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win5_3.index ⟨(i 0).val / 2000, ht⟩ (1 : Fin 2) * 256 ≤ (i 1).val ∧ (i 1).val < win5_3.index ⟨(i 0).val / 2000, ht⟩ (1 : Fin 2) * 256 + 256
    rw [e1]; omega

/-- The output array after launch 5 is the scaled, biased, rectified array found at entry. -/
theorem arr5 (V : (c : Dev nD) → (b : Ref sig .tc) → Buf (Elt Ideal) ((c : Thread nD τ).loc b)) (c : Dev nD) :
    (dat5 V c).arrAt 3 cfg5.N
      = biasRelu 50000 256 (V c (Pipeline.arrRef spec5 0)) (V c (Pipeline.arrRef spec5 1)) (V c (Pipeline.arrRef spec5 2)) :=
  (dat5 V c).arrAt_eq_of_cover 3 _ (fun t _ => flushed5 V c t) cover5

end Cert.KernelIdeal.RegionValues

end
-- ==== Proof.KChainC.lean ====
/-
  The third layer of the kernel's program, from whatever the second layer left, and the pooling head on the host.
-/
import proofs.«102876_j84971632984099_2_alg».proof.Proof.Gen.KernelIdeal.Frame
import proofs.«102876_j84971632984099_2_alg».proof.Proof.KForms
import proofs.«102876_j84971632984099_2_alg».proof.Proof.LibReadThrough
import proofs.«102876_j84971632984099_2_alg».proof.Proof.KChain0
import proofs.«102876_j84971632984099_2_alg».proof.Proof.KReg4
import proofs.«102876_j84971632984099_2_alg».proof.Proof.KReg5

set_option maxRecDepth 16384

noncomputable section

namespace Cert.KernelIdeal.Chain

open Cert.KernelIdeal Cert.KernelIdeal.Gen Cert.KernelIdeal.Forms
open Idealize.ShloMosaic Idealize.ShloMosaic.TcCoe Idealize.ShloMosaic.StableHlo Idealize.SL.Sem
open Idealize.ShloMosaic.Pipeline (Dat Cfg Window)
open Cert.Net

variable (m : (ℓ : Loc nD τ sig) → Buf (Elt Ideal) ℓ) (ρ : Dev nD → PrngReg) (c : Dev nD)

/-- The previous layer's output is not written before the projection launch reads it. -/
theorem keep_v42_10_11 : W11 m ρ c (Proc.devRef .tc main_v42) = W10 m ρ c (Proc.devRef .tc main_v42) :=
  calc W11 m ρ c (Proc.devRef .tc main_v42)
    _ = W10 m ρ c (Proc.devRef .tc main_v42) := (by show StableHlo.after hostOps4 (W10 m ρ c) (Proc.devRef .tc main_v42) = _; after_results_through)

/-- The weight matrix is as launched. -/
theorem keep_arg7_0_10 : W10 m ρ c (Proc.devRef .tc main_arg7) = W0 m ρ c (Proc.devRef .tc main_arg7) :=
  calc W10 m ρ c (Proc.devRef .tc main_arg7)
    _ = W9 m ρ c (Proc.devRef .tc main_arg7) := (W10_of_ne m ρ c main_arg7 (by decide))
    _ = W8 m ρ c (Proc.devRef .tc main_arg7) := (by show StableHlo.after hostOps3 (W8 m ρ c) (Proc.devRef .tc main_arg7) = _; after_results_through)
    _ = W7 m ρ c (Proc.devRef .tc main_arg7) := (W8_of_ne m ρ c main_arg7 (by decide))
    _ = W6 m ρ c (Proc.devRef .tc main_arg7) := (by show StableHlo.after hostOps2 (W6 m ρ c) (Proc.devRef .tc main_arg7) = _; after_results_through)
    _ = W5 m ρ c (Proc.devRef .tc main_arg7) := (W6_of_ne m ρ c main_arg7 (by decide))
    _ = W4 m ρ c (Proc.devRef .tc main_arg7) := (by show StableHlo.after hostOps1 (W4 m ρ c) (Proc.devRef .tc main_arg7) = _; after_results_through)
    _ = W3 m ρ c (Proc.devRef .tc main_arg7) := (W4_of_ne m ρ c main_arg7 (by decide))
    _ = W2 m ρ c (Proc.devRef .tc main_arg7) := (by show StableHlo.after hostOps0_2 (W2 m ρ c) (Proc.devRef .tc main_arg7) = _; after_results_through)
    _ = W1 m ρ c (Proc.devRef .tc main_arg7) := (by show StableHlo.after hostOps0_1 (W1 m ρ c) (Proc.devRef .tc main_arg7) = _; after_results_through)
    _ = W0 m ρ c (Proc.devRef .tc main_arg7) := (by show StableHlo.after hostOps0 (W0 m ρ c) (Proc.devRef .tc main_arg7) = _; after_results_through)

/-- No operation and no launch up to here writes the source row numbers. -/
theorem keep_v3_3_12 : W12 m ρ c (Proc.devRef .tc main_v3) = W3 m ρ c (Proc.devRef .tc main_v3) :=
  calc W12 m ρ c (Proc.devRef .tc main_v3)
    _ = W11 m ρ c (Proc.devRef .tc main_v3) := (W12_of_ne m ρ c main_v3 (by decide))
    _ = W10 m ρ c (Proc.devRef .tc main_v3) := (by show StableHlo.after hostOps4 (W10 m ρ c) (Proc.devRef .tc main_v3) = _; after_results_through)
    _ = W9 m ρ c (Proc.devRef .tc main_v3) := (W10_of_ne m ρ c main_v3 (by decide))
    _ = W8 m ρ c (Proc.devRef .tc main_v3) := (by show StableHlo.after hostOps3 (W8 m ρ c) (Proc.devRef .tc main_v3) = _; after_results_through)
    _ = W7 m ρ c (Proc.devRef .tc main_v3) := (W8_of_ne m ρ c main_v3 (by decide))
    _ = W6 m ρ c (Proc.devRef .tc main_v3) := (by show StableHlo.after hostOps2 (W6 m ρ c) (Proc.devRef .tc main_v3) = _; after_results_through)
    _ = W5 m ρ c (Proc.devRef .tc main_v3) := (W6_of_ne m ρ c main_v3 (by decide))
    _ = W4 m ρ c (Proc.devRef .tc main_v3) := (by show StableHlo.after hostOps1 (W4 m ρ c) (Proc.devRef .tc main_v3) = _; after_results_through)
    _ = W3 m ρ c (Proc.devRef .tc main_v3) := (W4_of_ne m ρ c main_v3 (by decide))

/-- No operation and no launch up to here writes the target row numbers. -/
theorem keep_v6_3_12 : W12 m ρ c (Proc.devRef .tc main_v6) = W3 m ρ c (Proc.devRef .tc main_v6) :=
  calc W12 m ρ c (Proc.devRef .tc main_v6)
    _ = W11 m ρ c (Proc.devRef .tc main_v6) := (W12_of_ne m ρ c main_v6 (by decide))
    _ = W10 m ρ c (Proc.devRef .tc main_v6) := (by show StableHlo.after hostOps4 (W10 m ρ c) (Proc.devRef .tc main_v6) = _; after_results_through)
    _ = W9 m ρ c (Proc.devRef .tc main_v6) := (W10_of_ne m ρ c main_v6 (by decide))
    _ = W8 m ρ c (Proc.devRef .tc main_v6) := (by show StableHlo.after hostOps3 (W8 m ρ c) (Proc.devRef .tc main_v6) = _; after_results_through)
    _ = W7 m ρ c (Proc.devRef .tc main_v6) := (W8_of_ne m ρ c main_v6 (by decide))
    _ = W6 m ρ c (Proc.devRef .tc main_v6) := (by show StableHlo.after hostOps2 (W6 m ρ c) (Proc.devRef .tc main_v6) = _; after_results_through)
    _ = W5 m ρ c (Proc.devRef .tc main_v6) := (W6_of_ne m ρ c main_v6 (by decide))
    _ = W4 m ρ c (Proc.devRef .tc main_v6) := (by show StableHlo.after hostOps1 (W4 m ρ c) (Proc.devRef .tc main_v6) = _; after_results_through)
    _ = W3 m ρ c (Proc.devRef .tc main_v6) := (W4_of_ne m ρ c main_v6 (by decide))

/-- The scale column is read, never written, up to the projection launch. -/
theorem keep_v16_3_11 : W11 m ρ c (Proc.devRef .tc main_v16) = W3 m ρ c (Proc.devRef .tc main_v16) :=
  calc W11 m ρ c (Proc.devRef .tc main_v16)
    _ = W10 m ρ c (Proc.devRef .tc main_v16) := (by show StableHlo.after hostOps4 (W10 m ρ c) (Proc.devRef .tc main_v16) = _; after_results_through)
    _ = W9 m ρ c (Proc.devRef .tc main_v16) := ((W10_arr m ρ c 2).trans (((dat3 (V9 m ρ) c).arrAt_in 2 rfl _).trans (A_eq3 (V9 m ρ) c 2)))
    _ = W8 m ρ c (Proc.devRef .tc main_v16) := (by show StableHlo.after hostOps3 (W8 m ρ c) (Proc.devRef .tc main_v16) = _; after_results_through)
    _ = W7 m ρ c (Proc.devRef .tc main_v16) := ((W8_arr m ρ c 2).trans (((dat2 (V7 m ρ) c).arrAt_in 2 rfl _).trans (A_eq2 (V7 m ρ) c 2)))
    _ = W6 m ρ c (Proc.devRef .tc main_v16) := (by show StableHlo.after hostOps2 (W6 m ρ c) (Proc.devRef .tc main_v16) = _; after_results_through)
    _ = W5 m ρ c (Proc.devRef .tc main_v16) := ((W6_arr m ρ c 2).trans (((dat1 (V5 m ρ) c).arrAt_in 2 rfl _).trans (A_eq1 (V5 m ρ) c 2)))
    _ = W4 m ρ c (Proc.devRef .tc main_v16) := (by show StableHlo.after hostOps1 (W4 m ρ c) (Proc.devRef .tc main_v16) = _; after_results_through)
    _ = W3 m ρ c (Proc.devRef .tc main_v16) := ((W4_arr m ρ c 2).trans (((dat0 (V3 m ρ) c).arrAt_in 2 rfl _).trans (A_eq0 (V3 m ρ) c 2)))

/-- The scale column is read, never written, up to the bias launch. -/
theorem keep_v16_3_13 : W13 m ρ c (Proc.devRef .tc main_v16) = W3 m ρ c (Proc.devRef .tc main_v16) :=
  calc W13 m ρ c (Proc.devRef .tc main_v16)
    _ = W12 m ρ c (Proc.devRef .tc main_v16) := (by show StableHlo.after hostOps5 (W12 m ρ c) (Proc.devRef .tc main_v16) = _; after_results_through)
    _ = W11 m ρ c (Proc.devRef .tc main_v16) := ((W12_arr m ρ c 2).trans (((dat4 (V11 m ρ) c).arrAt_in 2 rfl _).trans (A_eq4 (V11 m ρ) c 2)))
    _ = W10 m ρ c (Proc.devRef .tc main_v16) := (by show StableHlo.after hostOps4 (W10 m ρ c) (Proc.devRef .tc main_v16) = _; after_results_through)
    _ = W9 m ρ c (Proc.devRef .tc main_v16) := ((W10_arr m ρ c 2).trans (((dat3 (V9 m ρ) c).arrAt_in 2 rfl _).trans (A_eq3 (V9 m ρ) c 2)))
    _ = W8 m ρ c (Proc.devRef .tc main_v16) := (by show StableHlo.after hostOps3 (W8 m ρ c) (Proc.devRef .tc main_v16) = _; after_results_through)
    _ = W7 m ρ c (Proc.devRef .tc main_v16) := ((W8_arr m ρ c 2).trans (((dat2 (V7 m ρ) c).arrAt_in 2 rfl _).trans (A_eq2 (V7 m ρ) c 2)))
    _ = W6 m ρ c (Proc.devRef .tc main_v16) := (by show StableHlo.after hostOps2 (W6 m ρ c) (Proc.devRef .tc main_v16) = _; after_results_through)
    _ = W5 m ρ c (Proc.devRef .tc main_v16) := ((W6_arr m ρ c 2).trans (((dat1 (V5 m ρ) c).arrAt_in 2 rfl _).trans (A_eq1 (V5 m ρ) c 2)))
    _ = W4 m ρ c (Proc.devRef .tc main_v16) := (by show StableHlo.after hostOps1 (W4 m ρ c) (Proc.devRef .tc main_v16) = _; after_results_through)
    _ = W3 m ρ c (Proc.devRef .tc main_v16) := ((W4_arr m ρ c 2).trans (((dat0 (V3 m ρ) c).arrAt_in 2 rfl _).trans (A_eq0 (V3 m ρ) c 2)))

/-- The bias vector is as launched. -/
theorem keep_arg8_0_13 : W13 m ρ c (Proc.devRef .tc main_arg8) = W0 m ρ c (Proc.devRef .tc main_arg8) :=
  calc W13 m ρ c (Proc.devRef .tc main_arg8)
    _ = W12 m ρ c (Proc.devRef .tc main_arg8) := (by show StableHlo.after hostOps5 (W12 m ρ c) (Proc.devRef .tc main_arg8) = _; after_results_through)
    _ = W11 m ρ c (Proc.devRef .tc main_arg8) := (W12_of_ne m ρ c main_arg8 (by decide))
    _ = W10 m ρ c (Proc.devRef .tc main_arg8) := (by show StableHlo.after hostOps4 (W10 m ρ c) (Proc.devRef .tc main_arg8) = _; after_results_through)
    _ = W9 m ρ c (Proc.devRef .tc main_arg8) := (W10_of_ne m ρ c main_arg8 (by decide))
    _ = W8 m ρ c (Proc.devRef .tc main_arg8) := (by show StableHlo.after hostOps3 (W8 m ρ c) (Proc.devRef .tc main_arg8) = _; after_results_through)
    _ = W7 m ρ c (Proc.devRef .tc main_arg8) := (W8_of_ne m ρ c main_arg8 (by decide))
    _ = W6 m ρ c (Proc.devRef .tc main_arg8) := (by show StableHlo.after hostOps2 (W6 m ρ c) (Proc.devRef .tc main_arg8) = _; after_results_through)
    _ = W5 m ρ c (Proc.devRef .tc main_arg8) := (W6_of_ne m ρ c main_arg8 (by decide))
    _ = W4 m ρ c (Proc.devRef .tc main_arg8) := (by show StableHlo.after hostOps1 (W4 m ρ c) (Proc.devRef .tc main_arg8) = _; after_results_through)
    _ = W3 m ρ c (Proc.devRef .tc main_arg8) := (W4_of_ne m ρ c main_arg8 (by decide))
    _ = W2 m ρ c (Proc.devRef .tc main_arg8) := (by show StableHlo.after hostOps0_2 (W2 m ρ c) (Proc.devRef .tc main_arg8) = _; after_results_through)
    _ = W1 m ρ c (Proc.devRef .tc main_arg8) := (by show StableHlo.after hostOps0_1 (W1 m ρ c) (Proc.devRef .tc main_arg8) = _; after_results_through)
    _ = W0 m ρ c (Proc.devRef .tc main_arg8) := (by show StableHlo.after hostOps0 (W0 m ρ c) (Proc.devRef .tc main_arg8) = _; after_results_through)

/-- The weight matrix, narrowed. -/
theorem v43 : W11 m ρ c (Proc.devRef .tc main_v43) = (truncf (F := Ideal) .bf16 (m ((c : Thread nD τ).loc main_arg7)) bitsLt_bf16_f32 : FVec Ideal S256x256 .bf16) := by
  show StableHlo.after hostOps4 (W10 m ρ c) (Proc.devRef .tc main_v43) = _
  rw [host4_read, keep_arg7_0_10]

/-- After the projection launch: the previous layer projected and scaled row by row. -/
theorem v44 (H : S50000x256.Idx → EReal) (hH : W10 m ρ c (Proc.devRef .tc main_v42) = H) :
    W12 m ρ c (Proc.devRef .tc main_v44) = mmScaled 50000 256 H (truncf (F := Ideal) .bf16 (m ((c : Thread nD τ).loc main_arg7)) bitsLt_bf16_f32 : FVec Ideal S256x256 .bf16) (dcolP (m ((c : Thread nD τ).loc main_arg1))) := by
  refine (W12_arr m ρ c 3).trans ((RegionValues.arr4 (V11 m ρ) c).trans ?_)
  have e0 : V11 m ρ c (Pipeline.arrRef spec4 0) = H := (keep_v42_10_11 m ρ c).trans hH
  have e1 : V11 m ρ c (Pipeline.arrRef spec4 1) = (truncf (F := Ideal) .bf16 (m ((c : Thread nD τ).loc main_arg7)) bitsLt_bf16_f32 : FVec Ideal S256x256 .bf16) := v43 m ρ c
  have e2 : V11 m ρ c (Pipeline.arrRef spec4 2) = dcolP (m ((c : Thread nD τ).loc main_arg1)) := (keep_v16_3_11 m ρ c).trans (w3_v16 m ρ c)
  rw [e0, e1, e2]

/-- The gathered rows summed per target. -/
theorem v54 (H : S50000x256.Idx → EReal) (hH : W10 m ρ c (Proc.devRef .tc main_v42) = H) :
    W13 m ρ c (Proc.devRef .tc main_v54) = aggP (m ((c : Thread nD τ).loc main_arg1)) (mmScaled 50000 256 H (truncf (F := Ideal) .bf16 (m ((c : Thread nD τ).loc main_arg7)) bitsLt_bf16_f32 : FVec Ideal S256x256 .bf16) (dcolP (m ((c : Thread nD τ).loc main_arg1)))) := by
  show StableHlo.after hostOps5 (W12 m ρ c) (Proc.devRef .tc main_v54) = _
  rw [host5_read, keep_v6_3_12, w3_v6, keep_v3_3_12, w3_v3, v44 m ρ c H hH]
  rfl

/-- After the bias launch: the layer. -/
theorem v55 (H : S50000x256.Idx → EReal) (hH : W10 m ρ c (Proc.devRef .tc main_v42) = H) :
    W14 m ρ c (Proc.devRef .tc main_v55) = layerKP (m ((c : Thread nD τ).loc main_arg1)) H (truncf (F := Ideal) .bf16 (m ((c : Thread nD τ).loc main_arg7)) bitsLt_bf16_f32 : FVec Ideal S256x256 .bf16) (m ((c : Thread nD τ).loc main_arg8)) := by
  refine (W14_arr m ρ c 3).trans ((RegionValues.arr5 (V13 m ρ) c).trans ?_)
  have e0 : V13 m ρ c (Pipeline.arrRef spec5 0) = aggP (m ((c : Thread nD τ).loc main_arg1)) (mmScaled 50000 256 H (truncf (F := Ideal) .bf16 (m ((c : Thread nD τ).loc main_arg7)) bitsLt_bf16_f32 : FVec Ideal S256x256 .bf16) (dcolP (m ((c : Thread nD τ).loc main_arg1)))) := v54 m ρ c H hH
  have e1 : V13 m ρ c (Pipeline.arrRef spec5 1) = (m ((c : Thread nD τ).loc main_arg8)) := keep_arg8_0_13 m ρ c
  have e2 : V13 m ρ c (Pipeline.arrRef spec5 2) = dcolP (m ((c : Thread nD τ).loc main_arg1)) := (keep_v16_3_13 m ρ c).trans (w3_v16 m ρ c)
  rw [e0, e1, e2]
  rfl

/-- The graph numbers are as launched. -/
theorem keep_arg2_0_14 : W14 m ρ c (Proc.devRef .tc main_arg2) = W0 m ρ c (Proc.devRef .tc main_arg2) :=
  calc W14 m ρ c (Proc.devRef .tc main_arg2)
    _ = W13 m ρ c (Proc.devRef .tc main_arg2) := (W14_of_ne m ρ c main_arg2 (by decide))
    _ = W12 m ρ c (Proc.devRef .tc main_arg2) := (by show StableHlo.after hostOps5 (W12 m ρ c) (Proc.devRef .tc main_arg2) = _; after_results_through)
    _ = W11 m ρ c (Proc.devRef .tc main_arg2) := (W12_of_ne m ρ c main_arg2 (by decide))
    _ = W10 m ρ c (Proc.devRef .tc main_arg2) := (by show StableHlo.after hostOps4 (W10 m ρ c) (Proc.devRef .tc main_arg2) = _; after_results_through)
    _ = W9 m ρ c (Proc.devRef .tc main_arg2) := (W10_of_ne m ρ c main_arg2 (by decide))
    _ = W8 m ρ c (Proc.devRef .tc main_arg2) := (by show StableHlo.after hostOps3 (W8 m ρ c) (Proc.devRef .tc main_arg2) = _; after_results_through)
    _ = W7 m ρ c (Proc.devRef .tc main_arg2) := (W8_of_ne m ρ c main_arg2 (by decide))
    _ = W6 m ρ c (Proc.devRef .tc main_arg2) := (by show StableHlo.after hostOps2 (W6 m ρ c) (Proc.devRef .tc main_arg2) = _; after_results_through)
    _ = W5 m ρ c (Proc.devRef .tc main_arg2) := (W6_of_ne m ρ c main_arg2 (by decide))
    _ = W4 m ρ c (Proc.devRef .tc main_arg2) := (by show StableHlo.after hostOps1 (W4 m ρ c) (Proc.devRef .tc main_arg2) = _; after_results_through)
    _ = W3 m ρ c (Proc.devRef .tc main_arg2) := (W4_of_ne m ρ c main_arg2 (by decide))
    _ = W2 m ρ c (Proc.devRef .tc main_arg2) := (by show StableHlo.after hostOps0_2 (W2 m ρ c) (Proc.devRef .tc main_arg2) = _; after_results_through)
    _ = W1 m ρ c (Proc.devRef .tc main_arg2) := (by show StableHlo.after hostOps0_1 (W1 m ρ c) (Proc.devRef .tc main_arg2) = _; after_results_through)
    _ = W0 m ρ c (Proc.devRef .tc main_arg2) := (by show StableHlo.after hostOps0 (W0 m ρ c) (Proc.devRef .tc main_arg2) = _; after_results_through)

/-- The head's weights are as launched. -/
theorem keep_arg9_0_14 : W14 m ρ c (Proc.devRef .tc main_arg9) = W0 m ρ c (Proc.devRef .tc main_arg9) :=
  calc W14 m ρ c (Proc.devRef .tc main_arg9)
    _ = W13 m ρ c (Proc.devRef .tc main_arg9) := (W14_of_ne m ρ c main_arg9 (by decide))
    _ = W12 m ρ c (Proc.devRef .tc main_arg9) := (by show StableHlo.after hostOps5 (W12 m ρ c) (Proc.devRef .tc main_arg9) = _; after_results_through)
    _ = W11 m ρ c (Proc.devRef .tc main_arg9) := (W12_of_ne m ρ c main_arg9 (by decide))
    _ = W10 m ρ c (Proc.devRef .tc main_arg9) := (by show StableHlo.after hostOps4 (W10 m ρ c) (Proc.devRef .tc main_arg9) = _; after_results_through)
    _ = W9 m ρ c (Proc.devRef .tc main_arg9) := (W10_of_ne m ρ c main_arg9 (by decide))
    _ = W8 m ρ c (Proc.devRef .tc main_arg9) := (by show StableHlo.after hostOps3 (W8 m ρ c) (Proc.devRef .tc main_arg9) = _; after_results_through)
    _ = W7 m ρ c (Proc.devRef .tc main_arg9) := (W8_of_ne m ρ c main_arg9 (by decide))
    _ = W6 m ρ c (Proc.devRef .tc main_arg9) := (by show StableHlo.after hostOps2 (W6 m ρ c) (Proc.devRef .tc main_arg9) = _; after_results_through)
    _ = W5 m ρ c (Proc.devRef .tc main_arg9) := (W6_of_ne m ρ c main_arg9 (by decide))
    _ = W4 m ρ c (Proc.devRef .tc main_arg9) := (by show StableHlo.after hostOps1 (W4 m ρ c) (Proc.devRef .tc main_arg9) = _; after_results_through)
    _ = W3 m ρ c (Proc.devRef .tc main_arg9) := (W4_of_ne m ρ c main_arg9 (by decide))
    _ = W2 m ρ c (Proc.devRef .tc main_arg9) := (by show StableHlo.after hostOps0_2 (W2 m ρ c) (Proc.devRef .tc main_arg9) = _; after_results_through)
    _ = W1 m ρ c (Proc.devRef .tc main_arg9) := (by show StableHlo.after hostOps0_1 (W1 m ρ c) (Proc.devRef .tc main_arg9) = _; after_results_through)
    _ = W0 m ρ c (Proc.devRef .tc main_arg9) := (by show StableHlo.after hostOps0 (W0 m ρ c) (Proc.devRef .tc main_arg9) = _; after_results_through)

/-- The head's bias is as launched. -/
theorem keep_arg10_0_14 : W14 m ρ c (Proc.devRef .tc main_arg10) = W0 m ρ c (Proc.devRef .tc main_arg10) :=
  calc W14 m ρ c (Proc.devRef .tc main_arg10)
    _ = W13 m ρ c (Proc.devRef .tc main_arg10) := (W14_of_ne m ρ c main_arg10 (by decide))
    _ = W12 m ρ c (Proc.devRef .tc main_arg10) := (by show StableHlo.after hostOps5 (W12 m ρ c) (Proc.devRef .tc main_arg10) = _; after_results_through)
    _ = W11 m ρ c (Proc.devRef .tc main_arg10) := (W12_of_ne m ρ c main_arg10 (by decide))
    _ = W10 m ρ c (Proc.devRef .tc main_arg10) := (by show StableHlo.after hostOps4 (W10 m ρ c) (Proc.devRef .tc main_arg10) = _; after_results_through)
    _ = W9 m ρ c (Proc.devRef .tc main_arg10) := (W10_of_ne m ρ c main_arg10 (by decide))
    _ = W8 m ρ c (Proc.devRef .tc main_arg10) := (by show StableHlo.after hostOps3 (W8 m ρ c) (Proc.devRef .tc main_arg10) = _; after_results_through)
    _ = W7 m ρ c (Proc.devRef .tc main_arg10) := (W8_of_ne m ρ c main_arg10 (by decide))
    _ = W6 m ρ c (Proc.devRef .tc main_arg10) := (by show StableHlo.after hostOps2 (W6 m ρ c) (Proc.devRef .tc main_arg10) = _; after_results_through)
    _ = W5 m ρ c (Proc.devRef .tc main_arg10) := (W6_of_ne m ρ c main_arg10 (by decide))
    _ = W4 m ρ c (Proc.devRef .tc main_arg10) := (by show StableHlo.after hostOps1 (W4 m ρ c) (Proc.devRef .tc main_arg10) = _; after_results_through)
    _ = W3 m ρ c (Proc.devRef .tc main_arg10) := (W4_of_ne m ρ c main_arg10 (by decide))
    _ = W2 m ρ c (Proc.devRef .tc main_arg10) := (by show StableHlo.after hostOps0_2 (W2 m ρ c) (Proc.devRef .tc main_arg10) = _; after_results_through)
    _ = W1 m ρ c (Proc.devRef .tc main_arg10) := (by show StableHlo.after hostOps0_1 (W1 m ρ c) (Proc.devRef .tc main_arg10) = _; after_results_through)
    _ = W0 m ρ c (Proc.devRef .tc main_arg10) := (by show StableHlo.after hostOps0 (W0 m ρ c) (Proc.devRef .tc main_arg10) = _; after_results_through)

/-- The program's result: the pooling head of the third layer. -/
theorem v71 (H : S50000x256.Idx → EReal) (hH : W10 m ρ c (Proc.devRef .tc main_v42) = H) :
    W15 m ρ c (Proc.devRef .tc main_v71)
      = tailP (m ((c : Thread nD τ).loc main_arg2)) (layerKP (m ((c : Thread nD τ).loc main_arg1)) H (truncf (F := Ideal) .bf16 (m ((c : Thread nD τ).loc main_arg7)) bitsLt_bf16_f32 : FVec Ideal S256x256 .bf16) (m ((c : Thread nD τ).loc main_arg8))) (m ((c : Thread nD τ).loc main_arg9)) (m ((c : Thread nD τ).loc main_arg10)) := by
  show StableHlo.after hostOps6 (W14 m ρ c) (Proc.devRef .tc main_v71) = _
  rw [host6_read, keep_arg2_0_14, keep_arg9_0_14, keep_arg10_0_14, v55 m ρ c H hH]

end Cert.KernelIdeal.Chain

end
-- ==== Proof.KValue.lean ====
/-
  The kernel program's result: the three layers, one inside the other, and the pooling head, of the arguments as launched.
-/
import proofs.«102876_j84971632984099_2_alg».proof.Proof.Gen.KernelIdeal.Frame
import proofs.«102876_j84971632984099_2_alg».proof.Proof.KForms
import proofs.«102876_j84971632984099_2_alg».proof.Proof.LibReadThrough
import proofs.«102876_j84971632984099_2_alg».proof.Proof.KChainA
import proofs.«102876_j84971632984099_2_alg».proof.Proof.KChainB
import proofs.«102876_j84971632984099_2_alg».proof.Proof.KChainC

set_option maxRecDepth 16384

noncomputable section

namespace Cert.KernelIdeal.Chain

open Cert.KernelIdeal Cert.KernelIdeal.Gen Cert.KernelIdeal.Forms
open Idealize.ShloMosaic Idealize.ShloMosaic.TcCoe Idealize.ShloMosaic.StableHlo Idealize.SL.Sem
open Idealize.ShloMosaic.Pipeline (Dat Cfg Window)
open Cert.Net

variable (m : (ℓ : Loc nD τ sig) → Buf (Elt Ideal) ℓ) (ρ : Dev nD → PrngReg) (c : Dev nD)

/-- The head of three layers of the arguments as launched. -/
def kOut : FVec Ideal S64x16 .f32 :=
  tailP (m ((c : Thread nD τ).loc main_arg2))
    (layerKP (m ((c : Thread nD τ).loc main_arg1))
      (layerKP (m ((c : Thread nD τ).loc main_arg1))
        (layerKP (m ((c : Thread nD τ).loc main_arg1)) (m ((c : Thread nD τ).loc main_arg0)) (truncf (F := Ideal) .bf16 (m ((c : Thread nD τ).loc main_arg3)) bitsLt_bf16_f32 : FVec Ideal S256x256 .bf16) (m ((c : Thread nD τ).loc main_arg4)))
        (truncf (F := Ideal) .bf16 (m ((c : Thread nD τ).loc main_arg5)) bitsLt_bf16_f32 : FVec Ideal S256x256 .bf16) (m ((c : Thread nD τ).loc main_arg6)))
      (truncf (F := Ideal) .bf16 (m ((c : Thread nD τ).loc main_arg7)) bitsLt_bf16_f32 : FVec Ideal S256x256 .bf16) (m ((c : Thread nD τ).loc main_arg8)))
    (m ((c : Thread nD τ).loc main_arg9)) (m ((c : Thread nD τ).loc main_arg10))

/-- The kernel program's result buffer ends at that value. -/
theorem kernel_value : W15 m ρ c (Proc.devRef .tc main_v71) = kOut m c :=
  v71 m ρ c _ (v42 m ρ c _ (v29 m ρ c))

end Cert.KernelIdeal.Chain

end
-- ==== Proof.RefForms.lean ====
/-
  The reference program's result, folded into its stages: the edge lists, the per-node scale, one layer as a function
  of the features going in, and the pooling head. The result the program's run states is the head applied to three
  layers, one inside the other.
-/
import proofs.«102876_j84971632984099_2_alg».proof.Proof.RefRun
import Idealize.ShloMosaic.PureOps.Ideal

set_option maxRecDepth 16384

noncomputable section

namespace Cert.ReferenceIdeal.Forms

open Cert.ReferenceIdeal Cert.ReferenceIdeal.Gen Idealize.ShloMosaic Idealize.ShloMosaic.TcCoe Idealize.SL.Sem

/-- The edge list's source row numbers: row 0 of the edge array followed by one self-loop per node. -/
def srcP (ei : IVec S2x400000 32) : IVec S450000 32 :=
  concatenate S450000 0 [⟨S400000, (shapeCast _ (extractStridedSlice S1x400000 ![0, 0] ei slices_S2x400000_S1x400000_0_0) shapeCasts_S1x400000_S400000)⟩, ⟨S50000, (iotaInDim S50000 32 0)⟩] concatenates_S400000_S50000_S450000_d0

/-- The edge list's target row numbers: row 1 of the edge array followed by one self-loop per node. -/
def dstP (ei : IVec S2x400000 32) : IVec S450000 32 :=
  concatenate S450000 0 [⟨S400000, (shapeCast _ (extractStridedSlice S1x400000 ![1, 0] ei slices_S2x400000_S1x400000_1_0) shapeCasts_S1x400000_S400000)⟩, ⟨S50000, (iotaInDim S50000 32 0)⟩] concatenates_S400000_S50000_S450000_d0

/-- The degree of every node: ones summed per target onto zeros. -/
def degP (ei : IVec S2x400000 32) : FVec Ideal S50000 .f32 :=
  Host.scatterAdd scatter_S50000_S450000x1_S450000_n_0_0_1 (broadcastInDim S50000 ![] bcast_S_S50000 (constant S_ .f32 0x00000000#32)) (broadcastInDim S450000x1 ![0] bcast_S450000_S450000x1_0 (dstP ei)) (broadcastInDim S450000 ![] bcast_S_S450000 (constant S_ .f32 0x3F800000#32))

/-- The guarded inverse square root of a degree vector. -/
def disOf (deg : FVec Ideal S50000 .f32) : FVec Ideal S50000 .f32 :=
  select (cmpf (F := Ideal) .ogt deg (broadcastInDim S50000 ![] bcast_S_S50000 (constant S_ .f32 0x00000000#32))) (Host.rsqrt deg) (broadcastInDim S50000 ![] bcast_S_S50000 (constant S_ .f32 0x00000000#32))

/-- The per-node scale. -/
def disP (ei : IVec S2x400000 32) : FVec Ideal S50000 .f32 := disOf (degP ei)

/-- A vector of row numbers with the negative ones wrapped. -/
def wrapP (v : IVec S450000 32) : IVec S450000 32 :=
  select (cmpi .slt v (broadcastInDim S450000 ![] bcast_S_S450000 (constantI S_ 32 0#32))) (addi v (broadcastInDim S450000 ![] bcast_S_S450000 (constantI S_ 32 50000#32))) v

/-- One layer of the reference, as printed: project, gather every edge's source row and weigh it by the product of
    its two ends' scales, sum per target onto zeros, add the bias, rectify. -/
def layerP (ei : IVec S2x400000 32) (h : FVec Ideal S50000x256 .f32) (w : FVec Ideal S256x256 .f32) (b : FVec Ideal S256 .f32) :
    FVec Ideal S50000x256 .f32 :=
  maximumf (addf (Host.scatterAdd scatter_S50000x256_S450000x1_S450000x256_1_0_0_1 (broadcastInDim S50000x256 ![] bcast_S_S50000x256 (constant S_ .f32 0x00000000#32)) (broadcastInDim S450000x1 ![0] bcast_S450000_S450000x1_0 (dstP ei)) (mulf (Host.gather gather_S50000x256_S450000x1_S450000x256_1_0_n_n_0_1_1256 (Host.dotGeneral dot_S50000x256_S256x256_S50000x256_1_0_0_1_n_n none h w) (broadcastInDim S450000x1 ![0] bcast_S450000_S450000x1_0 (wrapP (srcP ei)))) (broadcastInDim S450000x256 ![0, 1] bcast_S450000x1_S450000x256_0_1 (broadcastInDim S450000x1 ![0] bcast_S450000_S450000x1_0 (mulf (Host.gather gather_S50000_S450000x1_S450000_n_0_n_n_0_1_1 (disP ei) (broadcastInDim S450000x1 ![0] bcast_S450000_S450000x1_0 (wrapP (srcP ei)))) (Host.gather gather_S50000_S450000x1_S450000_n_0_n_n_0_1_1 (disP ei) (broadcastInDim S450000x1 ![0] bcast_S450000_S450000x1_0 (wrapP (dstP ei))))))))) (broadcastInDim S50000x256 ![0, 1] bcast_S1x256_S50000x256_0_1 (broadcastInDim S1x256 ![1] bcast_S256_S1x256_1 b))) (broadcastInDim S50000x256 ![] bcast_S_S50000x256 (constant S_ .f32 0x00000000#32))

/-- The pooling head, as printed: the rows summed per graph, divided by the graph's node count (at least one),
    projected and biased. -/
def tailP (batch : IVec S50000 32) (h : FVec Ideal S50000x256 .f32) (wfc : FVec Ideal S256x16 .f32) (bfc : FVec Ideal S16 .f32) :
    FVec Ideal S64x16 .f32 :=
  addf (Host.dotGeneral dot_S64x256_S256x16_S64x16_1_0_0_1_n_n none (Host.divf (Host.scatterAdd scatter_S64x256_S50000x1_S50000x256_1_0_0_1 (broadcastInDim S64x256 ![] bcast_S_S64x256 (constant S_ .f32 0x00000000#32)) (broadcastInDim S50000x1 ![0] bcast_S50000_S50000x1_0 batch) h) (broadcastInDim S64x256 ![0, 1] bcast_S64x1_S64x256_0_1 (broadcastInDim S64x1 ![0] bcast_S64_S64x1_0 (maximumf (Host.scatterAdd scatter_S64_S50000x1_S50000_n_0_0_1 (broadcastInDim S64 ![] bcast_S_S64 (constant S_ .f32 0x00000000#32)) (broadcastInDim S50000x1 ![0] bcast_S50000_S50000x1_0 batch) (broadcastInDim S50000 ![] bcast_S_S50000 (constant S_ .f32 0x3F800000#32))) (broadcastInDim S64 ![] bcast_S_S64 (constant S_ .f32 0x3F800000#32)))))) wfc) (broadcastInDim S64x16 ![0, 1] bcast_S1x16_S64x16_0_1 (broadcastInDim S1x16 ![1] bcast_S16_S1x16_1 bfc))

/-- The run's result term is the head of three layers. -/
theorem res_eq (m : (ℓ : Loc nD τ sig) → Buf (Elt Ideal) ℓ) (c : Dev nD) :
    ValueP.res_main_v162 (F := Ideal) m c
      = tailP (m ((c.tc : Thread nD τ).loc main_arg2))
          (layerP (m ((c.tc : Thread nD τ).loc main_arg1))
            (layerP (m ((c.tc : Thread nD τ).loc main_arg1))
              (layerP (m ((c.tc : Thread nD τ).loc main_arg1)) (m ((c.tc : Thread nD τ).loc main_arg0))
                (m ((c.tc : Thread nD τ).loc main_arg3)) (m ((c.tc : Thread nD τ).loc main_arg4)))
              (m ((c.tc : Thread nD τ).loc main_arg5)) (m ((c.tc : Thread nD τ).loc main_arg6)))
            (m ((c.tc : Thread nD τ).loc main_arg7)) (m ((c.tc : Thread nD τ).loc main_arg8)))
          (m ((c.tc : Thread nD τ).loc main_arg9)) (m ((c.tc : Thread nD τ).loc main_arg10)) := rfl

end Cert.ReferenceIdeal.Forms

end
-- ==== Proof.RefLayer.lean ====
/-
  One layer of the reference, read at an entry: it is the edge-weighing arrangement of the layer, with the projection
  written as a sum over the contracted position, the bias vector laid against every row, and the rectifier a maximum
  against zero.
-/
import proofs.«102876_j84971632984099_2_alg».proof.Proof.RefForms
import proofs.«102876_j84971632984099_2_alg».proof.Proof.Net
import Idealize.ShloMosaic.Lib.Pipeline.Value
import Idealize.ShloMosaic.PureOps.Ideal.Laws

set_option maxRecDepth 16384

noncomputable section

namespace Cert.ReferenceIdeal.Forms

open Cert.ReferenceIdeal Cert.ReferenceIdeal.Gen Idealize.ShloMosaic Idealize.ShloMosaic.TcCoe Idealize.SL.Sem
open Idealize.ShloMosaic.ValueIdx Idealize.ShloMosaic.RowIndex Cert.Gcn Cert.Net

/-- The array of zeros the sums start from. -/
abbrev zP : FVec Ideal S50000x256 .f32 := broadcastInDim S50000x256 ![] bcast_S_S50000x256 (constant S_ .f32 0x00000000#32)

theorem zP_apply (i : S50000x256.Idx) : zP i = 0 := by
  show broadcastInDim S50000x256 ![] bcast_S_S50000x256 (constant (F := Ideal) S_ .f32 0x00000000#32) i = 0
  rw [broadcastInDim_apply _ bcast_S_S50000x256 _ i ix0 (fun ax => ax.elim0), constant_apply, Ideal.ofBits_zero_f32]

/-- The host's projection is the sum over the contracted position. -/
theorem dot_eq_proj (h : FVec Ideal S50000x256 .f32) (w : FVec Ideal S256x256 .f32) :
    Host.dotGeneral dot_S50000x256_S256x256_S50000x256_1_0_0_1_n_n none h w = proj 50000 256 h w := by
  funext i
  obtain ⟨p, q, rfl⟩ : ∃ (p : Fin 50000) (q : Fin 256), i = ix2 p q := ⟨_, _, eq_ix2 i⟩
  exact dotGeneral_ix2 dot_S50000x256_S256x256_S50000x256_1_0_0_1_n_n rfl rfl rfl rfl rfl rfl none .single h w p q

/-- The reference's layer is the edge-weighing arrangement. -/
theorem layerP_eq (ei : IVec S2x400000 32) (h : FVec Ideal S50000x256 .f32) (w : FVec Ideal S256x256 .f32) (b : FVec Ideal S256 .f32) :
    layerP ei h w b
      = layerR 50000 256 450000 Facts₀.gather_S50000x256_S450000x1_S450000x256_1_0_n_n_0_1_1256_wf
          Facts₀.scatter_S50000x256_S450000x1_S450000x256_1_0_0_1_wf Facts₀.gather_S50000_S450000x1_S450000_n_0_n_n_0_1_1_wf
          bcast_S450000_S450000x1_0 bcast_S450000x1_S450000x256_0_1 zP h w b (disP ei) (wrapP (srcP ei)) (wrapP (dstP ei)) (dstP ei) := by
  funext i
  obtain ⟨p, q, rfl⟩ : ∃ (p : Fin 50000) (q : Fin 256), i = ix2 p q := ⟨_, _, eq_ix2 i⟩
  unfold layerP layerR
  rw [dot_eq_proj, maximumf_apply, addf_apply]
  refine congrArg₂ max (congrArg₂ (· + ·) rfl ?_) ?_
  · rw [broadcastInDim_apply _ bcast_S1x256_S50000x256_0_1 _ (ix2 p q) (ix2 (0 : Fin 1) q)
        (fun a => by match a with | ⟨0, _⟩ => rfl | ⟨1, _⟩ => rfl),
      broadcastInDim_apply _ bcast_S256_S1x256_1 _ (ix2 (0 : Fin 1) q) (ix1 q)
        (fun a => by match a with | ⟨0, _⟩ => rfl)]
  · exact broadcastInDim_apply _ bcast_S_S50000x256 _ (ix2 p q) ix0 (fun ax => ax.elim0)

end Cert.ReferenceIdeal.Forms

end
-- ==== Proof.Bridge.lean ====
/-
  The two programs' layers agree, and so do their heads.

  Both programs build the same edge lists, the same degrees and the same guarded inverse square root of the degrees
  from the edge array; the reference weighs every gathered row by the product of its two ends' scales where the
  kernel's program scales once per node before the gather and once per node after the sum. The scale is a
  nonnegative real at every node (whatever the degree), so the two layers are one function of the features, the
  weights and the bias. A narrowing of the weights to bf16 changes nothing on the extended reals.
-/
import proofs.«102876_j84971632984099_2_alg».proof.Proof.KForms
import proofs.«102876_j84971632984099_2_alg».proof.Proof.RefLayer
import Idealize.ShloMosaic.PureOps.Ideal.Laws

set_option maxRecDepth 16384

noncomputable section

namespace Cert.Bridge

open Idealize.ShloMosaic Idealize.ShloMosaic.ValueIdx Idealize.ShloMosaic.RowIndex Cert.Gcn Cert.Net

namespace K
open Cert.KernelIdeal Cert.KernelIdeal.Gen Cert.KernelIdeal.Forms

theorem zK_apply (i : S50000x256.Idx) : zK i = 0 := by
  show broadcastInDim S50000x256 ![] bcast_S_S50000x256 (constant (F := Ideal) S_ .f32 0x00000000#32) i = 0
  rw [broadcastInDim_apply _ bcast_S_S50000x256 _ i ix0 (fun ax => ax.elim0), constant_apply, Ideal.ofBits_zero_f32]

/-- The guarded inverse square root of any degree vector is a nonnegative real at every node. -/
theorem disOf_nonneg (deg : FVec Ideal S50000 .f32) : NonnegReal (disOf deg) := by
  intro i
  have hz : broadcastInDim S50000 ![] bcast_S_S50000 (constant (F := Ideal) S_ .f32 0x00000000#32) i = 0 := by
    rw [broadcastInDim_apply _ bcast_S_S50000 _ i ix0 (fun ax => ax.elim0), constant_apply, Ideal.ofBits_zero_f32]
  show ∃ r : ℝ, 0 ≤ r ∧ Scalar.select
      (Ideal.cmp .ogt (deg i) (broadcastInDim S50000 ![] bcast_S_S50000 (constant (F := Ideal) S_ .f32 0x00000000#32) i))
      (Ideal.rsqrt (deg i)) (broadcastInDim S50000 ![] bcast_S_S50000 (constant (F := Ideal) S_ .f32 0x00000000#32) i) = (r : EReal)
  rw [hz]
  exact ERealSum.guarded_rsqrt_real (deg i)

/-- The wrapped row numbers are the row numbers with 50000 added to the negative ones. -/
theorem wrapP_isWrap (v : IVec S450000 32) : IsWrapOf 450000 50000#32 (wrapP v) v := fun _ => rfl

end K

/-- Narrowing to bf16 is the identity on the extended reals. -/
theorem truncf_id {s : Shape} (w : FVec Ideal s .f32) (h : FTy.bf16.bits < FTy.f32.bits) :
    (truncf (F := Ideal) .bf16 w h : FVec Ideal s .bf16) = w := rfl

/-- The two programs build the same edge lists, scale and zeros. -/
theorem srcP_eq (ei : IVec ⟨2, ![2, 400000]⟩ 32) : Cert.ReferenceIdeal.Forms.srcP ei = Cert.KernelIdeal.Forms.srcP ei := rfl
theorem dstP_eq (ei : IVec ⟨2, ![2, 400000]⟩ 32) : Cert.ReferenceIdeal.Forms.dstP ei = Cert.KernelIdeal.Forms.dstP ei := rfl
theorem disP_eq (ei : IVec ⟨2, ![2, 400000]⟩ 32) : Cert.ReferenceIdeal.Forms.disP ei = Cert.KernelIdeal.Forms.disP ei := rfl
theorem wrapP_eq (v : IVec ⟨1, ![450000]⟩ 32) : Cert.ReferenceIdeal.Forms.wrapP v = Cert.KernelIdeal.Forms.wrapP v := rfl
theorem z_eq : Cert.ReferenceIdeal.Forms.zP = Cert.KernelIdeal.Forms.zK := rfl

/-- One layer of the reference is one layer of the kernel's program. -/
theorem layer_agree (ei : IVec ⟨2, ![2, 400000]⟩ 32) (h : FVec Ideal ⟨2, ![50000, 256]⟩ .f32) (w : FVec Ideal ⟨2, ![256, 256]⟩ .f32)
    (b : FVec Ideal ⟨1, ![256]⟩ .f32) :
    Cert.ReferenceIdeal.Forms.layerP ei h w b = Cert.KernelIdeal.Forms.layerKP ei h w b := by
  rw [Cert.ReferenceIdeal.Forms.layerP_eq, Cert.KernelIdeal.Forms.layerKP_eq, srcP_eq, dstP_eq, disP_eq, wrapP_eq, wrapP_eq, z_eq]
  exact (layerK_eq_layerR 50000 256 450000 (by norm_num) _ _ _ Cert.KernelIdeal.Gen.bcast_S50000_S50000x1_0 (by decide) _ _ _
    50000#32 _ _ h w b _ _ _ _ K.zK_apply K.zK_apply (K.disOf_nonneg _) (K.wrapP_isWrap _)).symm

/-- The two heads are one function. -/
theorem tail_agree (batch : IVec ⟨1, ![50000]⟩ 32) (h : FVec Ideal ⟨2, ![50000, 256]⟩ .f32) (wfc : FVec Ideal ⟨2, ![256, 16]⟩ .f32)
    (bfc : FVec Ideal ⟨1, ![16]⟩ .f32) :
    Cert.ReferenceIdeal.Forms.tailP batch h wfc bfc = Cert.KernelIdeal.Forms.tailP batch h wfc bfc := rfl

/-- The reference's three layers and head are the kernel program's. -/
theorem net_agree (ei : IVec ⟨2, ![2, 400000]⟩ 32) (batch : IVec ⟨1, ![50000]⟩ 32) (x : FVec Ideal ⟨2, ![50000, 256]⟩ .f32)
    (w1 w2 w3 : FVec Ideal ⟨2, ![256, 256]⟩ .f32) (b1 b2 b3 : FVec Ideal ⟨1, ![256]⟩ .f32)
    (wfc : FVec Ideal ⟨2, ![256, 16]⟩ .f32) (bfc : FVec Ideal ⟨1, ![16]⟩ .f32) (hb : FTy.bf16.bits < FTy.f32.bits) :
    Cert.ReferenceIdeal.Forms.tailP batch
        (Cert.ReferenceIdeal.Forms.layerP ei (Cert.ReferenceIdeal.Forms.layerP ei (Cert.ReferenceIdeal.Forms.layerP ei x w1 b1) w2 b2) w3 b3)
        wfc bfc
      = Cert.KernelIdeal.Forms.tailP batch
        (Cert.KernelIdeal.Forms.layerKP ei
          (Cert.KernelIdeal.Forms.layerKP ei
            (Cert.KernelIdeal.Forms.layerKP ei x (truncf (F := Ideal) .bf16 w1 hb : FVec Ideal ⟨2, ![256, 256]⟩ .bf16) b1)
            (truncf (F := Ideal) .bf16 w2 hb : FVec Ideal ⟨2, ![256, 256]⟩ .bf16) b2)
          (truncf (F := Ideal) .bf16 w3 hb : FVec Ideal ⟨2, ![256, 256]⟩ .bf16) b3)
        wfc bfc := by
  rw [truncf_id, truncf_id, truncf_id, layer_agree, layer_agree, layer_agree, tail_agree]

end Cert.Bridge

end
-- ==== Proof.lean ====
/-
  The certificate of a three-layer graph-convolution network with mean pooling and a linear head: the kernel's program
  (a projection kernel and a bias kernel launched once per layer, the gather and the per-target sum on the host) against
  the jnp reference.

  Each layer computes, for a node n and a feature q,
      max ( Σ_{edges e into n} (Σ_k x (src e, k) · w (k, q)) · dis (src e) · dis n + b q, 0 ),
  dis the guarded inverse square root of the in-degree (self-loops included). The reference multiplies every gathered
  row by dis (src e) · dis (dst e) before summing; the kernel's program multiplies row i of the projection by dis i
  once, before the gather, and the summed row n by dis n once, after. The factor dis n is the same for every edge summed
  into n and is a nonnegative real whatever the degree, so it moves across the sum of extended reals: the two layers
  are one function, index by index, and the pooling heads are the same operations.

  The frames of the two kernel programs are the generated ones; the reference's frame is its run with the result
  dropped. The ideal pass rewrote nothing, so the kernel's idealization is the program's own text.
-/
import proofs.«102876_j84971632984099_2_alg».proof.Defs
import proofs.«102876_j84971632984099_2_alg».proof.Proof.Gen.Kernel
import proofs.«102876_j84971632984099_2_alg».proof.Proof.Gen.Kernel.Skeleton
import proofs.«102876_j84971632984099_2_alg».proof.Proof.Gen.Kernel.Launch
import proofs.«102876_j84971632984099_2_alg».proof.Proof.Gen.Kernel.Points
import proofs.«102876_j84971632984099_2_alg».proof.Proof.Gen.Kernel.Frame
import proofs.«102876_j84971632984099_2_alg».proof.Proof.Gen.KernelIdeal
import proofs.«102876_j84971632984099_2_alg».proof.Proof.Gen.KernelIdeal.Skeleton
import proofs.«102876_j84971632984099_2_alg».proof.Proof.Gen.KernelIdeal.Launch
import proofs.«102876_j84971632984099_2_alg».proof.Proof.Gen.KernelIdeal.Points
import proofs.«102876_j84971632984099_2_alg».proof.Proof.Gen.KernelIdeal.Frame
import proofs.«102876_j84971632984099_2_alg».proof.Proof.Gen.ReferenceIdeal
import proofs.«102876_j84971632984099_2_alg».proof.Proof.Gen.Pre_finite_inputs
import proofs.«102876_j84971632984099_2_alg».proof.Proof.KRun
import proofs.«102876_j84971632984099_2_alg».proof.Proof.KValue
import proofs.«102876_j84971632984099_2_alg».proof.Proof.RefRun
import proofs.«102876_j84971632984099_2_alg».proof.Proof.RefForms
import proofs.«102876_j84971632984099_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both programs, from memories agreeing on the arguments, end at the head of three layers of the same arguments. -/
theorem algebraic : Cert.algebraic_KernelIdeal_ReferenceIdeal := by
  intro m ρ m' ρ' _ hagree
  refine ⟨fun c => Cert.KernelIdeal.Chain.kOut m c, (θ_run Cert.KernelIdeal.defs _ _).mono (fun _ h c => ⟨(h c).1.trans (Cert.KernelIdeal.Chain.kernel_value m ρ c), (h c).2⟩)
    (Cert.KernelIdeal.RunValue.run_result (F := Ideal) m ρ), ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  rw [Cert.ReferenceIdeal.Forms.res_eq, h0, h1, h2, h3, h4, h5, h6, h7, h8, h9, h10]
  exact Cert.Bridge.net_agree _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
